-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v198) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x10x100 : Shape := ⟨3, ![16384, 10, 100]⟩
abbrev S10x100x5x5 : Shape := ⟨4, ![10, 100, 5, 5]⟩
abbrev S_ : Shape := ⟨0, ![]⟩

class Facts : Prop where
  bcast_S_S16384x10x100 : S_.BroadcastsInDim S16384x10x100 (![] : Fin 0 → Fin S16384x10x100.rank)
  reducesTo_S16384x10x100_S_d0_1_2 : S16384x10x100.ReducesTo [0, 1, 2] S_
  h_S_ : 0 < S_.numel
  bcast_S_S10x100x5x5 : S_.BroadcastsInDim S10x100x5x5 (![] : Fin 0 → Fin S10x100x5x5.rank)
  reducesTo_S10x100x5x5_S_d0_1_2_3 : S10x100x5x5.ReducesTo [0, 1, 2, 3] S_

variable [Facts]

def fn {F : FTy → Type} [FloatOps F] (main_arg0 : FVec F S16384x10x100 .f32) (main_arg1 : FVec F S10x100x5x5 .f32) : IVec S_ 1 :=
  let main_v0 : FVec F S16384x10x100 .f32 := Host.absf main_arg0
  let main_cst : FVec F S_ .f32 := constant S_ .f32 0x7F800000#32
  let main_v1 : FVec F S16384x10x100 .f32 := broadcastInDim S16384x10x100 ![] bcast_S_S16384x10x100 main_cst
  let main_v2 : IVec S16384x10x100 1 := cmpf .olt main_v0 main_v1
  let main_c : IVec S_ 1 := constantI S_ 1 1#1
  let main_v3 : IVec S_ 1 := (fun x v => Host.reduce IntOp.andi x v reducesTo_S16384x10x100_S_d0_1_2 h_S_) main_v2 main_c
  let main_v4 : FVec F S10x100x5x5 .f32 := Host.absf main_arg1
  let main_cst_0 : FVec F S_ .f32 := constant S_ .f32 0x7F800000#32
  let main_v5 : FVec F S10x100x5x5 .f32 := broadcastInDim S10x100x5x5 ![] bcast_S_S10x100x5x5 main_cst_0
  let main_v6 : IVec S10x100x5x5 1 := cmpf .olt main_v4 main_v5
  let main_c_1 : IVec S_ 1 := constantI S_ 1 1#1
  let main_v7 : IVec S_ 1 := (fun x v => Host.reduce IntOp.andi x v reducesTo_S10x100x5x5_S_d0_1_2_3 h_S_) main_v6 main_c_1
  let main_v8 : IVec S_ 1 := andi main_v3 main_v7
  main_v8
-- ==== Kernel.lean ====
abbrev S16384x10x100 : Shape := ⟨3, ![16384, 10, 100]⟩
abbrev S10x100x5x5 : Shape := ⟨4, ![10, 100, 5, 5]⟩
abbrev S5x5x10x100 : Shape := ⟨4, ![5, 5, 10, 100]⟩
abbrev S16384x200 : Shape := ⟨2, ![16384, 200]⟩
abbrev S1024x10x100 : Shape := ⟨3, ![1024, 10, 100]⟩
abbrev S1024x200 : Shape := ⟨2, ![1024, 200]⟩
abbrev S10x1024x100 : Shape := ⟨3, ![10, 1024, 100]⟩
abbrev S2x1024x100 : Shape := ⟨3, ![2, 1024, 100]⟩
abbrev S14x1024x100 : Shape := ⟨3, ![14, 1024, 100]⟩
abbrev S14x1024x2 : Shape := ⟨3, ![14, 1024, 2]⟩
abbrev S14x1024x104 : Shape := ⟨3, ![14, 1024, 104]⟩
abbrev S1x1x10x100 : Shape := ⟨4, ![1, 1, 10, 100]⟩
abbrev S10x100 : Shape := ⟨2, ![10, 100]⟩
abbrev S10x1x100 : Shape := ⟨3, ![10, 1, 100]⟩
abbrev S1024x100 : Shape := ⟨2, ![1024, 100]⟩
abbrev S16384x2x100 : Shape := ⟨3, ![16384, 2, 100]⟩

abbrev nBuf : Space → Nat
  | .hbm => 5
  | .vmem => 5
  | .smem => 0
  | _ => 0

abbrev bufTy : (tb : Table) → Fin (tcTables nBuf tb) → BufTy
  | .hbm, ⟨0, _⟩ => ⟨S16384x10x100, .f32⟩
  | .hbm, ⟨1, _⟩ => ⟨S10x100x5x5, .f32⟩
  | .hbm, ⟨2, _⟩ => ⟨S5x5x10x100, .f32⟩
  | .hbm, ⟨3, _⟩ => ⟨S16384x200, .f32⟩
  | .hbm, ⟨4, _⟩ => ⟨S16384x2x100, .f32⟩
  | .local _ .vmem, ⟨0, _⟩ => ⟨S1024x10x100, .f32⟩
  | .local _ .vmem, ⟨1, _⟩ => ⟨S1024x10x100, .f32⟩
  | .local _ .vmem, ⟨2, _⟩ => ⟨S5x5x10x100, .f32⟩
  | .local _ .vmem, ⟨3, _⟩ => ⟨S1024x200, .f32⟩
  | .local _ .vmem, ⟨4, _⟩ => ⟨S1024x200, .f32⟩
  | _, _ => ⟨S16384x10x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x10x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x5x10x100 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x200 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S10x100x5x5_S5x5x10x100_2_3_0_1 : S10x100x5x5.Transposes [2, 3, 0, 1] S5x5x10x100
  inb_S1024x10x100_S1024x10x100_0_0_0 : ∀ a, (![0, 0, 0] : Fin 3 → Nat) a + S1024x10x100.size a ≤ S1024x10x100.size a
  h_S1024x10x100 : 0 < S1024x10x100.numel
  inb_S5x5x10x100_S5x5x10x100_0_0_0_0 : ∀ a, (![0, 0, 0, 0] : Fin 4 → Nat) a + S5x5x10x100.size a ≤ S5x5x10x100.size a
  h_S5x5x10x100 : 0 < S5x5x10x100.numel
  shapeCasts_S5x5x10x100_S5x5x10x100 : S5x5x10x100.ShapeCasts S5x5x10x100
  transposes_S1024x10x100_p1_0_2_S10x1024x100 : S1024x10x100.Transposes [1, 0, 2] S10x1024x100
  concatenates_S2x1024x100_S10x1024x100_S2x1024x100_S14x1024x100_d0 : Shape.Concatenates [S2x1024x100, S10x1024x100, S2x1024x100] S14x1024x100 0
  concatenates_S14x1024x2_S14x1024x100_S14x1024x2_S14x1024x104_d2 : Shape.Concatenates [S14x1024x2, S14x1024x100, S14x1024x2] S14x1024x104 2
  slices_S14x1024x104_o0_0_0_S10x1024x100 : S14x1024x104.Slices ![0, 0, 0] S10x1024x100
  slices_S5x5x10x100_o0_0_0_0_S1x1x10x100 : S5x5x10x100.Slices ![0, 0, 0, 0] S1x1x10x100
  shapeCasts_S1x1x10x100_S10x100 : S1x1x10x100.ShapeCasts S10x100
  shapeCasts_S10x100_S10x1x100 : S10x100.ShapeCasts S10x1x100
  broadcasts_S10x1x100_S10x1024x100 : S10x1x100.Broadcasts S10x1024x100
  slices_S14x1024x104_o0_0_1_S10x1024x100 : S14x1024x104.Slices ![0, 0, 1] S10x1024x100
  slices_S5x5x10x100_o0_1_0_0_S1x1x10x100 : S5x5x10x100.Slices ![0, 1, 0, 0] S1x1x10x100
  slices_S14x1024x104_o0_0_2_S10x1024x100 : S14x1024x104.Slices ![0, 0, 2] S10x1024x100
  slices_S5x5x10x100_o0_2_0_0_S1x1x10x100 : S5x5x10x100.Slices ![0, 2, 0, 0] S1x1x10x100
  slices_S14x1024x104_o0_0_3_S10x1024x100 : S14x1024x104.Slices ![0, 0, 3] S10x1024x100
  slices_S5x5x10x100_o0_3_0_0_S1x1x10x100 : S5x5x10x100.Slices ![0, 3, 0, 0] S1x1x10x100
  slices_S14x1024x104_o0_0_4_S10x1024x100 : S14x1024x104.Slices ![0, 0, 4] S10x1024x100
  slices_S5x5x10x100_o0_4_0_0_S1x1x10x100 : S5x5x10x100.Slices ![0, 4, 0, 0] S1x1x10x100
  slices_S14x1024x104_o1_0_0_S10x1024x100 : S14x1024x104.Slices ![1, 0, 0] S10x1024x100
  slices_S5x5x10x100_o1_0_0_0_S1x1x10x100 : S5x5x10x100.Slices ![1, 0, 0, 0] S1x1x10x100
  slices_S14x1024x104_o1_0_1_S10x1024x100 : S14x1024x104.Slices ![1, 0, 1] S10x1024x100
  slices_S5x5x10x100_o1_1_0_0_S1x1x10x100 : S5x5x10x100.Slices ![1, 1, 0, 0] S1x1x10x100
  slices_S14x1024x104_o1_0_2_S10x1024x100 : S14x1024x104.Slices ![1, 0, 2] S10x1024x100
  slices_S5x5x10x100_o1_2_0_0_S1x1x10x100 : S5x5x10x100.Slices ![1, 2, 0, 0] S1x1x10x100
  slices_S14x1024x104_o1_0_3_S10x1024x100 : S14x1024x104.Slices ![1, 0, 3] S10x1024x100
  slices_S5x5x10x100_o1_3_0_0_S1x1x10x100 : S5x5x10x100.Slices ![1, 3, 0, 0] S1x1x10x100
  slices_S14x1024x104_o1_0_4_S10x1024x100 : S14x1024x104.Slices ![1, 0, 4] S10x1024x100
  slices_S5x5x10x100_o1_4_0_0_S1x1x10x100 : S5x5x10x100.Slices ![1, 4, 0, 0] S1x1x10x100
  slices_S14x1024x104_o2_0_0_S10x1024x100 : S14x1024x104.Slices ![2, 0, 0] S10x1024x100
  slices_S5x5x10x100_o2_0_0_0_S1x1x10x100 : S5x5x10x100.Slices ![2, 0, 0, 0] S1x1x10x100
  slices_S14x1024x104_o2_0_1_S10x1024x100 : S14x1024x104.Slices ![2, 0, 1] S10x1024x100
  slices_S5x5x10x100_o2_1_0_0_S1x1x10x100 : S5x5x10x100.Slices ![2, 1, 0, 0] S1x1x10x100
  slices_S14x1024x104_o2_0_2_S10x1024x100 : S14x1024x104.Slices ![2, 0, 2] S10x1024x100
  slices_S5x5x10x100_o2_2_0_0_S1x1x10x100 : S5x5x10x100.Slices ![2, 2, 0, 0] S1x1x10x100
  slices_S14x1024x104_o2_0_3_S10x1024x100 : S14x1024x104.Slices ![2, 0, 3] S10x1024x100
  slices_S5x5x10x100_o2_3_0_0_S1x1x10x100 : S5x5x10x100.Slices ![2, 3, 0, 0] S1x1x10x100
  slices_S14x1024x104_o2_0_4_S10x1024x100 : S14x1024x104.Slices ![2, 0, 4] S10x1024x100
  slices_S5x5x10x100_o2_4_0_0_S1x1x10x100 : S5x5x10x100.Slices ![2, 4, 0, 0] S1x1x10x100
  slices_S14x1024x104_o3_0_0_S10x1024x100 : S14x1024x104.Slices ![3, 0, 0] S10x1024x100
  slices_S5x5x10x100_o3_0_0_0_S1x1x10x100 : S5x5x10x100.Slices ![3, 0, 0, 0] S1x1x10x100
  slices_S14x1024x104_o3_0_1_S10x1024x100 : S14x1024x104.Slices ![3, 0, 1] S10x1024x100
  slices_S5x5x10x100_o3_1_0_0_S1x1x10x100 : S5x5x10x100.Slices ![3, 1, 0, 0] S1x1x10x100
  slices_S14x1024x104_o3_0_2_S10x1024x100 : S14x1024x104.Slices ![3, 0, 2] S10x1024x100
  slices_S5x5x10x100_o3_2_0_0_S1x1x10x100 : S5x5x10x100.Slices ![3, 2, 0, 0] S1x1x10x100
  slices_S14x1024x104_o3_0_3_S10x1024x100 : S14x1024x104.Slices ![3, 0, 3] S10x1024x100
  slices_S5x5x10x100_o3_3_0_0_S1x1x10x100 : S5x5x10x100.Slices ![3, 3, 0, 0] S1x1x10x100
  slices_S14x1024x104_o3_0_4_S10x1024x100 : S14x1024x104.Slices ![3, 0, 4] S10x1024x100
  slices_S5x5x10x100_o3_4_0_0_S1x1x10x100 : S5x5x10x100.Slices ![3, 4, 0, 0] S1x1x10x100
  slices_S14x1024x104_o4_0_0_S10x1024x100 : S14x1024x104.Slices ![4, 0, 0] S10x1024x100
  slices_S5x5x10x100_o4_0_0_0_S1x1x10x100 : S5x5x10x100.Slices ![4, 0, 0, 0] S1x1x10x100
  slices_S14x1024x104_o4_0_1_S10x1024x100 : S14x1024x104.Slices ![4, 0, 1] S10x1024x100
  slices_S5x5x10x100_o4_1_0_0_S1x1x10x100 : S5x5x10x100.Slices ![4, 1, 0, 0] S1x1x10x100
  slices_S14x1024x104_o4_0_2_S10x1024x100 : S14x1024x104.Slices ![4, 0, 2] S10x1024x100
  slices_S5x5x10x100_o4_2_0_0_S1x1x10x100 : S5x5x10x100.Slices ![4, 2, 0, 0] S1x1x10x100
  slices_S14x1024x104_o4_0_3_S10x1024x100 : S14x1024x104.Slices ![4, 0, 3] S10x1024x100
  slices_S5x5x10x100_o4_3_0_0_S1x1x10x100 : S5x5x10x100.Slices ![4, 3, 0, 0] S1x1x10x100
  slices_S14x1024x104_o4_0_4_S10x1024x100 : S14x1024x104.Slices ![4, 0, 4] S10x1024x100
  slices_S5x5x10x100_o4_4_0_0_S1x1x10x100 : S5x5x10x100.Slices ![4, 4, 0, 0] S1x1x10x100
  reduces_S10x1024x100_S1024x100 : S10x1024x100.Reduces [0] S1024x100
  concatenates_S1024x100_S1024x100_S1024x200_d1 : Shape.Concatenates [S1024x100, S1024x100] S1024x200 1
  inb_S1024x200_S1024x200_0_0 : ∀ a, (![0, 0] : Fin 2 → Nat) a + S1024x200.size a ≤ S1024x200.size a
  h_S1024x200 : 0 < S1024x200.numel
  shapeCasts_S16384x200_S16384x2x100 : S16384x200.ShapeCasts S16384x2x100
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x10x100.size a ≤ S16384x10x100.size a
  hwx0_0 : ∀ i : grid0.Coords, EltTy.bits .f32 = 32 ∨ (Rect.block (s := S16384x10x100) S1024x10x100.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x5x10x100.size a ≤ S5x5x10x100.size a
  hwx0_1 : ∀ i : grid0.Coords, EltTy.bits .f32 = 32 ∨ (Rect.block (s := S5x5x10x100) S5x5x10x100.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x200.size a ≤ S16384x200.size a
  hwx0_2 : ∀ i : grid0.Coords, EltTy.bits .f32 = 32 ∨ (Rect.block (s := S16384x200) S1024x200.size (cc0_transform_2 i) (hinb0_2 i)).WholeWords (EltTy.packing .f32)

variable [Facts₀]

abbrev win0_0 : Pipeline.Window sig grid0 :=
  Pipeline.Window.ofSpec (Memref.whole main_arg0) S1024x10x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S5x5x10x100.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x200.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x10x100 : Shape := ⟨3, ![16384, 10, 100]⟩
abbrev S10x100x5x5 : Shape := ⟨4, ![10, 100, 5, 5]⟩
abbrev S_ : Shape := ⟨0, ![]⟩
abbrev S16384x14x104 : Shape := ⟨3, ![16384, 14, 104]⟩
abbrev S10x100x1x1 : Shape := ⟨4, ![10, 100, 1, 1]⟩
abbrev S10x100 : Shape := ⟨2, ![10, 100]⟩
abbrev S1x10x100 : Shape := ⟨3, ![1, 10, 100]⟩
abbrev S16384x100 : Shape := ⟨2, ![16384, 100]⟩
abbrev S16384x1x100 : Shape := ⟨3, ![16384, 1, 100]⟩
abbrev S16384x2x100 : Shape := ⟨3, ![16384, 2, 100]⟩

abbrev nBuf : Space → Nat
  | .hbm => 211
  | .vmem => 0
  | .smem => 0
  | _ => 0

abbrev hbmTy0_0 (i : Nat) : BufTy := match i % 128 with
  | 0 => ⟨S16384x10x100, .f32⟩
  | 1 => ⟨S10x100x5x5, .f32⟩
  | 2 => ⟨S_, .i32⟩
  | 3 => ⟨S_, .f32⟩
  | 4 => ⟨S16384x14x104, .f32⟩
  | 5 => ⟨S_, .f32⟩
  | 6 => ⟨S16384x10x100, .f32⟩
  | 7 => ⟨S16384x10x100, .f32⟩
  | 8 => ⟨S10x100x1x1, .f32⟩
  | 9 => ⟨S10x100, .f32⟩
  | 10 => ⟨S1x10x100, .f32⟩
  | 11 => ⟨S16384x10x100, .f32⟩
  | 12 => ⟨S16384x10x100, .f32⟩
  | 13 => ⟨S16384x10x100, .f32⟩
  | 14 => ⟨S16384x10x100, .f32⟩
  | 15 => ⟨S10x100x1x1, .f32⟩
  | 16 => ⟨S10x100, .f32⟩
  | 17 => ⟨S1x10x100, .f32⟩
  | 18 => ⟨S16384x10x100, .f32⟩
  | 19 => ⟨S16384x10x100, .f32⟩
  | 20 => ⟨S16384x10x100, .f32⟩
  | 21 => ⟨S16384x10x100, .f32⟩
  | 22 => ⟨S10x100x1x1, .f32⟩
  | 23 => ⟨S10x100, .f32⟩
  | 24 => ⟨S1x10x100, .f32⟩
  | 25 => ⟨S16384x10x100, .f32⟩
  | 26 => ⟨S16384x10x100, .f32⟩
  | 27 => ⟨S16384x10x100, .f32⟩
  | 28 => ⟨S16384x10x100, .f32⟩
  | 29 => ⟨S10x100x1x1, .f32⟩
  | 30 => ⟨S10x100, .f32⟩
  | 31 => ⟨S1x10x100, .f32⟩
  | 32 => ⟨S16384x10x100, .f32⟩
  | 33 => ⟨S16384x10x100, .f32⟩
  | 34 => ⟨S16384x10x100, .f32⟩
  | 35 => ⟨S16384x10x100, .f32⟩
  | 36 => ⟨S10x100x1x1, .f32⟩
  | 37 => ⟨S10x100, .f32⟩
  | 38 => ⟨S1x10x100, .f32⟩
  | 39 => ⟨S16384x10x100, .f32⟩
  | 40 => ⟨S16384x10x100, .f32⟩
  | 41 => ⟨S16384x10x100, .f32⟩
  | 42 => ⟨S16384x10x100, .f32⟩
  | 43 => ⟨S10x100x1x1, .f32⟩
  | 44 => ⟨S10x100, .f32⟩
  | 45 => ⟨S1x10x100, .f32⟩
  | 46 => ⟨S16384x10x100, .f32⟩
  | 47 => ⟨S16384x10x100, .f32⟩
  | 48 => ⟨S16384x10x100, .f32⟩
  | 49 => ⟨S16384x10x100, .f32⟩
  | 50 => ⟨S10x100x1x1, .f32⟩
  | 51 => ⟨S10x100, .f32⟩
  | 52 => ⟨S1x10x100, .f32⟩
  | 53 => ⟨S16384x10x100, .f32⟩
  | 54 => ⟨S16384x10x100, .f32⟩
  | 55 => ⟨S16384x10x100, .f32⟩
  | 56 => ⟨S16384x10x100, .f32⟩
  | 57 => ⟨S10x100x1x1, .f32⟩
  | 58 => ⟨S10x100, .f32⟩
  | 59 => ⟨S1x10x100, .f32⟩
  | 60 => ⟨S16384x10x100, .f32⟩
  | 61 => ⟨S16384x10x100, .f32⟩
  | 62 => ⟨S16384x10x100, .f32⟩
  | 63 => ⟨S16384x10x100, .f32⟩
  | 64 => ⟨S10x100x1x1, .f32⟩
  | 65 => ⟨S10x100, .f32⟩
  | 66 => ⟨S1x10x100, .f32⟩
  | 67 => ⟨S16384x10x100, .f32⟩
  | 68 => ⟨S16384x10x100, .f32⟩
  | 69 => ⟨S16384x10x100, .f32⟩
  | 70 => ⟨S16384x10x100, .f32⟩
  | 71 => ⟨S10x100x1x1, .f32⟩
  | 72 => ⟨S10x100, .f32⟩
  | 73 => ⟨S1x10x100, .f32⟩
  | 74 => ⟨S16384x10x100, .f32⟩
  | 75 => ⟨S16384x10x100, .f32⟩
  | 76 => ⟨S16384x10x100, .f32⟩
  | 77 => ⟨S16384x10x100, .f32⟩
  | 78 => ⟨S10x100x1x1, .f32⟩
  | 79 => ⟨S10x100, .f32⟩
  | 80 => ⟨S1x10x100, .f32⟩
  | 81 => ⟨S16384x10x100, .f32⟩
  | 82 => ⟨S16384x10x100, .f32⟩
  | 83 => ⟨S16384x10x100, .f32⟩
  | 84 => ⟨S16384x10x100, .f32⟩
  | 85 => ⟨S10x100x1x1, .f32⟩
  | 86 => ⟨S10x100, .f32⟩
  | 87 => ⟨S1x10x100, .f32⟩
  | 88 => ⟨S16384x10x100, .f32⟩
  | 89 => ⟨S16384x10x100, .f32⟩
  | 90 => ⟨S16384x10x100, .f32⟩
  | 91 => ⟨S16384x10x100, .f32⟩
  | 92 => ⟨S10x100x1x1, .f32⟩
  | 93 => ⟨S10x100, .f32⟩
  | 94 => ⟨S1x10x100, .f32⟩
  | 95 => ⟨S16384x10x100, .f32⟩
  | 96 => ⟨S16384x10x100, .f32⟩
  | 97 => ⟨S16384x10x100, .f32⟩
  | 98 => ⟨S16384x10x100, .f32⟩
  | 99 => ⟨S10x100x1x1, .f32⟩
  | 100 => ⟨S10x100, .f32⟩
  | 101 => ⟨S1x10x100, .f32⟩
  | 102 => ⟨S16384x10x100, .f32⟩
  | 103 => ⟨S16384x10x100, .f32⟩
  | 104 => ⟨S16384x10x100, .f32⟩
  | 105 => ⟨S16384x10x100, .f32⟩
  | 106 => ⟨S10x100x1x1, .f32⟩
  | 107 => ⟨S10x100, .f32⟩
  | 108 => ⟨S1x10x100, .f32⟩
  | 109 => ⟨S16384x10x100, .f32⟩
  | 110 => ⟨S16384x10x100, .f32⟩
  | 111 => ⟨S16384x10x100, .f32⟩
  | 112 => ⟨S16384x10x100, .f32⟩
  | 113 => ⟨S10x100x1x1, .f32⟩
  | 114 => ⟨S10x100, .f32⟩
  | 115 => ⟨S1x10x100, .f32⟩
  | 116 => ⟨S16384x10x100, .f32⟩
  | 117 => ⟨S16384x10x100, .f32⟩
  | 118 => ⟨S16384x10x100, .f32⟩
  | 119 => ⟨S16384x10x100, .f32⟩
  | 120 => ⟨S10x100x1x1, .f32⟩
  | 121 => ⟨S10x100, .f32⟩
  | 122 => ⟨S1x10x100, .f32⟩
  | 123 => ⟨S16384x10x100, .f32⟩
  | 124 => ⟨S16384x10x100, .f32⟩
  | 125 => ⟨S16384x10x100, .f32⟩
  | 126 => ⟨S16384x10x100, .f32⟩
  | 127 => ⟨S10x100x1x1, .f32⟩
  | _ => ⟨S16384x10x100, .f32⟩

abbrev hbmTy0_1 (i : Nat) : BufTy := match i % 128 with
  | 0 => ⟨S10x100, .f32⟩
  | 1 => ⟨S1x10x100, .f32⟩
  | 2 => ⟨S16384x10x100, .f32⟩
  | 3 => ⟨S16384x10x100, .f32⟩
  | 4 => ⟨S16384x10x100, .f32⟩
  | 5 => ⟨S16384x10x100, .f32⟩
  | 6 => ⟨S10x100x1x1, .f32⟩
  | 7 => ⟨S10x100, .f32⟩
  | 8 => ⟨S1x10x100, .f32⟩
  | 9 => ⟨S16384x10x100, .f32⟩
  | 10 => ⟨S16384x10x100, .f32⟩
  | 11 => ⟨S16384x10x100, .f32⟩
  | 12 => ⟨S16384x10x100, .f32⟩
  | 13 => ⟨S10x100x1x1, .f32⟩
  | 14 => ⟨S10x100, .f32⟩
  | 15 => ⟨S1x10x100, .f32⟩
  | 16 => ⟨S16384x10x100, .f32⟩
  | 17 => ⟨S16384x10x100, .f32⟩
  | 18 => ⟨S16384x10x100, .f32⟩
  | 19 => ⟨S16384x10x100, .f32⟩
  | 20 => ⟨S10x100x1x1, .f32⟩
  | 21 => ⟨S10x100, .f32⟩
  | 22 => ⟨S1x10x100, .f32⟩
  | 23 => ⟨S16384x10x100, .f32⟩
  | 24 => ⟨S16384x10x100, .f32⟩
  | 25 => ⟨S16384x10x100, .f32⟩
  | 26 => ⟨S16384x10x100, .f32⟩
  | 27 => ⟨S10x100x1x1, .f32⟩
  | 28 => ⟨S10x100, .f32⟩
  | 29 => ⟨S1x10x100, .f32⟩
  | 30 => ⟨S16384x10x100, .f32⟩
  | 31 => ⟨S16384x10x100, .f32⟩
  | 32 => ⟨S16384x10x100, .f32⟩
  | 33 => ⟨S16384x10x100, .f32⟩
  | 34 => ⟨S10x100x1x1, .f32⟩
  | 35 => ⟨S10x100, .f32⟩
  | 36 => ⟨S1x10x100, .f32⟩
  | 37 => ⟨S16384x10x100, .f32⟩
  | 38 => ⟨S16384x10x100, .f32⟩
  | 39 => ⟨S16384x10x100, .f32⟩
  | 40 => ⟨S16384x10x100, .f32⟩
  | 41 => ⟨S10x100x1x1, .f32⟩
  | 42 => ⟨S10x100, .f32⟩
  | 43 => ⟨S1x10x100, .f32⟩
  | 44 => ⟨S16384x10x100, .f32⟩
  | 45 => ⟨S16384x10x100, .f32⟩
  | 46 => ⟨S16384x10x100, .f32⟩
  | 47 => ⟨S16384x10x100, .f32⟩
  | 48 => ⟨S10x100x1x1, .f32⟩
  | 49 => ⟨S10x100, .f32⟩
  | 50 => ⟨S1x10x100, .f32⟩
  | 51 => ⟨S16384x10x100, .f32⟩
  | 52 => ⟨S16384x10x100, .f32⟩
  | 53 => ⟨S16384x10x100, .f32⟩
  | 54 => ⟨S16384x10x100, .f32⟩
  | 55 => ⟨S16384x10x100, .f32⟩
  | 56 => ⟨S_, .f32⟩
  | 57 => ⟨S16384x10x100, .f32⟩
  | 58 => ⟨S16384x10x100, .f32⟩
  | 59 => ⟨S_, .f32⟩
  | 60 => ⟨S16384x10x100, .f32⟩
  | 61 => ⟨S16384x10x100, .f32⟩
  | 62 => ⟨S16384x10x100, .f32⟩
  | 63 => ⟨S_, .f32⟩
  | 64 => ⟨S16384x100, .f32⟩
  | 65 => ⟨S16384x1x100, .f32⟩
  | 66 => ⟨S16384x10x100, .f32⟩
  | 67 => ⟨S_, .f32⟩
  | 68 => ⟨S16384x10x100, .f32⟩
  | 69 => ⟨S16384x10x100, .f32⟩
  | 70 => ⟨S16384x10x100, .f32⟩
  | 71 => ⟨S_, .f32⟩
  | 72 => ⟨S16384x10x100, .f32⟩
  | 73 => ⟨S16384x10x100, .f32⟩
  | 74 => ⟨S16384x10x100, .f32⟩
  | 75 => ⟨S_, .f32⟩
  | 76 => ⟨S16384x10x100, .f32⟩
  | 77 => ⟨S16384x10x100, .f32⟩
  | 78 => ⟨S16384x10x100, .f32⟩
  | 79 => ⟨S_, .f32⟩
  | 80 => ⟨S16384x100, .f32⟩
  | 81 => ⟨S16384x1x100, .f32⟩
  | 82 => ⟨S16384x2x100, .f32⟩
  | _ => ⟨S16384x10x100, .f32⟩

abbrev hbmTy (i : Nat) : BufTy := match i / 128 with
  | 0 => hbmTy0_0 i
  | 1 => hbmTy0_1 i
  | _ => ⟨S16384x10x100, .f32⟩

abbrev bufTy : (tb : Table) → Fin (tcTables nBuf tb) → BufTy
  | .hbm, ⟨i, _⟩ => hbmTy i
  | _, _ => ⟨S16384x10x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩
abbrev main_v74 : Ref sig .tc := ⟨.hbm, 79, rfl⟩
abbrev main_v75 : Ref sig .tc := ⟨.hbm, 80, rfl⟩
abbrev main_v76 : Ref sig .tc := ⟨.hbm, 81, rfl⟩
abbrev main_v77 : Ref sig .tc := ⟨.hbm, 82, rfl⟩
abbrev main_v78 : Ref sig .tc := ⟨.hbm, 83, rfl⟩
abbrev main_v79 : Ref sig .tc := ⟨.hbm, 84, rfl⟩
abbrev main_v80 : Ref sig .tc := ⟨.hbm, 85, rfl⟩
abbrev main_v81 : Ref sig .tc := ⟨.hbm, 86, rfl⟩
abbrev main_v82 : Ref sig .tc := ⟨.hbm, 87, rfl⟩
abbrev main_v83 : Ref sig .tc := ⟨.hbm, 88, rfl⟩
abbrev main_v84 : Ref sig .tc := ⟨.hbm, 89, rfl⟩
abbrev main_v85 : Ref sig .tc := ⟨.hbm, 90, rfl⟩
abbrev main_v86 : Ref sig .tc := ⟨.hbm, 91, rfl⟩
abbrev main_v87 : Ref sig .tc := ⟨.hbm, 92, rfl⟩
abbrev main_v88 : Ref sig .tc := ⟨.hbm, 93, rfl⟩
abbrev main_v89 : Ref sig .tc := ⟨.hbm, 94, rfl⟩
abbrev main_v90 : Ref sig .tc := ⟨.hbm, 95, rfl⟩
abbrev main_v91 : Ref sig .tc := ⟨.hbm, 96, rfl⟩
abbrev main_v92 : Ref sig .tc := ⟨.hbm, 97, rfl⟩
abbrev main_v93 : Ref sig .tc := ⟨.hbm, 98, rfl⟩
abbrev main_v94 : Ref sig .tc := ⟨.hbm, 99, rfl⟩
abbrev main_v95 : Ref sig .tc := ⟨.hbm, 100, rfl⟩
abbrev main_v96 : Ref sig .tc := ⟨.hbm, 101, rfl⟩
abbrev main_v97 : Ref sig .tc := ⟨.hbm, 102, rfl⟩
abbrev main_v98 : Ref sig .tc := ⟨.hbm, 103, rfl⟩
abbrev main_v99 : Ref sig .tc := ⟨.hbm, 104, rfl⟩
abbrev main_v100 : Ref sig .tc := ⟨.hbm, 105, rfl⟩
abbrev main_v101 : Ref sig .tc := ⟨.hbm, 106, rfl⟩
abbrev main_v102 : Ref sig .tc := ⟨.hbm, 107, rfl⟩
abbrev main_v103 : Ref sig .tc := ⟨.hbm, 108, rfl⟩
abbrev main_v104 : Ref sig .tc := ⟨.hbm, 109, rfl⟩
abbrev main_v105 : Ref sig .tc := ⟨.hbm, 110, rfl⟩
abbrev main_v106 : Ref sig .tc := ⟨.hbm, 111, rfl⟩
abbrev main_v107 : Ref sig .tc := ⟨.hbm, 112, rfl⟩
abbrev main_v108 : Ref sig .tc := ⟨.hbm, 113, rfl⟩
abbrev main_v109 : Ref sig .tc := ⟨.hbm, 114, rfl⟩
abbrev main_v110 : Ref sig .tc := ⟨.hbm, 115, rfl⟩
abbrev main_v111 : Ref sig .tc := ⟨.hbm, 116, rfl⟩
abbrev main_v112 : Ref sig .tc := ⟨.hbm, 117, rfl⟩
abbrev main_v113 : Ref sig .tc := ⟨.hbm, 118, rfl⟩
abbrev main_v114 : Ref sig .tc := ⟨.hbm, 119, rfl⟩
abbrev main_v115 : Ref sig .tc := ⟨.hbm, 120, rfl⟩
abbrev main_v116 : Ref sig .tc := ⟨.hbm, 121, rfl⟩
abbrev main_v117 : Ref sig .tc := ⟨.hbm, 122, rfl⟩
abbrev main_v118 : Ref sig .tc := ⟨.hbm, 123, rfl⟩
abbrev main_v119 : Ref sig .tc := ⟨.hbm, 124, rfl⟩
abbrev main_v120 : Ref sig .tc := ⟨.hbm, 125, rfl⟩
abbrev main_v121 : Ref sig .tc := ⟨.hbm, 126, rfl⟩
abbrev main_v122 : Ref sig .tc := ⟨.hbm, 127, rfl⟩
abbrev main_v123 : Ref sig .tc := ⟨.hbm, 128, rfl⟩
abbrev main_v124 : Ref sig .tc := ⟨.hbm, 129, rfl⟩
abbrev main_v125 : Ref sig .tc := ⟨.hbm, 130, rfl⟩
abbrev main_v126 : Ref sig .tc := ⟨.hbm, 131, rfl⟩
abbrev main_v127 : Ref sig .tc := ⟨.hbm, 132, rfl⟩
abbrev main_v128 : Ref sig .tc := ⟨.hbm, 133, rfl⟩
abbrev main_v129 : Ref sig .tc := ⟨.hbm, 134, rfl⟩
abbrev main_v130 : Ref sig .tc := ⟨.hbm, 135, rfl⟩
abbrev main_v131 : Ref sig .tc := ⟨.hbm, 136, rfl⟩
abbrev main_v132 : Ref sig .tc := ⟨.hbm, 137, rfl⟩
abbrev main_v133 : Ref sig .tc := ⟨.hbm, 138, rfl⟩
abbrev main_v134 : Ref sig .tc := ⟨.hbm, 139, rfl⟩
abbrev main_v135 : Ref sig .tc := ⟨.hbm, 140, rfl⟩
abbrev main_v136 : Ref sig .tc := ⟨.hbm, 141, rfl⟩
abbrev main_v137 : Ref sig .tc := ⟨.hbm, 142, rfl⟩
abbrev main_v138 : Ref sig .tc := ⟨.hbm, 143, rfl⟩
abbrev main_v139 : Ref sig .tc := ⟨.hbm, 144, rfl⟩
abbrev main_v140 : Ref sig .tc := ⟨.hbm, 145, rfl⟩
abbrev main_v141 : Ref sig .tc := ⟨.hbm, 146, rfl⟩
abbrev main_v142 : Ref sig .tc := ⟨.hbm, 147, rfl⟩
abbrev main_v143 : Ref sig .tc := ⟨.hbm, 148, rfl⟩
abbrev main_v144 : Ref sig .tc := ⟨.hbm, 149, rfl⟩
abbrev main_v145 : Ref sig .tc := ⟨.hbm, 150, rfl⟩
abbrev main_v146 : Ref sig .tc := ⟨.hbm, 151, rfl⟩
abbrev main_v147 : Ref sig .tc := ⟨.hbm, 152, rfl⟩
abbrev main_v148 : Ref sig .tc := ⟨.hbm, 153, rfl⟩
abbrev main_v149 : Ref sig .tc := ⟨.hbm, 154, rfl⟩
abbrev main_v150 : Ref sig .tc := ⟨.hbm, 155, rfl⟩
abbrev main_v151 : Ref sig .tc := ⟨.hbm, 156, rfl⟩
abbrev main_v152 : Ref sig .tc := ⟨.hbm, 157, rfl⟩
abbrev main_v153 : Ref sig .tc := ⟨.hbm, 158, rfl⟩
abbrev main_v154 : Ref sig .tc := ⟨.hbm, 159, rfl⟩
abbrev main_v155 : Ref sig .tc := ⟨.hbm, 160, rfl⟩
abbrev main_v156 : Ref sig .tc := ⟨.hbm, 161, rfl⟩
abbrev main_v157 : Ref sig .tc := ⟨.hbm, 162, rfl⟩
abbrev main_v158 : Ref sig .tc := ⟨.hbm, 163, rfl⟩
abbrev main_v159 : Ref sig .tc := ⟨.hbm, 164, rfl⟩
abbrev main_v160 : Ref sig .tc := ⟨.hbm, 165, rfl⟩
abbrev main_v161 : Ref sig .tc := ⟨.hbm, 166, rfl⟩
abbrev main_v162 : Ref sig .tc := ⟨.hbm, 167, rfl⟩
abbrev main_v163 : Ref sig .tc := ⟨.hbm, 168, rfl⟩
abbrev main_v164 : Ref sig .tc := ⟨.hbm, 169, rfl⟩
abbrev main_v165 : Ref sig .tc := ⟨.hbm, 170, rfl⟩
abbrev main_v166 : Ref sig .tc := ⟨.hbm, 171, rfl⟩
abbrev main_v167 : Ref sig .tc := ⟨.hbm, 172, rfl⟩
abbrev main_v168 : Ref sig .tc := ⟨.hbm, 173, rfl⟩
abbrev main_v169 : Ref sig .tc := ⟨.hbm, 174, rfl⟩
abbrev main_v170 : Ref sig .tc := ⟨.hbm, 175, rfl⟩
abbrev main_v171 : Ref sig .tc := ⟨.hbm, 176, rfl⟩
abbrev main_v172 : Ref sig .tc := ⟨.hbm, 177, rfl⟩
abbrev main_v173 : Ref sig .tc := ⟨.hbm, 178, rfl⟩
abbrev main_v174 : Ref sig .tc := ⟨.hbm, 179, rfl⟩
abbrev main_v175 : Ref sig .tc := ⟨.hbm, 180, rfl⟩
abbrev main_v176 : Ref sig .tc := ⟨.hbm, 181, rfl⟩
abbrev main_v177 : Ref sig .tc := ⟨.hbm, 182, rfl⟩
abbrev main_v178 : Ref sig .tc := ⟨.hbm, 183, rfl⟩
abbrev main_cst_0 : Ref sig .tc := ⟨.hbm, 184, rfl⟩
abbrev main_v179 : Ref sig .tc := ⟨.hbm, 185, rfl⟩
abbrev main_v180 : Ref sig .tc := ⟨.hbm, 186, rfl⟩
abbrev main_cst_1 : Ref sig .tc := ⟨.hbm, 187, rfl⟩
abbrev main_v181 : Ref sig .tc := ⟨.hbm, 188, rfl⟩
abbrev main_v182 : Ref sig .tc := ⟨.hbm, 189, rfl⟩
abbrev main_v183 : Ref sig .tc := ⟨.hbm, 190, rfl⟩
abbrev main_cst_2 : Ref sig .tc := ⟨.hbm, 191, rfl⟩
abbrev main_v184 : Ref sig .tc := ⟨.hbm, 192, rfl⟩
abbrev main_v185 : Ref sig .tc := ⟨.hbm, 193, rfl⟩
abbrev main_v186 : Ref sig .tc := ⟨.hbm, 194, rfl⟩
abbrev main_cst_3 : Ref sig .tc := ⟨.hbm, 195, rfl⟩
abbrev main_v187 : Ref sig .tc := ⟨.hbm, 196, rfl⟩
abbrev main_v188 : Ref sig .tc := ⟨.hbm, 197, rfl⟩
abbrev main_v189 : Ref sig .tc := ⟨.hbm, 198, rfl⟩
abbrev main_cst_4 : Ref sig .tc := ⟨.hbm, 199, rfl⟩
abbrev main_v190 : Ref sig .tc := ⟨.hbm, 200, rfl⟩
abbrev main_v191 : Ref sig .tc := ⟨.hbm, 201, rfl⟩
abbrev main_v192 : Ref sig .tc := ⟨.hbm, 202, rfl⟩
abbrev main_cst_5 : Ref sig .tc := ⟨.hbm, 203, rfl⟩
abbrev main_v193 : Ref sig .tc := ⟨.hbm, 204, rfl⟩
abbrev main_v194 : Ref sig .tc := ⟨.hbm, 205, rfl⟩
abbrev main_v195 : Ref sig .tc := ⟨.hbm, 206, rfl⟩
abbrev main_cst_6 : Ref sig .tc := ⟨.hbm, 207, rfl⟩
abbrev main_v196 : Ref sig .tc := ⟨.hbm, 208, rfl⟩
abbrev main_v197 : Ref sig .tc := ⟨.hbm, 209, rfl⟩
abbrev main_v198 : Ref sig .tc := ⟨.hbm, 210, rfl⟩

abbrev nD : Nat := 1
abbrev τ : Topo := Topo.v7x

variable {F : FTy → Type} [FloatOps F]

class Facts₀ : Prop where
  pads_S16384x10x100_S16384x14x104_000_220_220 : S16384x10x100.Pads (![0, 2, 2] : Fin 3 → Nat) ![0, 2, 2] ![0, 0, 0] S16384x14x104
  h_S_ : 0 < S_.numel
  bcast_S_S16384x10x100 : S_.BroadcastsInDim S16384x10x100 (![] : Fin 0 → Fin S16384x10x100.rank)
  slices_S16384x14x104_S16384x10x100_0_0_0 : S16384x14x104.Slices ![0, 0, 0] S16384x10x100
  slices_S10x100x5x5_S10x100x1x1_0_0_0_0 : S10x100x5x5.Slices ![0, 0, 0, 0] S10x100x1x1
  shapeCasts_S10x100x1x1_S10x100 : S10x100x1x1.ShapeCasts S10x100
  bcast_S10x100_S1x10x100_1_2 : S10x100.BroadcastsInDim S1x10x100 (![1, 2] : Fin 2 → Fin S1x10x100.rank)
  bcast_S1x10x100_S16384x10x100_0_1_2 : S1x10x100.BroadcastsInDim S16384x10x100 (![0, 1, 2] : Fin 3 → Fin S16384x10x100.rank)
  slices_S16384x14x104_S16384x10x100_0_0_1 : S16384x14x104.Slices ![0, 0, 1] S16384x10x100
  slices_S10x100x5x5_S10x100x1x1_0_0_0_1 : S10x100x5x5.Slices ![0, 0, 0, 1] S10x100x1x1
  slices_S16384x14x104_S16384x10x100_0_0_2 : S16384x14x104.Slices ![0, 0, 2] S16384x10x100
  slices_S10x100x5x5_S10x100x1x1_0_0_0_2 : S10x100x5x5.Slices ![0, 0, 0, 2] S10x100x1x1
  slices_S16384x14x104_S16384x10x100_0_0_3 : S16384x14x104.Slices ![0, 0, 3] S16384x10x100
  slices_S10x100x5x5_S10x100x1x1_0_0_0_3 : S10x100x5x5.Slices ![0, 0, 0, 3] S10x100x1x1
  slices_S16384x14x104_S16384x10x100_0_0_4 : S16384x14x104.Slices ![0, 0, 4] S16384x10x100
  slices_S10x100x5x5_S10x100x1x1_0_0_0_4 : S10x100x5x5.Slices ![0, 0, 0, 4] S10x100x1x1
  slices_S16384x14x104_S16384x10x100_0_1_0 : S16384x14x104.Slices ![0, 1, 0] S16384x10x100
  slices_S10x100x5x5_S10x100x1x1_0_0_1_0 : S10x100x5x5.Slices ![0, 0, 1, 0] S10x100x1x1
  slices_S16384x14x104_S16384x10x100_0_1_1 : S16384x14x104.Slices ![0, 1, 1] S16384x10x100
  slices_S10x100x5x5_S10x100x1x1_0_0_1_1 : S10x100x5x5.Slices ![0, 0, 1, 1] S10x100x1x1
  slices_S16384x14x104_S16384x10x100_0_1_2 : S16384x14x104.Slices ![0, 1, 2] S16384x10x100
  slices_S10x100x5x5_S10x100x1x1_0_0_1_2 : S10x100x5x5.Slices ![0, 0, 1, 2] S10x100x1x1
  slices_S16384x14x104_S16384x10x100_0_1_3 : S16384x14x104.Slices ![0, 1, 3] S16384x10x100
  slices_S10x100x5x5_S10x100x1x1_0_0_1_3 : S10x100x5x5.Slices ![0, 0, 1, 3] S10x100x1x1
  slices_S16384x14x104_S16384x10x100_0_1_4 : S16384x14x104.Slices ![0, 1, 4] S16384x10x100
  slices_S10x100x5x5_S10x100x1x1_0_0_1_4 : S10x100x5x5.Slices ![0, 0, 1, 4] S10x100x1x1
  slices_S16384x14x104_S16384x10x100_0_2_0 : S16384x14x104.Slices ![0, 2, 0] S16384x10x100
  slices_S10x100x5x5_S10x100x1x1_0_0_2_0 : S10x100x5x5.Slices ![0, 0, 2, 0] S10x100x1x1
  slices_S16384x14x104_S16384x10x100_0_2_1 : S16384x14x104.Slices ![0, 2, 1] S16384x10x100
  slices_S10x100x5x5_S10x100x1x1_0_0_2_1 : S10x100x5x5.Slices ![0, 0, 2, 1] S10x100x1x1
  slices_S16384x14x104_S16384x10x100_0_2_2 : S16384x14x104.Slices ![0, 2, 2] S16384x10x100
  slices_S10x100x5x5_S10x100x1x1_0_0_2_2 : S10x100x5x5.Slices ![0, 0, 2, 2] S10x100x1x1
  slices_S16384x14x104_S16384x10x100_0_2_3 : S16384x14x104.Slices ![0, 2, 3] S16384x10x100
  slices_S10x100x5x5_S10x100x1x1_0_0_2_3 : S10x100x5x5.Slices ![0, 0, 2, 3] S10x100x1x1
  slices_S16384x14x104_S16384x10x100_0_2_4 : S16384x14x104.Slices ![0, 2, 4] S16384x10x100
  slices_S10x100x5x5_S10x100x1x1_0_0_2_4 : S10x100x5x5.Slices ![0, 0, 2, 4] S10x100x1x1
  slices_S16384x14x104_S16384x10x100_0_3_0 : S16384x14x104.Slices ![0, 3, 0] S16384x10x100
  slices_S10x100x5x5_S10x100x1x1_0_0_3_0 : S10x100x5x5.Slices ![0, 0, 3, 0] S10x100x1x1
  slices_S16384x14x104_S16384x10x100_0_3_1 : S16384x14x104.Slices ![0, 3, 1] S16384x10x100
  slices_S10x100x5x5_S10x100x1x1_0_0_3_1 : S10x100x5x5.Slices ![0, 0, 3, 1] S10x100x1x1
  slices_S16384x14x104_S16384x10x100_0_3_2 : S16384x14x104.Slices ![0, 3, 2] S16384x10x100
  slices_S10x100x5x5_S10x100x1x1_0_0_3_2 : S10x100x5x5.Slices ![0, 0, 3, 2] S10x100x1x1
  slices_S16384x14x104_S16384x10x100_0_3_3 : S16384x14x104.Slices ![0, 3, 3] S16384x10x100
  slices_S10x100x5x5_S10x100x1x1_0_0_3_3 : S10x100x5x5.Slices ![0, 0, 3, 3] S10x100x1x1
  slices_S16384x14x104_S16384x10x100_0_3_4 : S16384x14x104.Slices ![0, 3, 4] S16384x10x100
  slices_S10x100x5x5_S10x100x1x1_0_0_3_4 : S10x100x5x5.Slices ![0, 0, 3, 4] S10x100x1x1
  slices_S16384x14x104_S16384x10x100_0_4_0 : S16384x14x104.Slices ![0, 4, 0] S16384x10x100
  slices_S10x100x5x5_S10x100x1x1_0_0_4_0 : S10x100x5x5.Slices ![0, 0, 4, 0] S10x100x1x1
  slices_S16384x14x104_S16384x10x100_0_4_1 : S16384x14x104.Slices ![0, 4, 1] S16384x10x100
  slices_S10x100x5x5_S10x100x1x1_0_0_4_1 : S10x100x5x5.Slices ![0, 0, 4, 1] S10x100x1x1
  slices_S16384x14x104_S16384x10x100_0_4_2 : S16384x14x104.Slices ![0, 4, 2] S16384x10x100
  slices_S10x100x5x5_S10x100x1x1_0_0_4_2 : S10x100x5x5.Slices ![0, 0, 4, 2] S10x100x1x1
  slices_S16384x14x104_S16384x10x100_0_4_3 : S16384x14x104.Slices ![0, 4, 3] S16384x10x100
  slices_S10x100x5x5_S10x100x1x1_0_0_4_3 : S10x100x5x5.Slices ![0, 0, 4, 3] S10x100x1x1
  slices_S16384x14x104_S16384x10x100_0_4_4 : S16384x14x104.Slices ![0, 4, 4] S16384x10x100
  slices_S10x100x5x5_S10x100x1x1_0_0_4_4 : S10x100x5x5.Slices ![0, 0, 4, 4] S10x100x1x1
  reducesTo_S16384x10x100_S16384x100_d1 : S16384x10x100.ReducesTo [1] S16384x100
  bcast_S16384x100_S16384x1x100_0_2 : S16384x100.BroadcastsInDim S16384x1x100 (![0, 2] : Fin 2 → Fin S16384x1x100.rank)
  concatenates_S16384x1x100_S16384x1x100_S16384x2x100_d1 : Shape.Concatenates [S16384x1x100, S16384x1x100] S16384x2x100 1

variable [Facts₀]

class Facts : Prop extends Facts₀ where

variable [Facts]
-- ==== Proof.RefOps.lean ====
/-
  The reference program's @main as consecutive pieces of its 209 host operations, and the facts the straight-line run
  theorem asks of them.

  The pieces follow the computation: the padding and the zero array the products are added to (operations 1–5); one
  piece per stencil position (a slice of the padded input, the weights' plane laid over the batch, their product, the
  running sum: seven operations; the piece of position (3, 1) is cut in two where the printed program starts its third
  part); the negation before the exponential; the logistic's expansion; the forecast's sum over the look-back rows; the
  penalty's terms and their sum; the joined result.  `ops` is their concatenation, and @main is `seq ops`: each of the
  printed program's four parts is the run of its pieces, definitionally.
-/
import proofs.«112428_j16501264351338_2_alg».proof.Proof.Gen.ReferenceIdeal
import Idealize.ShloMosaic.Lib.StableHlo.Run

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- Operations 1 … 5 of @main. -/
abbrev ops00 : List (HloOp τ sig (Elt F)) :=
  [ nullary main_c (constantI S_ 32 0#32),
    TRef.unary (TRef.of (T := ⟨S_, .i32⟩) main_c) (TRef.of (T := ⟨S_, .f32⟩) main_call0_v0) (sitofp .f32),
    TRef.binary (TRef.of (T := ⟨S16384x10x100, .f32⟩) main_arg0) (TRef.of (T := ⟨S_, .f32⟩) main_call0_v0) (TRef.of (T := ⟨S16384x14x104, .f32⟩) main_v0) (fun x v => pad S16384x14x104 ![0, 2, 2] ![0, 2, 2] ![0, 0, 0] x v pads_S16384x10x100_S16384x14x104_000_220_220 h_S_),
    nullary main_cst (constant S_ .f32 0x00000000#32),
    unary main_cst main_v1 (broadcastInDim S16384x10x100 ![] bcast_S_S16384x10x100 : (⟨S_, .f32⟩ : BufTy).Contents (Elt F) → (⟨S16384x10x100, .f32⟩ : BufTy).Contents (Elt F)) ]

/-- Operations 6 … 12 of @main. -/
abbrev ops01 : List (HloOp τ sig (Elt F)) :=
  [ unary main_v0 main_v2 ((extractStridedSlice S16384x10x100 ![0, 0, 0] · slices_S16384x14x104_S16384x10x100_0_0_0) : (⟨S16384x14x104, .f32⟩ : BufTy).Contents (Elt F) → (⟨S16384x10x100, .f32⟩ : BufTy).Contents (Elt F)),
    unary main_arg1 main_v3 ((extractStridedSlice S10x100x1x1 ![0, 0, 0, 0] · slices_S10x100x5x5_S10x100x1x1_0_0_0_0) : (⟨S10x100x5x5, .f32⟩ : BufTy).Contents (Elt F) → (⟨S10x100x1x1, .f32⟩ : BufTy).Contents (Elt F)),
    reshape main_v3 main_v4 rfl shapeCasts_S10x100x1x1_S10x100,
    unary main_v4 main_v5 (broadcastInDim S1x10x100 ![1, 2] bcast_S10x100_S1x10x100_1_2 : (⟨S10x100, .f32⟩ : BufTy).Contents (Elt F) → (⟨S1x10x100, .f32⟩ : BufTy).Contents (Elt F)),
    unary main_v5 main_v6 (broadcastInDim S16384x10x100 ![0, 1, 2] bcast_S1x10x100_S16384x10x100_0_1_2 : (⟨S1x10x100, .f32⟩ : BufTy).Contents (Elt F) → (⟨S16384x10x100, .f32⟩ : BufTy).Contents (Elt F)),
    binary main_v2 main_v6 main_v7 (mulf : (⟨S16384x10x100, .f32⟩ : BufTy).Contents (Elt F) → (⟨S16384x10x100, .f32⟩ : BufTy).Contents (Elt F) → (⟨S16384x10x100, .f32⟩ : BufTy).Contents (Elt F)),
    binary main_v1 main_v7 main_v8 (addf : (⟨S16384x10x100, .f32⟩ : BufTy).Contents (Elt F) → (⟨S16384x10x100, .f32⟩ : BufTy).Contents (Elt F) → (⟨S16384x10x100, .f32⟩ : BufTy).Contents (Elt F)) ]

/-- Operations 13 … 19 of @main. -/
abbrev ops02 : List (HloOp τ sig (Elt F)) :=
  [ unary main_v0 main_v9 ((extractStridedSlice S16384x10x100 ![0, 0, 1] · slices_S16384x14x104_S16384x10x100_0_0_1) : (⟨S16384x14x104, .f32⟩ : BufTy).Contents (Elt F) → (⟨S16384x10x100, .f32⟩ : BufTy).Contents (Elt F)),
    unary main_arg1 main_v10 ((extractStridedSlice S10x100x1x1 ![0, 0, 0, 1] · slices_S10x100x5x5_S10x100x1x1_0_0_0_1) : (⟨S10x100x5x5, .f32⟩ : BufTy).Contents (Elt F) → (⟨S10x100x1x1, .f32⟩ : BufTy).Contents (Elt F)),
    reshape main_v10 main_v11 rfl shapeCasts_S10x100x1x1_S10x100,
    unary main_v11 main_v12 (broadcastInDim S1x10x100 ![1, 2] bcast_S10x100_S1x10x100_1_2 : (⟨S10x100, .f32⟩ : BufTy).Contents (Elt F) → (⟨S1x10x100, .f32⟩ : BufTy).Contents (Elt F)),
    unary main_v12 main_v13 (broadcastInDim S16384x10x100 ![0, 1, 2] bcast_S1x10x100_S16384x10x100_0_1_2 : (⟨S1x10x100, .f32⟩ : BufTy).Contents (Elt F) → (⟨S16384x10x100, .f32⟩ : BufTy).Contents (Elt F)),
    binary main_v9 main_v13 main_v14 (mulf : (⟨S16384x10x100, .f32⟩ : BufTy).Contents (Elt F) → (⟨S16384x10x100, .f32⟩ : BufTy).Contents (Elt F) → (⟨S16384x10x100, .f32⟩ : BufTy).Contents (Elt F)),
    binary main_v8 main_v14 main_v15 (addf : (⟨S16384x10x100, .f32⟩ : BufTy).Contents (Elt F) → (⟨S16384x10x100, .f32⟩ : BufTy).Contents (Elt F) → (⟨S16384x10x100, .f32⟩ : BufTy).Contents (Elt F)) ]

/-- Operations 20 … 26 of @main. -/
abbrev ops03 : List (HloOp τ sig (Elt F)) :=
  [ unary main_v0 main_v16 ((extractStridedSlice S16384x10x100 ![0, 0, 2] · slices_S16384x14x104_S16384x10x100_0_0_2) : (⟨S16384x14x104, .f32⟩ : BufTy).Contents (Elt F) → (⟨S16384x10x100, .f32⟩ : BufTy).Contents (Elt F)),
    unary main_arg1 main_v17 ((extractStridedSlice S10x100x1x1 ![0, 0, 0, 2] · slices_S10x100x5x5_S10x100x1x1_0_0_0_2) : (⟨S10x100x5x5, .f32⟩ : BufTy).Contents (Elt F) → (⟨S10x100x1x1, .f32⟩ : BufTy).Contents (Elt F)),
    reshape main_v17 main_v18 rfl shapeCasts_S10x100x1x1_S10x100,
    unary main_v18 main_v19 (broadcastInDim S1x10x100 ![1, 2] bcast_S10x100_S1x10x100_1_2 : (⟨S10x100, .f32⟩ : BufTy).Contents (Elt F) → (⟨S1x10x100, .f32⟩ : BufTy).Contents (Elt F)),
    unary main_v19 main_v20 (broadcastInDim S16384x10x100 ![0, 1, 2] bcast_S1x10x100_S16384x10x100_0_1_2 : (⟨S1x10x100, .f32⟩ : BufTy).Contents (Elt F) → (⟨S16384x10x100, .f32⟩ : BufTy).Contents (Elt F)),
    binary main_v16 main_v20 main_v21 (mulf : (⟨S16384x10x100, .f32⟩ : BufTy).Contents (Elt F) → (⟨S16384x10x100, .f32⟩ : BufTy).Contents (Elt F) → (⟨S16384x10x100, .f32⟩ : BufTy).Contents (Elt F)),
    binary main_v15 main_v21 main_v22 (addf : (⟨S16384x10x100, .f32⟩ : BufTy).Contents (Elt F) → (⟨S16384x10x100, .f32⟩ : BufTy).Contents (Elt F) → (⟨S16384x10x100, .f32⟩ : BufTy).Contents (Elt F)) ]

/-- Operations 27 … 33 of @main. -/
abbrev ops04 : List (HloOp τ sig (Elt F)) :=
  [ unary main_v0 main_v23 ((extractStridedSlice S16384x10x100 ![0, 0, 3] · slices_S16384x14x104_S16384x10x100_0_0_3) : (⟨S16384x14x104, .f32⟩ : BufTy).Contents (Elt F) → (⟨S16384x10x100, .f32⟩ : BufTy).Contents (Elt F)),
    unary main_arg1 main_v24 ((extractStridedSlice S10x100x1x1 ![0, 0, 0, 3] · slices_S10x100x5x5_S10x100x1x1_0_0_0_3) : (⟨S10x100x5x5, .f32⟩ : BufTy).Contents (Elt F) → (⟨S10x100x1x1, .f32⟩ : BufTy).Contents (Elt F)),
    reshape main_v24 main_v25 rfl shapeCasts_S10x100x1x1_S10x100,
    unary main_v25 main_v26 (broadcastInDim S1x10x100 ![1, 2] bcast_S10x100_S1x10x100_1_2 : (⟨S10x100, .f32⟩ : BufTy).Contents (Elt F) → (⟨S1x10x100, .f32⟩ : BufTy).Contents (Elt F)),
    unary main_v26 main_v27 (broadcastInDim S16384x10x100 ![0, 1, 2] bcast_S1x10x100_S16384x10x100_0_1_2 : (⟨S1x10x100, .f32⟩ : BufTy).Contents (Elt F) → (⟨S16384x10x100, .f32⟩ : BufTy).Contents (Elt F)),
    binary main_v23 main_v27 main_v28 (mulf : (⟨S16384x10x100, .f32⟩ : BufTy).Contents (Elt F) → (⟨S16384x10x100, .f32⟩ : BufTy).Contents (Elt F) → (⟨S16384x10x100, .f32⟩ : BufTy).Contents (Elt F)),
    binary main_v22 main_v28 main_v29 (addf : (⟨S16384x10x100, .f32⟩ : BufTy).Contents (Elt F) → (⟨S16384x10x100, .f32⟩ : BufTy).Contents (Elt F) → (⟨S16384x10x100, .f32⟩ : BufTy).Contents (Elt F)) ]

/-- Operations 34 … 40 of @main. -/
abbrev ops05 : List (HloOp τ sig (Elt F)) :=
  [ unary main_v0 main_v30 ((extractStridedSlice S16384x10x100 ![0, 0, 4] · slices_S16384x14x104_S16384x10x100_0_0_4) : (⟨S16384x14x104, .f32⟩ : BufTy).Contents (Elt F) → (⟨S16384x10x100, .f32⟩ : BufTy).Contents (Elt F)),
    unary main_arg1 main_v31 ((extractStridedSlice S10x100x1x1 ![0, 0, 0, 4] · slices_S10x100x5x5_S10x100x1x1_0_0_0_4) : (⟨S10x100x5x5, .f32⟩ : BufTy).Contents (Elt F) → (⟨S10x100x1x1, .f32⟩ : BufTy).Contents (Elt F)),
    reshape main_v31 main_v32 rfl shapeCasts_S10x100x1x1_S10x100,
    unary main_v32 main_v33 (broadcastInDim S1x10x100 ![1, 2] bcast_S10x100_S1x10x100_1_2 : (⟨S10x100, .f32⟩ : BufTy).Contents (Elt F) → (⟨S1x10x100, .f32⟩ : BufTy).Contents (Elt F)),
    unary main_v33 main_v34 (broadcastInDim S16384x10x100 ![0, 1, 2] bcast_S1x10x100_S16384x10x100_0_1_2 : (⟨S1x10x100, .f32⟩ : BufTy).Contents (Elt F) → (⟨S16384x10x100, .f32⟩ : BufTy).Contents (Elt F)),
    binary main_v30 main_v34 main_v35 (mulf : (⟨S16384x10x100, .f32⟩ : BufTy).Contents (Elt F) → (⟨S16384x10x100, .f32⟩ : BufTy).Contents (Elt F) → (⟨S16384x10x100, .f32⟩ : BufTy).Contents (Elt F)),
    binary main_v29 main_v35 main_v36 (addf : (⟨S16384x10x100, .f32⟩ : BufTy).Contents (Elt F) → (⟨S16384x10x100, .f32⟩ : BufTy).Contents (Elt F) → (⟨S16384x10x100, .f32⟩ : BufTy).Contents (Elt F)) ]

/-- Operations 41 … 47 of @main. -/
abbrev ops06 : List (HloOp τ sig (Elt F)) :=
  [ unary main_v0 main_v37 ((extractStridedSlice S16384x10x100 ![0, 1, 0] · slices_S16384x14x104_S16384x10x100_0_1_0) : (⟨S16384x14x104, .f32⟩ : BufTy).Contents (Elt F) → (⟨S16384x10x100, .f32⟩ : BufTy).Contents (Elt F)),
    unary main_arg1 main_v38 ((extractStridedSlice S10x100x1x1 ![0, 0, 1, 0] · slices_S10x100x5x5_S10x100x1x1_0_0_1_0) : (⟨S10x100x5x5, .f32⟩ : BufTy).Contents (Elt F) → (⟨S10x100x1x1, .f32⟩ : BufTy).Contents (Elt F)),
    reshape main_v38 main_v39 rfl shapeCasts_S10x100x1x1_S10x100,
    unary main_v39 main_v40 (broadcastInDim S1x10x100 ![1, 2] bcast_S10x100_S1x10x100_1_2 : (⟨S10x100, .f32⟩ : BufTy).Contents (Elt F) → (⟨S1x10x100, .f32⟩ : BufTy).Contents (Elt F)),
    unary main_v40 main_v41 (broadcastInDim S16384x10x100 ![0, 1, 2] bcast_S1x10x100_S16384x10x100_0_1_2 : (⟨S1x10x100, .f32⟩ : BufTy).Contents (Elt F) → (⟨S16384x10x100, .f32⟩ : BufTy).Contents (Elt F)),
    binary main_v37 main_v41 main_v42 (mulf : (⟨S16384x10x100, .f32⟩ : BufTy).Contents (Elt F) → (⟨S16384x10x100, .f32⟩ : BufTy).Contents (Elt F) → (⟨S16384x10x100, .f32⟩ : BufTy).Contents (Elt F)),
    binary main_v36 main_v42 main_v43 (addf : (⟨S16384x10x100, .f32⟩ : BufTy).Contents (Elt F) → (⟨S16384x10x100, .f32⟩ : BufTy).Contents (Elt F) → (⟨S16384x10x100, .f32⟩ : BufTy).Contents (Elt F)) ]

/-- Operations 48 … 54 of @main. -/
abbrev ops07 : List (HloOp τ sig (Elt F)) :=
  [ unary main_v0 main_v44 ((extractStridedSlice S16384x10x100 ![0, 1, 1] · slices_S16384x14x104_S16384x10x100_0_1_1) : (⟨S16384x14x104, .f32⟩ : BufTy).Contents (Elt F) → (⟨S16384x10x100, .f32⟩ : BufTy).Contents (Elt F)),
    unary main_arg1 main_v45 ((extractStridedSlice S10x100x1x1 ![0, 0, 1, 1] · slices_S10x100x5x5_S10x100x1x1_0_0_1_1) : (⟨S10x100x5x5, .f32⟩ : BufTy).Contents (Elt F) → (⟨S10x100x1x1, .f32⟩ : BufTy).Contents (Elt F)),
    reshape main_v45 main_v46 rfl shapeCasts_S10x100x1x1_S10x100,
    unary main_v46 main_v47 (broadcastInDim S1x10x100 ![1, 2] bcast_S10x100_S1x10x100_1_2 : (⟨S10x100, .f32⟩ : BufTy).Contents (Elt F) → (⟨S1x10x100, .f32⟩ : BufTy).Contents (Elt F)),
    unary main_v47 main_v48 (broadcastInDim S16384x10x100 ![0, 1, 2] bcast_S1x10x100_S16384x10x100_0_1_2 : (⟨S1x10x100, .f32⟩ : BufTy).Contents (Elt F) → (⟨S16384x10x100, .f32⟩ : BufTy).Contents (Elt F)),
    binary main_v44 main_v48 main_v49 (mulf : (⟨S16384x10x100, .f32⟩ : BufTy).Contents (Elt F) → (⟨S16384x10x100, .f32⟩ : BufTy).Contents (Elt F) → (⟨S16384x10x100, .f32⟩ : BufTy).Contents (Elt F)),
    binary main_v43 main_v49 main_v50 (addf : (⟨S16384x10x100, .f32⟩ : BufTy).Contents (Elt F) → (⟨S16384x10x100, .f32⟩ : BufTy).Contents (Elt F) → (⟨S16384x10x100, .f32⟩ : BufTy).Contents (Elt F)) ]

/-- Operations 55 … 61 of @main. -/
abbrev ops08 : List (HloOp τ sig (Elt F)) :=
  [ unary main_v0 main_v51 ((extractStridedSlice S16384x10x100 ![0, 1, 2] · slices_S16384x14x104_S16384x10x100_0_1_2) : (⟨S16384x14x104, .f32⟩ : BufTy).Contents (Elt F) → (⟨S16384x10x100, .f32⟩ : BufTy).Contents (Elt F)),
    unary main_arg1 main_v52 ((extractStridedSlice S10x100x1x1 ![0, 0, 1, 2] · slices_S10x100x5x5_S10x100x1x1_0_0_1_2) : (⟨S10x100x5x5, .f32⟩ : BufTy).Contents (Elt F) → (⟨S10x100x1x1, .f32⟩ : BufTy).Contents (Elt F)),
    reshape main_v52 main_v53 rfl shapeCasts_S10x100x1x1_S10x100,
    unary main_v53 main_v54 (broadcastInDim S1x10x100 ![1, 2] bcast_S10x100_S1x10x100_1_2 : (⟨S10x100, .f32⟩ : BufTy).Contents (Elt F) → (⟨S1x10x100, .f32⟩ : BufTy).Contents (Elt F)),
    unary main_v54 main_v55 (broadcastInDim S16384x10x100 ![0, 1, 2] bcast_S1x10x100_S16384x10x100_0_1_2 : (⟨S1x10x100, .f32⟩ : BufTy).Contents (Elt F) → (⟨S16384x10x100, .f32⟩ : BufTy).Contents (Elt F)),
    binary main_v51 main_v55 main_v56 (mulf : (⟨S16384x10x100, .f32⟩ : BufTy).Contents (Elt F) → (⟨S16384x10x100, .f32⟩ : BufTy).Contents (Elt F) → (⟨S16384x10x100, .f32⟩ : BufTy).Contents (Elt F)),
    binary main_v50 main_v56 main_v57 (addf : (⟨S16384x10x100, .f32⟩ : BufTy).Contents (Elt F) → (⟨S16384x10x100, .f32⟩ : BufTy).Contents (Elt F) → (⟨S16384x10x100, .f32⟩ : BufTy).Contents (Elt F)) ]

/-- Operations 62 … 68 of @main. -/
abbrev ops09 : List (HloOp τ sig (Elt F)) :=
  [ unary main_v0 main_v58 ((extractStridedSlice S16384x10x100 ![0, 1, 3] · slices_S16384x14x104_S16384x10x100_0_1_3) : (⟨S16384x14x104, .f32⟩ : BufTy).Contents (Elt F) → (⟨S16384x10x100, .f32⟩ : BufTy).Contents (Elt F)),
    unary main_arg1 main_v59 ((extractStridedSlice S10x100x1x1 ![0, 0, 1, 3] · slices_S10x100x5x5_S10x100x1x1_0_0_1_3) : (⟨S10x100x5x5, .f32⟩ : BufTy).Contents (Elt F) → (⟨S10x100x1x1, .f32⟩ : BufTy).Contents (Elt F)),
    reshape main_v59 main_v60 rfl shapeCasts_S10x100x1x1_S10x100,
    unary main_v60 main_v61 (broadcastInDim S1x10x100 ![1, 2] bcast_S10x100_S1x10x100_1_2 : (⟨S10x100, .f32⟩ : BufTy).Contents (Elt F) → (⟨S1x10x100, .f32⟩ : BufTy).Contents (Elt F)),
    unary main_v61 main_v62 (broadcastInDim S16384x10x100 ![0, 1, 2] bcast_S1x10x100_S16384x10x100_0_1_2 : (⟨S1x10x100, .f32⟩ : BufTy).Contents (Elt F) → (⟨S16384x10x100, .f32⟩ : BufTy).Contents (Elt F)),
    binary main_v58 main_v62 main_v63 (mulf : (⟨S16384x10x100, .f32⟩ : BufTy).Contents (Elt F) → (⟨S16384x10x100, .f32⟩ : BufTy).Contents (Elt F) → (⟨S16384x10x100, .f32⟩ : BufTy).Contents (Elt F)),
    binary main_v57 main_v63 main_v64 (addf : (⟨S16384x10x100, .f32⟩ : BufTy).Contents (Elt F) → (⟨S16384x10x100, .f32⟩ : BufTy).Contents (Elt F) → (⟨S16384x10x100, .f32⟩ : BufTy).Contents (Elt F)) ]

/-- Operations 69 … 75 of @main. -/
abbrev ops10 : List (HloOp τ sig (Elt F)) :=
  [ unary main_v0 main_v65 ((extractStridedSlice S16384x10x100 ![0, 1, 4] · slices_S16384x14x104_S16384x10x100_0_1_4) : (⟨S16384x14x104, .f32⟩ : BufTy).Contents (Elt F) → (⟨S16384x10x100, .f32⟩ : BufTy).Contents (Elt F)),
    unary main_arg1 main_v66 ((extractStridedSlice S10x100x1x1 ![0, 0, 1, 4] · slices_S10x100x5x5_S10x100x1x1_0_0_1_4) : (⟨S10x100x5x5, .f32⟩ : BufTy).Contents (Elt F) → (⟨S10x100x1x1, .f32⟩ : BufTy).Contents (Elt F)),
    reshape main_v66 main_v67 rfl shapeCasts_S10x100x1x1_S10x100,
    unary main_v67 main_v68 (broadcastInDim S1x10x100 ![1, 2] bcast_S10x100_S1x10x100_1_2 : (⟨S10x100, .f32⟩ : BufTy).Contents (Elt F) → (⟨S1x10x100, .f32⟩ : BufTy).Contents (Elt F)),
    unary main_v68 main_v69 (broadcastInDim S16384x10x100 ![0, 1, 2] bcast_S1x10x100_S16384x10x100_0_1_2 : (⟨S1x10x100, .f32⟩ : BufTy).Contents (Elt F) → (⟨S16384x10x100, .f32⟩ : BufTy).Contents (Elt F)),
    binary main_v65 main_v69 main_v70 (mulf : (⟨S16384x10x100, .f32⟩ : BufTy).Contents (Elt F) → (⟨S16384x10x100, .f32⟩ : BufTy).Contents (Elt F) → (⟨S16384x10x100, .f32⟩ : BufTy).Contents (Elt F)),
    binary main_v64 main_v70 main_v71 (addf : (⟨S16384x10x100, .f32⟩ : BufTy).Contents (Elt F) → (⟨S16384x10x100, .f32⟩ : BufTy).Contents (Elt F) → (⟨S16384x10x100, .f32⟩ : BufTy).Contents (Elt F)) ]

/-- Operations 76 … 82 of @main. -/
abbrev ops11 : List (HloOp τ sig (Elt F)) :=
  [ unary main_v0 main_v72 ((extractStridedSlice S16384x10x100 ![0, 2, 0] · slices_S16384x14x104_S16384x10x100_0_2_0) : (⟨S16384x14x104, .f32⟩ : BufTy).Contents (Elt F) → (⟨S16384x10x100, .f32⟩ : BufTy).Contents (Elt F)),
    unary main_arg1 main_v73 ((extractStridedSlice S10x100x1x1 ![0, 0, 2, 0] · slices_S10x100x5x5_S10x100x1x1_0_0_2_0) : (⟨S10x100x5x5, .f32⟩ : BufTy).Contents (Elt F) → (⟨S10x100x1x1, .f32⟩ : BufTy).Contents (Elt F)),
    reshape main_v73 main_v74 rfl shapeCasts_S10x100x1x1_S10x100,
    unary main_v74 main_v75 (broadcastInDim S1x10x100 ![1, 2] bcast_S10x100_S1x10x100_1_2 : (⟨S10x100, .f32⟩ : BufTy).Contents (Elt F) → (⟨S1x10x100, .f32⟩ : BufTy).Contents (Elt F)),
    unary main_v75 main_v76 (broadcastInDim S16384x10x100 ![0, 1, 2] bcast_S1x10x100_S16384x10x100_0_1_2 : (⟨S1x10x100, .f32⟩ : BufTy).Contents (Elt F) → (⟨S16384x10x100, .f32⟩ : BufTy).Contents (Elt F)),
    binary main_v72 main_v76 main_v77 (mulf : (⟨S16384x10x100, .f32⟩ : BufTy).Contents (Elt F) → (⟨S16384x10x100, .f32⟩ : BufTy).Contents (Elt F) → (⟨S16384x10x100, .f32⟩ : BufTy).Contents (Elt F)),
    binary main_v71 main_v77 main_v78 (addf : (⟨S16384x10x100, .f32⟩ : BufTy).Contents (Elt F) → (⟨S16384x10x100, .f32⟩ : BufTy).Contents (Elt F) → (⟨S16384x10x100, .f32⟩ : BufTy).Contents (Elt F)) ]

/-- Operations 83 … 89 of @main. -/
abbrev ops12 : List (HloOp τ sig (Elt F)) :=
  [ unary main_v0 main_v79 ((extractStridedSlice S16384x10x100 ![0, 2, 1] · slices_S16384x14x104_S16384x10x100_0_2_1) : (⟨S16384x14x104, .f32⟩ : BufTy).Contents (Elt F) → (⟨S16384x10x100, .f32⟩ : BufTy).Contents (Elt F)),
    unary main_arg1 main_v80 ((extractStridedSlice S10x100x1x1 ![0, 0, 2, 1] · slices_S10x100x5x5_S10x100x1x1_0_0_2_1) : (⟨S10x100x5x5, .f32⟩ : BufTy).Contents (Elt F) → (⟨S10x100x1x1, .f32⟩ : BufTy).Contents (Elt F)),
    reshape main_v80 main_v81 rfl shapeCasts_S10x100x1x1_S10x100,
    unary main_v81 main_v82 (broadcastInDim S1x10x100 ![1, 2] bcast_S10x100_S1x10x100_1_2 : (⟨S10x100, .f32⟩ : BufTy).Contents (Elt F) → (⟨S1x10x100, .f32⟩ : BufTy).Contents (Elt F)),
    unary main_v82 main_v83 (broadcastInDim S16384x10x100 ![0, 1, 2] bcast_S1x10x100_S16384x10x100_0_1_2 : (⟨S1x10x100, .f32⟩ : BufTy).Contents (Elt F) → (⟨S16384x10x100, .f32⟩ : BufTy).Contents (Elt F)),
    binary main_v79 main_v83 main_v84 (mulf : (⟨S16384x10x100, .f32⟩ : BufTy).Contents (Elt F) → (⟨S16384x10x100, .f32⟩ : BufTy).Contents (Elt F) → (⟨S16384x10x100, .f32⟩ : BufTy).Contents (Elt F)),
    binary main_v78 main_v84 main_v85 (addf : (⟨S16384x10x100, .f32⟩ : BufTy).Contents (Elt F) → (⟨S16384x10x100, .f32⟩ : BufTy).Contents (Elt F) → (⟨S16384x10x100, .f32⟩ : BufTy).Contents (Elt F)) ]

/-- Operations 90 … 96 of @main. -/
abbrev ops13 : List (HloOp τ sig (Elt F)) :=
  [ unary main_v0 main_v86 ((extractStridedSlice S16384x10x100 ![0, 2, 2] · slices_S16384x14x104_S16384x10x100_0_2_2) : (⟨S16384x14x104, .f32⟩ : BufTy).Contents (Elt F) → (⟨S16384x10x100, .f32⟩ : BufTy).Contents (Elt F)),
    unary main_arg1 main_v87 ((extractStridedSlice S10x100x1x1 ![0, 0, 2, 2] · slices_S10x100x5x5_S10x100x1x1_0_0_2_2) : (⟨S10x100x5x5, .f32⟩ : BufTy).Contents (Elt F) → (⟨S10x100x1x1, .f32⟩ : BufTy).Contents (Elt F)),
    reshape main_v87 main_v88 rfl shapeCasts_S10x100x1x1_S10x100,
    unary main_v88 main_v89 (broadcastInDim S1x10x100 ![1, 2] bcast_S10x100_S1x10x100_1_2 : (⟨S10x100, .f32⟩ : BufTy).Contents (Elt F) → (⟨S1x10x100, .f32⟩ : BufTy).Contents (Elt F)),
    unary main_v89 main_v90 (broadcastInDim S16384x10x100 ![0, 1, 2] bcast_S1x10x100_S16384x10x100_0_1_2 : (⟨S1x10x100, .f32⟩ : BufTy).Contents (Elt F) → (⟨S16384x10x100, .f32⟩ : BufTy).Contents (Elt F)),
    binary main_v86 main_v90 main_v91 (mulf : (⟨S16384x10x100, .f32⟩ : BufTy).Contents (Elt F) → (⟨S16384x10x100, .f32⟩ : BufTy).Contents (Elt F) → (⟨S16384x10x100, .f32⟩ : BufTy).Contents (Elt F)),
    binary main_v85 main_v91 main_v92 (addf : (⟨S16384x10x100, .f32⟩ : BufTy).Contents (Elt F) → (⟨S16384x10x100, .f32⟩ : BufTy).Contents (Elt F) → (⟨S16384x10x100, .f32⟩ : BufTy).Contents (Elt F)) ]

/-- Operations 97 … 103 of @main. -/
abbrev ops14 : List (HloOp τ sig (Elt F)) :=
  [ unary main_v0 main_v93 ((extractStridedSlice S16384x10x100 ![0, 2, 3] · slices_S16384x14x104_S16384x10x100_0_2_3) : (⟨S16384x14x104, .f32⟩ : BufTy).Contents (Elt F) → (⟨S16384x10x100, .f32⟩ : BufTy).Contents (Elt F)),
    unary main_arg1 main_v94 ((extractStridedSlice S10x100x1x1 ![0, 0, 2, 3] · slices_S10x100x5x5_S10x100x1x1_0_0_2_3) : (⟨S10x100x5x5, .f32⟩ : BufTy).Contents (Elt F) → (⟨S10x100x1x1, .f32⟩ : BufTy).Contents (Elt F)),
    reshape main_v94 main_v95 rfl shapeCasts_S10x100x1x1_S10x100,
    unary main_v95 main_v96 (broadcastInDim S1x10x100 ![1, 2] bcast_S10x100_S1x10x100_1_2 : (⟨S10x100, .f32⟩ : BufTy).Contents (Elt F) → (⟨S1x10x100, .f32⟩ : BufTy).Contents (Elt F)),
    unary main_v96 main_v97 (broadcastInDim S16384x10x100 ![0, 1, 2] bcast_S1x10x100_S16384x10x100_0_1_2 : (⟨S1x10x100, .f32⟩ : BufTy).Contents (Elt F) → (⟨S16384x10x100, .f32⟩ : BufTy).Contents (Elt F)),
    binary main_v93 main_v97 main_v98 (mulf : (⟨S16384x10x100, .f32⟩ : BufTy).Contents (Elt F) → (⟨S16384x10x100, .f32⟩ : BufTy).Contents (Elt F) → (⟨S16384x10x100, .f32⟩ : BufTy).Contents (Elt F)),
    binary main_v92 main_v98 main_v99 (addf : (⟨S16384x10x100, .f32⟩ : BufTy).Contents (Elt F) → (⟨S16384x10x100, .f32⟩ : BufTy).Contents (Elt F) → (⟨S16384x10x100, .f32⟩ : BufTy).Contents (Elt F)) ]

/-- Operations 104 … 110 of @main. -/
abbrev ops15 : List (HloOp τ sig (Elt F)) :=
  [ unary main_v0 main_v100 ((extractStridedSlice S16384x10x100 ![0, 2, 4] · slices_S16384x14x104_S16384x10x100_0_2_4) : (⟨S16384x14x104, .f32⟩ : BufTy).Contents (Elt F) → (⟨S16384x10x100, .f32⟩ : BufTy).Contents (Elt F)),
    unary main_arg1 main_v101 ((extractStridedSlice S10x100x1x1 ![0, 0, 2, 4] · slices_S10x100x5x5_S10x100x1x1_0_0_2_4) : (⟨S10x100x5x5, .f32⟩ : BufTy).Contents (Elt F) → (⟨S10x100x1x1, .f32⟩ : BufTy).Contents (Elt F)),
    reshape main_v101 main_v102 rfl shapeCasts_S10x100x1x1_S10x100,
    unary main_v102 main_v103 (broadcastInDim S1x10x100 ![1, 2] bcast_S10x100_S1x10x100_1_2 : (⟨S10x100, .f32⟩ : BufTy).Contents (Elt F) → (⟨S1x10x100, .f32⟩ : BufTy).Contents (Elt F)),
    unary main_v103 main_v104 (broadcastInDim S16384x10x100 ![0, 1, 2] bcast_S1x10x100_S16384x10x100_0_1_2 : (⟨S1x10x100, .f32⟩ : BufTy).Contents (Elt F) → (⟨S16384x10x100, .f32⟩ : BufTy).Contents (Elt F)),
    binary main_v100 main_v104 main_v105 (mulf : (⟨S16384x10x100, .f32⟩ : BufTy).Contents (Elt F) → (⟨S16384x10x100, .f32⟩ : BufTy).Contents (Elt F) → (⟨S16384x10x100, .f32⟩ : BufTy).Contents (Elt F)),
    binary main_v99 main_v105 main_v106 (addf : (⟨S16384x10x100, .f32⟩ : BufTy).Contents (Elt F) → (⟨S16384x10x100, .f32⟩ : BufTy).Contents (Elt F) → (⟨S16384x10x100, .f32⟩ : BufTy).Contents (Elt F)) ]

/-- Operations 111 … 117 of @main. -/
abbrev ops16 : List (HloOp τ sig (Elt F)) :=
  [ unary main_v0 main_v107 ((extractStridedSlice S16384x10x100 ![0, 3, 0] · slices_S16384x14x104_S16384x10x100_0_3_0) : (⟨S16384x14x104, .f32⟩ : BufTy).Contents (Elt F) → (⟨S16384x10x100, .f32⟩ : BufTy).Contents (Elt F)),
    unary main_arg1 main_v108 ((extractStridedSlice S10x100x1x1 ![0, 0, 3, 0] · slices_S10x100x5x5_S10x100x1x1_0_0_3_0) : (⟨S10x100x5x5, .f32⟩ : BufTy).Contents (Elt F) → (⟨S10x100x1x1, .f32⟩ : BufTy).Contents (Elt F)),
    reshape main_v108 main_v109 rfl shapeCasts_S10x100x1x1_S10x100,
    unary main_v109 main_v110 (broadcastInDim S1x10x100 ![1, 2] bcast_S10x100_S1x10x100_1_2 : (⟨S10x100, .f32⟩ : BufTy).Contents (Elt F) → (⟨S1x10x100, .f32⟩ : BufTy).Contents (Elt F)),
    unary main_v110 main_v111 (broadcastInDim S16384x10x100 ![0, 1, 2] bcast_S1x10x100_S16384x10x100_0_1_2 : (⟨S1x10x100, .f32⟩ : BufTy).Contents (Elt F) → (⟨S16384x10x100, .f32⟩ : BufTy).Contents (Elt F)),
    binary main_v107 main_v111 main_v112 (mulf : (⟨S16384x10x100, .f32⟩ : BufTy).Contents (Elt F) → (⟨S16384x10x100, .f32⟩ : BufTy).Contents (Elt F) → (⟨S16384x10x100, .f32⟩ : BufTy).Contents (Elt F)),
    binary main_v106 main_v112 main_v113 (addf : (⟨S16384x10x100, .f32⟩ : BufTy).Contents (Elt F) → (⟨S16384x10x100, .f32⟩ : BufTy).Contents (Elt F) → (⟨S16384x10x100, .f32⟩ : BufTy).Contents (Elt F)) ]

/-- Operations 118 … 121 of @main. -/
abbrev ops17 : List (HloOp τ sig (Elt F)) :=
  [ unary main_v0 main_v114 ((extractStridedSlice S16384x10x100 ![0, 3, 1] · slices_S16384x14x104_S16384x10x100_0_3_1) : (⟨S16384x14x104, .f32⟩ : BufTy).Contents (Elt F) → (⟨S16384x10x100, .f32⟩ : BufTy).Contents (Elt F)),
    unary main_arg1 main_v115 ((extractStridedSlice S10x100x1x1 ![0, 0, 3, 1] · slices_S10x100x5x5_S10x100x1x1_0_0_3_1) : (⟨S10x100x5x5, .f32⟩ : BufTy).Contents (Elt F) → (⟨S10x100x1x1, .f32⟩ : BufTy).Contents (Elt F)),
    reshape main_v115 main_v116 rfl shapeCasts_S10x100x1x1_S10x100,
    unary main_v116 main_v117 (broadcastInDim S1x10x100 ![1, 2] bcast_S10x100_S1x10x100_1_2 : (⟨S10x100, .f32⟩ : BufTy).Contents (Elt F) → (⟨S1x10x100, .f32⟩ : BufTy).Contents (Elt F)) ]

/-- Operations 122 … 124 of @main. -/
abbrev ops18 : List (HloOp τ sig (Elt F)) :=
  [ unary main_v117 main_v118 (broadcastInDim S16384x10x100 ![0, 1, 2] bcast_S1x10x100_S16384x10x100_0_1_2 : (⟨S1x10x100, .f32⟩ : BufTy).Contents (Elt F) → (⟨S16384x10x100, .f32⟩ : BufTy).Contents (Elt F)),
    binary main_v114 main_v118 main_v119 (mulf : (⟨S16384x10x100, .f32⟩ : BufTy).Contents (Elt F) → (⟨S16384x10x100, .f32⟩ : BufTy).Contents (Elt F) → (⟨S16384x10x100, .f32⟩ : BufTy).Contents (Elt F)),
    binary main_v113 main_v119 main_v120 (addf : (⟨S16384x10x100, .f32⟩ : BufTy).Contents (Elt F) → (⟨S16384x10x100, .f32⟩ : BufTy).Contents (Elt F) → (⟨S16384x10x100, .f32⟩ : BufTy).Contents (Elt F)) ]

/-- Operations 125 … 131 of @main. -/
abbrev ops19 : List (HloOp τ sig (Elt F)) :=
  [ unary main_v0 main_v121 ((extractStridedSlice S16384x10x100 ![0, 3, 2] · slices_S16384x14x104_S16384x10x100_0_3_2) : (⟨S16384x14x104, .f32⟩ : BufTy).Contents (Elt F) → (⟨S16384x10x100, .f32⟩ : BufTy).Contents (Elt F)),
    unary main_arg1 main_v122 ((extractStridedSlice S10x100x1x1 ![0, 0, 3, 2] · slices_S10x100x5x5_S10x100x1x1_0_0_3_2) : (⟨S10x100x5x5, .f32⟩ : BufTy).Contents (Elt F) → (⟨S10x100x1x1, .f32⟩ : BufTy).Contents (Elt F)),
    reshape main_v122 main_v123 rfl shapeCasts_S10x100x1x1_S10x100,
    unary main_v123 main_v124 (broadcastInDim S1x10x100 ![1, 2] bcast_S10x100_S1x10x100_1_2 : (⟨S10x100, .f32⟩ : BufTy).Contents (Elt F) → (⟨S1x10x100, .f32⟩ : BufTy).Contents (Elt F)),
    unary main_v124 main_v125 (broadcastInDim S16384x10x100 ![0, 1, 2] bcast_S1x10x100_S16384x10x100_0_1_2 : (⟨S1x10x100, .f32⟩ : BufTy).Contents (Elt F) → (⟨S16384x10x100, .f32⟩ : BufTy).Contents (Elt F)),
    binary main_v121 main_v125 main_v126 (mulf : (⟨S16384x10x100, .f32⟩ : BufTy).Contents (Elt F) → (⟨S16384x10x100, .f32⟩ : BufTy).Contents (Elt F) → (⟨S16384x10x100, .f32⟩ : BufTy).Contents (Elt F)),
    binary main_v120 main_v126 main_v127 (addf : (⟨S16384x10x100, .f32⟩ : BufTy).Contents (Elt F) → (⟨S16384x10x100, .f32⟩ : BufTy).Contents (Elt F) → (⟨S16384x10x100, .f32⟩ : BufTy).Contents (Elt F)) ]

/-- Operations 132 … 138 of @main. -/
abbrev ops20 : List (HloOp τ sig (Elt F)) :=
  [ unary main_v0 main_v128 ((extractStridedSlice S16384x10x100 ![0, 3, 3] · slices_S16384x14x104_S16384x10x100_0_3_3) : (⟨S16384x14x104, .f32⟩ : BufTy).Contents (Elt F) → (⟨S16384x10x100, .f32⟩ : BufTy).Contents (Elt F)),
    unary main_arg1 main_v129 ((extractStridedSlice S10x100x1x1 ![0, 0, 3, 3] · slices_S10x100x5x5_S10x100x1x1_0_0_3_3) : (⟨S10x100x5x5, .f32⟩ : BufTy).Contents (Elt F) → (⟨S10x100x1x1, .f32⟩ : BufTy).Contents (Elt F)),
    reshape main_v129 main_v130 rfl shapeCasts_S10x100x1x1_S10x100,
    unary main_v130 main_v131 (broadcastInDim S1x10x100 ![1, 2] bcast_S10x100_S1x10x100_1_2 : (⟨S10x100, .f32⟩ : BufTy).Contents (Elt F) → (⟨S1x10x100, .f32⟩ : BufTy).Contents (Elt F)),
    unary main_v131 main_v132 (broadcastInDim S16384x10x100 ![0, 1, 2] bcast_S1x10x100_S16384x10x100_0_1_2 : (⟨S1x10x100, .f32⟩ : BufTy).Contents (Elt F) → (⟨S16384x10x100, .f32⟩ : BufTy).Contents (Elt F)),
    binary main_v128 main_v132 main_v133 (mulf : (⟨S16384x10x100, .f32⟩ : BufTy).Contents (Elt F) → (⟨S16384x10x100, .f32⟩ : BufTy).Contents (Elt F) → (⟨S16384x10x100, .f32⟩ : BufTy).Contents (Elt F)),
    binary main_v127 main_v133 main_v134 (addf : (⟨S16384x10x100, .f32⟩ : BufTy).Contents (Elt F) → (⟨S16384x10x100, .f32⟩ : BufTy).Contents (Elt F) → (⟨S16384x10x100, .f32⟩ : BufTy).Contents (Elt F)) ]

/-- Operations 139 … 145 of @main. -/
abbrev ops21 : List (HloOp τ sig (Elt F)) :=
  [ unary main_v0 main_v135 ((extractStridedSlice S16384x10x100 ![0, 3, 4] · slices_S16384x14x104_S16384x10x100_0_3_4) : (⟨S16384x14x104, .f32⟩ : BufTy).Contents (Elt F) → (⟨S16384x10x100, .f32⟩ : BufTy).Contents (Elt F)),
    unary main_arg1 main_v136 ((extractStridedSlice S10x100x1x1 ![0, 0, 3, 4] · slices_S10x100x5x5_S10x100x1x1_0_0_3_4) : (⟨S10x100x5x5, .f32⟩ : BufTy).Contents (Elt F) → (⟨S10x100x1x1, .f32⟩ : BufTy).Contents (Elt F)),
    reshape main_v136 main_v137 rfl shapeCasts_S10x100x1x1_S10x100,
    unary main_v137 main_v138 (broadcastInDim S1x10x100 ![1, 2] bcast_S10x100_S1x10x100_1_2 : (⟨S10x100, .f32⟩ : BufTy).Contents (Elt F) → (⟨S1x10x100, .f32⟩ : BufTy).Contents (Elt F)),
    unary main_v138 main_v139 (broadcastInDim S16384x10x100 ![0, 1, 2] bcast_S1x10x100_S16384x10x100_0_1_2 : (⟨S1x10x100, .f32⟩ : BufTy).Contents (Elt F) → (⟨S16384x10x100, .f32⟩ : BufTy).Contents (Elt F)),
    binary main_v135 main_v139 main_v140 (mulf : (⟨S16384x10x100, .f32⟩ : BufTy).Contents (Elt F) → (⟨S16384x10x100, .f32⟩ : BufTy).Contents (Elt F) → (⟨S16384x10x100, .f32⟩ : BufTy).Contents (Elt F)),
    binary main_v134 main_v140 main_v141 (addf : (⟨S16384x10x100, .f32⟩ : BufTy).Contents (Elt F) → (⟨S16384x10x100, .f32⟩ : BufTy).Contents (Elt F) → (⟨S16384x10x100, .f32⟩ : BufTy).Contents (Elt F)) ]

/-- Operations 146 … 152 of @main. -/
abbrev ops22 : List (HloOp τ sig (Elt F)) :=
  [ unary main_v0 main_v142 ((extractStridedSlice S16384x10x100 ![0, 4, 0] · slices_S16384x14x104_S16384x10x100_0_4_0) : (⟨S16384x14x104, .f32⟩ : BufTy).Contents (Elt F) → (⟨S16384x10x100, .f32⟩ : BufTy).Contents (Elt F)),
    unary main_arg1 main_v143 ((extractStridedSlice S10x100x1x1 ![0, 0, 4, 0] · slices_S10x100x5x5_S10x100x1x1_0_0_4_0) : (⟨S10x100x5x5, .f32⟩ : BufTy).Contents (Elt F) → (⟨S10x100x1x1, .f32⟩ : BufTy).Contents (Elt F)),
    reshape main_v143 main_v144 rfl shapeCasts_S10x100x1x1_S10x100,
    unary main_v144 main_v145 (broadcastInDim S1x10x100 ![1, 2] bcast_S10x100_S1x10x100_1_2 : (⟨S10x100, .f32⟩ : BufTy).Contents (Elt F) → (⟨S1x10x100, .f32⟩ : BufTy).Contents (Elt F)),
    unary main_v145 main_v146 (broadcastInDim S16384x10x100 ![0, 1, 2] bcast_S1x10x100_S16384x10x100_0_1_2 : (⟨S1x10x100, .f32⟩ : BufTy).Contents (Elt F) → (⟨S16384x10x100, .f32⟩ : BufTy).Contents (Elt F)),
    binary main_v142 main_v146 main_v147 (mulf : (⟨S16384x10x100, .f32⟩ : BufTy).Contents (Elt F) → (⟨S16384x10x100, .f32⟩ : BufTy).Contents (Elt F) → (⟨S16384x10x100, .f32⟩ : BufTy).Contents (Elt F)),
    binary main_v141 main_v147 main_v148 (addf : (⟨S16384x10x100, .f32⟩ : BufTy).Contents (Elt F) → (⟨S16384x10x100, .f32⟩ : BufTy).Contents (Elt F) → (⟨S16384x10x100, .f32⟩ : BufTy).Contents (Elt F)) ]

/-- Operations 153 … 159 of @main. -/
abbrev ops23 : List (HloOp τ sig (Elt F)) :=
  [ unary main_v0 main_v149 ((extractStridedSlice S16384x10x100 ![0, 4, 1] · slices_S16384x14x104_S16384x10x100_0_4_1) : (⟨S16384x14x104, .f32⟩ : BufTy).Contents (Elt F) → (⟨S16384x10x100, .f32⟩ : BufTy).Contents (Elt F)),
    unary main_arg1 main_v150 ((extractStridedSlice S10x100x1x1 ![0, 0, 4, 1] · slices_S10x100x5x5_S10x100x1x1_0_0_4_1) : (⟨S10x100x5x5, .f32⟩ : BufTy).Contents (Elt F) → (⟨S10x100x1x1, .f32⟩ : BufTy).Contents (Elt F)),
    reshape main_v150 main_v151 rfl shapeCasts_S10x100x1x1_S10x100,
    unary main_v151 main_v152 (broadcastInDim S1x10x100 ![1, 2] bcast_S10x100_S1x10x100_1_2 : (⟨S10x100, .f32⟩ : BufTy).Contents (Elt F) → (⟨S1x10x100, .f32⟩ : BufTy).Contents (Elt F)),
    unary main_v152 main_v153 (broadcastInDim S16384x10x100 ![0, 1, 2] bcast_S1x10x100_S16384x10x100_0_1_2 : (⟨S1x10x100, .f32⟩ : BufTy).Contents (Elt F) → (⟨S16384x10x100, .f32⟩ : BufTy).Contents (Elt F)),
    binary main_v149 main_v153 main_v154 (mulf : (⟨S16384x10x100, .f32⟩ : BufTy).Contents (Elt F) → (⟨S16384x10x100, .f32⟩ : BufTy).Contents (Elt F) → (⟨S16384x10x100, .f32⟩ : BufTy).Contents (Elt F)),
    binary main_v148 main_v154 main_v155 (addf : (⟨S16384x10x100, .f32⟩ : BufTy).Contents (Elt F) → (⟨S16384x10x100, .f32⟩ : BufTy).Contents (Elt F) → (⟨S16384x10x100, .f32⟩ : BufTy).Contents (Elt F)) ]

/-- Operations 160 … 166 of @main. -/
abbrev ops24 : List (HloOp τ sig (Elt F)) :=
  [ unary main_v0 main_v156 ((extractStridedSlice S16384x10x100 ![0, 4, 2] · slices_S16384x14x104_S16384x10x100_0_4_2) : (⟨S16384x14x104, .f32⟩ : BufTy).Contents (Elt F) → (⟨S16384x10x100, .f32⟩ : BufTy).Contents (Elt F)),
    unary main_arg1 main_v157 ((extractStridedSlice S10x100x1x1 ![0, 0, 4, 2] · slices_S10x100x5x5_S10x100x1x1_0_0_4_2) : (⟨S10x100x5x5, .f32⟩ : BufTy).Contents (Elt F) → (⟨S10x100x1x1, .f32⟩ : BufTy).Contents (Elt F)),
    reshape main_v157 main_v158 rfl shapeCasts_S10x100x1x1_S10x100,
    unary main_v158 main_v159 (broadcastInDim S1x10x100 ![1, 2] bcast_S10x100_S1x10x100_1_2 : (⟨S10x100, .f32⟩ : BufTy).Contents (Elt F) → (⟨S1x10x100, .f32⟩ : BufTy).Contents (Elt F)),
    unary main_v159 main_v160 (broadcastInDim S16384x10x100 ![0, 1, 2] bcast_S1x10x100_S16384x10x100_0_1_2 : (⟨S1x10x100, .f32⟩ : BufTy).Contents (Elt F) → (⟨S16384x10x100, .f32⟩ : BufTy).Contents (Elt F)),
    binary main_v156 main_v160 main_v161 (mulf : (⟨S16384x10x100, .f32⟩ : BufTy).Contents (Elt F) → (⟨S16384x10x100, .f32⟩ : BufTy).Contents (Elt F) → (⟨S16384x10x100, .f32⟩ : BufTy).Contents (Elt F)),
    binary main_v155 main_v161 main_v162 (addf : (⟨S16384x10x100, .f32⟩ : BufTy).Contents (Elt F) → (⟨S16384x10x100, .f32⟩ : BufTy).Contents (Elt F) → (⟨S16384x10x100, .f32⟩ : BufTy).Contents (Elt F)) ]

/-- Operations 167 … 173 of @main. -/
abbrev ops25 : List (HloOp τ sig (Elt F)) :=
  [ unary main_v0 main_v163 ((extractStridedSlice S16384x10x100 ![0, 4, 3] · slices_S16384x14x104_S16384x10x100_0_4_3) : (⟨S16384x14x104, .f32⟩ : BufTy).Contents (Elt F) → (⟨S16384x10x100, .f32⟩ : BufTy).Contents (Elt F)),
    unary main_arg1 main_v164 ((extractStridedSlice S10x100x1x1 ![0, 0, 4, 3] · slices_S10x100x5x5_S10x100x1x1_0_0_4_3) : (⟨S10x100x5x5, .f32⟩ : BufTy).Contents (Elt F) → (⟨S10x100x1x1, .f32⟩ : BufTy).Contents (Elt F)),
    reshape main_v164 main_v165 rfl shapeCasts_S10x100x1x1_S10x100,
    unary main_v165 main_v166 (broadcastInDim S1x10x100 ![1, 2] bcast_S10x100_S1x10x100_1_2 : (⟨S10x100, .f32⟩ : BufTy).Contents (Elt F) → (⟨S1x10x100, .f32⟩ : BufTy).Contents (Elt F)),
    unary main_v166 main_v167 (broadcastInDim S16384x10x100 ![0, 1, 2] bcast_S1x10x100_S16384x10x100_0_1_2 : (⟨S1x10x100, .f32⟩ : BufTy).Contents (Elt F) → (⟨S16384x10x100, .f32⟩ : BufTy).Contents (Elt F)),
    binary main_v163 main_v167 main_v168 (mulf : (⟨S16384x10x100, .f32⟩ : BufTy).Contents (Elt F) → (⟨S16384x10x100, .f32⟩ : BufTy).Contents (Elt F) → (⟨S16384x10x100, .f32⟩ : BufTy).Contents (Elt F)),
    binary main_v162 main_v168 main_v169 (addf : (⟨S16384x10x100, .f32⟩ : BufTy).Contents (Elt F) → (⟨S16384x10x100, .f32⟩ : BufTy).Contents (Elt F) → (⟨S16384x10x100, .f32⟩ : BufTy).Contents (Elt F)) ]

/-- Operations 174 … 180 of @main. -/
abbrev ops26 : List (HloOp τ sig (Elt F)) :=
  [ unary main_v0 main_v170 ((extractStridedSlice S16384x10x100 ![0, 4, 4] · slices_S16384x14x104_S16384x10x100_0_4_4) : (⟨S16384x14x104, .f32⟩ : BufTy).Contents (Elt F) → (⟨S16384x10x100, .f32⟩ : BufTy).Contents (Elt F)),
    unary main_arg1 main_v171 ((extractStridedSlice S10x100x1x1 ![0, 0, 4, 4] · slices_S10x100x5x5_S10x100x1x1_0_0_4_4) : (⟨S10x100x5x5, .f32⟩ : BufTy).Contents (Elt F) → (⟨S10x100x1x1, .f32⟩ : BufTy).Contents (Elt F)),
    reshape main_v171 main_v172 rfl shapeCasts_S10x100x1x1_S10x100,
    unary main_v172 main_v173 (broadcastInDim S1x10x100 ![1, 2] bcast_S10x100_S1x10x100_1_2 : (⟨S10x100, .f32⟩ : BufTy).Contents (Elt F) → (⟨S1x10x100, .f32⟩ : BufTy).Contents (Elt F)),
    unary main_v173 main_v174 (broadcastInDim S16384x10x100 ![0, 1, 2] bcast_S1x10x100_S16384x10x100_0_1_2 : (⟨S1x10x100, .f32⟩ : BufTy).Contents (Elt F) → (⟨S16384x10x100, .f32⟩ : BufTy).Contents (Elt F)),
    binary main_v170 main_v174 main_v175 (mulf : (⟨S16384x10x100, .f32⟩ : BufTy).Contents (Elt F) → (⟨S16384x10x100, .f32⟩ : BufTy).Contents (Elt F) → (⟨S16384x10x100, .f32⟩ : BufTy).Contents (Elt F)),
    binary main_v169 main_v175 main_v176 (addf : (⟨S16384x10x100, .f32⟩ : BufTy).Contents (Elt F) → (⟨S16384x10x100, .f32⟩ : BufTy).Contents (Elt F) → (⟨S16384x10x100, .f32⟩ : BufTy).Contents (Elt F)) ]

/-- Operations 181 … 181 of @main. -/
abbrev ops27 : List (HloOp τ sig (Elt F)) :=
  [ unary main_v176 main_v177 (Host.negf : (⟨S16384x10x100, .f32⟩ : BufTy).Contents (Elt F) → (⟨S16384x10x100, .f32⟩ : BufTy).Contents (Elt F)) ]

/-- Operations 182 … 188 of @main. -/
abbrev ops28 : List (HloOp τ sig (Elt F)) :=
  [ unary main_v177 main_v178 (Host.exp : (⟨S16384x10x100, .f32⟩ : BufTy).Contents (Elt F) → (⟨S16384x10x100, .f32⟩ : BufTy).Contents (Elt F)),
    nullary main_cst_0 (constant S_ .f32 0x3F800000#32),
    unary main_cst_0 main_v179 (broadcastInDim S16384x10x100 ![] bcast_S_S16384x10x100 : (⟨S_, .f32⟩ : BufTy).Contents (Elt F) → (⟨S16384x10x100, .f32⟩ : BufTy).Contents (Elt F)),
    binary main_v179 main_v178 main_v180 (addf : (⟨S16384x10x100, .f32⟩ : BufTy).Contents (Elt F) → (⟨S16384x10x100, .f32⟩ : BufTy).Contents (Elt F) → (⟨S16384x10x100, .f32⟩ : BufTy).Contents (Elt F)),
    nullary main_cst_1 (constant S_ .f32 0x3F800000#32),
    unary main_cst_1 main_v181 (broadcastInDim S16384x10x100 ![] bcast_S_S16384x10x100 : (⟨S_, .f32⟩ : BufTy).Contents (Elt F) → (⟨S16384x10x100, .f32⟩ : BufTy).Contents (Elt F)),
    binary main_v181 main_v180 main_v182 (Host.divf : (⟨S16384x10x100, .f32⟩ : BufTy).Contents (Elt F) → (⟨S16384x10x100, .f32⟩ : BufTy).Contents (Elt F) → (⟨S16384x10x100, .f32⟩ : BufTy).Contents (Elt F)) ]

/-- Operations 189 … 192 of @main. -/
abbrev ops29 : List (HloOp τ sig (Elt F)) :=
  [ binary main_arg0 main_v182 main_v183 (mulf : (⟨S16384x10x100, .f32⟩ : BufTy).Contents (Elt F) → (⟨S16384x10x100, .f32⟩ : BufTy).Contents (Elt F) → (⟨S16384x10x100, .f32⟩ : BufTy).Contents (Elt F)),
    nullary main_cst_2 (constant S_ .f32 0x00000000#32),
    binary main_v183 main_cst_2 main_v184 ((fun x v => Host.reduceAdd x v reducesTo_S16384x10x100_S16384x100_d1 h_S_) : (⟨S16384x10x100, .f32⟩ : BufTy).Contents (Elt F) → (⟨S_, .f32⟩ : BufTy).Contents (Elt F) → (⟨S16384x100, .f32⟩ : BufTy).Contents (Elt F)),
    unary main_v184 main_v185 (broadcastInDim S16384x1x100 ![0, 2] bcast_S16384x100_S16384x1x100_0_2 : (⟨S16384x100, .f32⟩ : BufTy).Contents (Elt F) → (⟨S16384x1x100, .f32⟩ : BufTy).Contents (Elt F)) ]

/-- Operations 193 … 200 of @main. -/
abbrev ops30 : List (HloOp τ sig (Elt F)) :=
  [ binary main_v182 main_v182 main_v186 (mulf : (⟨S16384x10x100, .f32⟩ : BufTy).Contents (Elt F) → (⟨S16384x10x100, .f32⟩ : BufTy).Contents (Elt F) → (⟨S16384x10x100, .f32⟩ : BufTy).Contents (Elt F)),
    nullary main_cst_3 (constant S_ .f32 0x358637BD#32),
    unary main_cst_3 main_v187 (broadcastInDim S16384x10x100 ![] bcast_S_S16384x10x100 : (⟨S_, .f32⟩ : BufTy).Contents (Elt F) → (⟨S16384x10x100, .f32⟩ : BufTy).Contents (Elt F)),
    binary main_v186 main_v187 main_v188 (addf : (⟨S16384x10x100, .f32⟩ : BufTy).Contents (Elt F) → (⟨S16384x10x100, .f32⟩ : BufTy).Contents (Elt F) → (⟨S16384x10x100, .f32⟩ : BufTy).Contents (Elt F)),
    unary main_v188 main_v189 (Host.sqrt : (⟨S16384x10x100, .f32⟩ : BufTy).Contents (Elt F) → (⟨S16384x10x100, .f32⟩ : BufTy).Contents (Elt F)),
    nullary main_cst_4 (constant S_ .f32 0x00000000#32),
    unary main_cst_4 main_v190 (broadcastInDim S16384x10x100 ![] bcast_S_S16384x10x100 : (⟨S_, .f32⟩ : BufTy).Contents (Elt F) → (⟨S16384x10x100, .f32⟩ : BufTy).Contents (Elt F)),
    binary main_v190 main_v189 main_v191 (mulf : (⟨S16384x10x100, .f32⟩ : BufTy).Contents (Elt F) → (⟨S16384x10x100, .f32⟩ : BufTy).Contents (Elt F) → (⟨S16384x10x100, .f32⟩ : BufTy).Contents (Elt F)) ]

/-- Operations 201 … 208 of @main. -/
abbrev ops31 : List (HloOp τ sig (Elt F)) :=
  [ binary main_v182 main_v182 main_v192 (mulf : (⟨S16384x10x100, .f32⟩ : BufTy).Contents (Elt F) → (⟨S16384x10x100, .f32⟩ : BufTy).Contents (Elt F) → (⟨S16384x10x100, .f32⟩ : BufTy).Contents (Elt F)),
    nullary main_cst_5 (constant S_ .f32 0x3C23D70A#32),
    unary main_cst_5 main_v193 (broadcastInDim S16384x10x100 ![] bcast_S_S16384x10x100 : (⟨S_, .f32⟩ : BufTy).Contents (Elt F) → (⟨S16384x10x100, .f32⟩ : BufTy).Contents (Elt F)),
    binary main_v193 main_v192 main_v194 (mulf : (⟨S16384x10x100, .f32⟩ : BufTy).Contents (Elt F) → (⟨S16384x10x100, .f32⟩ : BufTy).Contents (Elt F) → (⟨S16384x10x100, .f32⟩ : BufTy).Contents (Elt F)),
    binary main_v191 main_v194 main_v195 (addf : (⟨S16384x10x100, .f32⟩ : BufTy).Contents (Elt F) → (⟨S16384x10x100, .f32⟩ : BufTy).Contents (Elt F) → (⟨S16384x10x100, .f32⟩ : BufTy).Contents (Elt F)),
    nullary main_cst_6 (constant S_ .f32 0x00000000#32),
    binary main_v195 main_cst_6 main_v196 ((fun x v => Host.reduceAdd x v reducesTo_S16384x10x100_S16384x100_d1 h_S_) : (⟨S16384x10x100, .f32⟩ : BufTy).Contents (Elt F) → (⟨S_, .f32⟩ : BufTy).Contents (Elt F) → (⟨S16384x100, .f32⟩ : BufTy).Contents (Elt F)),
    unary main_v196 main_v197 (broadcastInDim S16384x1x100 ![0, 2] bcast_S16384x100_S16384x1x100_0_2 : (⟨S16384x100, .f32⟩ : BufTy).Contents (Elt F) → (⟨S16384x1x100, .f32⟩ : BufTy).Contents (Elt F)) ]

/-- Operations 209 … 209 of @main. -/
abbrev ops32 : List (HloOp τ sig (Elt F)) :=
  [ binary main_v185 main_v197 main_v198 ((fun a b => concatenate S16384x2x100 1 [⟨S16384x1x100, a⟩, ⟨S16384x1x100, b⟩] concatenates_S16384x1x100_S16384x1x100_S16384x2x100_d1) : (⟨S16384x1x100, .f32⟩ : BufTy).Contents (Elt F) → (⟨S16384x1x100, .f32⟩ : BufTy).Contents (Elt F) → (⟨S16384x2x100, .f32⟩ : BufTy).Contents (Elt F)) ]

/-- The pieces of the printed program's first part. -/
abbrev partA : List (HloOp τ sig (Elt F)) := ops00 ++ (ops01 ++ (ops02 ++ (ops03 ++ (ops04 ++ (ops05 ++ (ops06 ++ (ops07 ++ (ops08))))))))
/-- The pieces of its second part. -/
abbrev partB : List (HloOp τ sig (Elt F)) := ops09 ++ (ops10 ++ (ops11 ++ (ops12 ++ (ops13 ++ (ops14 ++ (ops15 ++ (ops16 ++ (ops17))))))))
/-- The pieces of its third part. -/
abbrev partC : List (HloOp τ sig (Elt F)) := ops18 ++ (ops19 ++ (ops20 ++ (ops21 ++ (ops22 ++ (ops23 ++ (ops24 ++ (ops25 ++ (ops26 ++ (ops27)))))))))
/-- The pieces of its fourth part. -/
abbrev partD : List (HloOp τ sig (Elt F)) := ops28 ++ (ops29 ++ (ops30 ++ (ops31 ++ (ops32))))

/-- @main's 209 operations, in order. -/
abbrev ops : List (HloOp τ sig (Elt F)) := partA ++ (partB ++ (partC ++ partD))

set_option maxRecDepth 8192 in
set_option maxHeartbeats 4000000 in
theorem partA_eq (c : Dev nD) : main_part0 (F := F) c = seq partA := rfl
set_option maxRecDepth 8192 in
set_option maxHeartbeats 4000000 in
theorem partB_eq (c : Dev nD) : main_part1 (F := F) c = seq partB := rfl
set_option maxRecDepth 8192 in
set_option maxHeartbeats 4000000 in
theorem partC_eq (c : Dev nD) : main_part2 (F := F) c = seq partC := rfl
set_option maxRecDepth 8192 in
set_option maxHeartbeats 4000000 in
theorem partD_eq (c : Dev nD) : main_part3 (F := F) c = seq partD := rfl

/-- @main is the run of its operations, one after the other. -/
theorem main_eq (c : Dev nD) : main (F := F) c = seq ops := by
  show (main_part0 (F := F) c >>= fun _ => main_part1 (F := F) c >>= fun _ => main_part2 (F := F) c >>= fun _ => main_part3 (F := F) c) = _
  rw [partA_eq, partB_eq, partC_eq, partD_eq]
  show _ = seq (partA ++ (partB ++ (partC ++ partD)))
  rw [seq_append partA, seq_append partB, seq_append partC]

theorem scopedRefs_eq : (Finset.univ.filter fun b : Ref sig .tc => b.isScoped) = ∅ := by decide
theorem scopedSems_eq : (Finset.univ.filter fun sm : SemLoc sig => sm.isScoped .tc) = ∅ := by decide

/-- A property of every element of two lists holds of every element of their concatenation. -/
theorem forall_append {α : Type} {p : α → Prop} {l₁ l₂ : List α} (h₁ : l₁.Forall p) (h₂ : l₂.Forall p) : (l₁ ++ l₂).Forall p :=
  List.forall_iff_forall_mem.mpr fun x hx =>
    (List.mem_append.mp hx).elim (List.forall_iff_forall_mem.mp h₁ x) (List.forall_iff_forall_mem.mp h₂ x)

theorem ops00_sub : (ops00 : List (HloOp τ sig (Elt F))).Forall fun op => op.bufs ⊆ tcRefs τ sig :=
  ⟨nullary_bufs_sub .., unary_bufs_sub .., binary_bufs_sub .., nullary_bufs_sub .., unary_bufs_sub ..⟩
theorem ops01_sub : (ops01 : List (HloOp τ sig (Elt F))).Forall fun op => op.bufs ⊆ tcRefs τ sig :=
  ⟨unary_bufs_sub .., unary_bufs_sub .., reshape_bufs_sub .., unary_bufs_sub .., unary_bufs_sub .., binary_bufs_sub .., binary_bufs_sub ..⟩
theorem ops02_sub : (ops02 : List (HloOp τ sig (Elt F))).Forall fun op => op.bufs ⊆ tcRefs τ sig :=
  ⟨unary_bufs_sub .., unary_bufs_sub .., reshape_bufs_sub .., unary_bufs_sub .., unary_bufs_sub .., binary_bufs_sub .., binary_bufs_sub ..⟩
theorem ops03_sub : (ops03 : List (HloOp τ sig (Elt F))).Forall fun op => op.bufs ⊆ tcRefs τ sig :=
  ⟨unary_bufs_sub .., unary_bufs_sub .., reshape_bufs_sub .., unary_bufs_sub .., unary_bufs_sub .., binary_bufs_sub .., binary_bufs_sub ..⟩
theorem ops04_sub : (ops04 : List (HloOp τ sig (Elt F))).Forall fun op => op.bufs ⊆ tcRefs τ sig :=
  ⟨unary_bufs_sub .., unary_bufs_sub .., reshape_bufs_sub .., unary_bufs_sub .., unary_bufs_sub .., binary_bufs_sub .., binary_bufs_sub ..⟩
theorem ops05_sub : (ops05 : List (HloOp τ sig (Elt F))).Forall fun op => op.bufs ⊆ tcRefs τ sig :=
  ⟨unary_bufs_sub .., unary_bufs_sub .., reshape_bufs_sub .., unary_bufs_sub .., unary_bufs_sub .., binary_bufs_sub .., binary_bufs_sub ..⟩
theorem ops06_sub : (ops06 : List (HloOp τ sig (Elt F))).Forall fun op => op.bufs ⊆ tcRefs τ sig :=
  ⟨unary_bufs_sub .., unary_bufs_sub .., reshape_bufs_sub .., unary_bufs_sub .., unary_bufs_sub .., binary_bufs_sub .., binary_bufs_sub ..⟩
theorem ops07_sub : (ops07 : List (HloOp τ sig (Elt F))).Forall fun op => op.bufs ⊆ tcRefs τ sig :=
  ⟨unary_bufs_sub .., unary_bufs_sub .., reshape_bufs_sub .., unary_bufs_sub .., unary_bufs_sub .., binary_bufs_sub .., binary_bufs_sub ..⟩
theorem ops08_sub : (ops08 : List (HloOp τ sig (Elt F))).Forall fun op => op.bufs ⊆ tcRefs τ sig :=
  ⟨unary_bufs_sub .., unary_bufs_sub .., reshape_bufs_sub .., unary_bufs_sub .., unary_bufs_sub .., binary_bufs_sub .., binary_bufs_sub ..⟩
theorem ops09_sub : (ops09 : List (HloOp τ sig (Elt F))).Forall fun op => op.bufs ⊆ tcRefs τ sig :=
  ⟨unary_bufs_sub .., unary_bufs_sub .., reshape_bufs_sub .., unary_bufs_sub .., unary_bufs_sub .., binary_bufs_sub .., binary_bufs_sub ..⟩
theorem ops10_sub : (ops10 : List (HloOp τ sig (Elt F))).Forall fun op => op.bufs ⊆ tcRefs τ sig :=
  ⟨unary_bufs_sub .., unary_bufs_sub .., reshape_bufs_sub .., unary_bufs_sub .., unary_bufs_sub .., binary_bufs_sub .., binary_bufs_sub ..⟩
theorem ops11_sub : (ops11 : List (HloOp τ sig (Elt F))).Forall fun op => op.bufs ⊆ tcRefs τ sig :=
  ⟨unary_bufs_sub .., unary_bufs_sub .., reshape_bufs_sub .., unary_bufs_sub .., unary_bufs_sub .., binary_bufs_sub .., binary_bufs_sub ..⟩
theorem ops12_sub : (ops12 : List (HloOp τ sig (Elt F))).Forall fun op => op.bufs ⊆ tcRefs τ sig :=
  ⟨unary_bufs_sub .., unary_bufs_sub .., reshape_bufs_sub .., unary_bufs_sub .., unary_bufs_sub .., binary_bufs_sub .., binary_bufs_sub ..⟩
theorem ops13_sub : (ops13 : List (HloOp τ sig (Elt F))).Forall fun op => op.bufs ⊆ tcRefs τ sig :=
  ⟨unary_bufs_sub .., unary_bufs_sub .., reshape_bufs_sub .., unary_bufs_sub .., unary_bufs_sub .., binary_bufs_sub .., binary_bufs_sub ..⟩
theorem ops14_sub : (ops14 : List (HloOp τ sig (Elt F))).Forall fun op => op.bufs ⊆ tcRefs τ sig :=
  ⟨unary_bufs_sub .., unary_bufs_sub .., reshape_bufs_sub .., unary_bufs_sub .., unary_bufs_sub .., binary_bufs_sub .., binary_bufs_sub ..⟩
theorem ops15_sub : (ops15 : List (HloOp τ sig (Elt F))).Forall fun op => op.bufs ⊆ tcRefs τ sig :=
  ⟨unary_bufs_sub .., unary_bufs_sub .., reshape_bufs_sub .., unary_bufs_sub .., unary_bufs_sub .., binary_bufs_sub .., binary_bufs_sub ..⟩
theorem ops16_sub : (ops16 : List (HloOp τ sig (Elt F))).Forall fun op => op.bufs ⊆ tcRefs τ sig :=
  ⟨unary_bufs_sub .., unary_bufs_sub .., reshape_bufs_sub .., unary_bufs_sub .., unary_bufs_sub .., binary_bufs_sub .., binary_bufs_sub ..⟩
theorem ops17_sub : (ops17 : List (HloOp τ sig (Elt F))).Forall fun op => op.bufs ⊆ tcRefs τ sig :=
  ⟨unary_bufs_sub .., unary_bufs_sub .., reshape_bufs_sub .., unary_bufs_sub ..⟩
theorem ops18_sub : (ops18 : List (HloOp τ sig (Elt F))).Forall fun op => op.bufs ⊆ tcRefs τ sig :=
  ⟨unary_bufs_sub .., binary_bufs_sub .., binary_bufs_sub ..⟩
theorem ops19_sub : (ops19 : List (HloOp τ sig (Elt F))).Forall fun op => op.bufs ⊆ tcRefs τ sig :=
  ⟨unary_bufs_sub .., unary_bufs_sub .., reshape_bufs_sub .., unary_bufs_sub .., unary_bufs_sub .., binary_bufs_sub .., binary_bufs_sub ..⟩
theorem ops20_sub : (ops20 : List (HloOp τ sig (Elt F))).Forall fun op => op.bufs ⊆ tcRefs τ sig :=
  ⟨unary_bufs_sub .., unary_bufs_sub .., reshape_bufs_sub .., unary_bufs_sub .., unary_bufs_sub .., binary_bufs_sub .., binary_bufs_sub ..⟩
theorem ops21_sub : (ops21 : List (HloOp τ sig (Elt F))).Forall fun op => op.bufs ⊆ tcRefs τ sig :=
  ⟨unary_bufs_sub .., unary_bufs_sub .., reshape_bufs_sub .., unary_bufs_sub .., unary_bufs_sub .., binary_bufs_sub .., binary_bufs_sub ..⟩
theorem ops22_sub : (ops22 : List (HloOp τ sig (Elt F))).Forall fun op => op.bufs ⊆ tcRefs τ sig :=
  ⟨unary_bufs_sub .., unary_bufs_sub .., reshape_bufs_sub .., unary_bufs_sub .., unary_bufs_sub .., binary_bufs_sub .., binary_bufs_sub ..⟩
theorem ops23_sub : (ops23 : List (HloOp τ sig (Elt F))).Forall fun op => op.bufs ⊆ tcRefs τ sig :=
  ⟨unary_bufs_sub .., unary_bufs_sub .., reshape_bufs_sub .., unary_bufs_sub .., unary_bufs_sub .., binary_bufs_sub .., binary_bufs_sub ..⟩
theorem ops24_sub : (ops24 : List (HloOp τ sig (Elt F))).Forall fun op => op.bufs ⊆ tcRefs τ sig :=
  ⟨unary_bufs_sub .., unary_bufs_sub .., reshape_bufs_sub .., unary_bufs_sub .., unary_bufs_sub .., binary_bufs_sub .., binary_bufs_sub ..⟩
theorem ops25_sub : (ops25 : List (HloOp τ sig (Elt F))).Forall fun op => op.bufs ⊆ tcRefs τ sig :=
  ⟨unary_bufs_sub .., unary_bufs_sub .., reshape_bufs_sub .., unary_bufs_sub .., unary_bufs_sub .., binary_bufs_sub .., binary_bufs_sub ..⟩
theorem ops26_sub : (ops26 : List (HloOp τ sig (Elt F))).Forall fun op => op.bufs ⊆ tcRefs τ sig :=
  ⟨unary_bufs_sub .., unary_bufs_sub .., reshape_bufs_sub .., unary_bufs_sub .., unary_bufs_sub .., binary_bufs_sub .., binary_bufs_sub ..⟩
theorem ops27_sub : (ops27 : List (HloOp τ sig (Elt F))).Forall fun op => op.bufs ⊆ tcRefs τ sig :=
  unary_bufs_sub ..
theorem ops28_sub : (ops28 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub ..⟩
theorem ops29_sub : (ops29 : List (HloOp τ sig (Elt F))).Forall fun op => op.bufs ⊆ tcRefs τ sig :=
  ⟨binary_bufs_sub .., nullary_bufs_sub .., binary_bufs_sub .., unary_bufs_sub ..⟩
theorem ops30_sub : (ops30 : List (HloOp τ sig (Elt F))).Forall fun op => op.bufs ⊆ tcRefs τ sig :=
  ⟨binary_bufs_sub .., nullary_bufs_sub .., unary_bufs_sub .., binary_bufs_sub .., unary_bufs_sub .., nullary_bufs_sub .., unary_bufs_sub .., binary_bufs_sub ..⟩
theorem ops31_sub : (ops31 : List (HloOp τ sig (Elt F))).Forall fun op => op.bufs ⊆ tcRefs τ sig :=
  ⟨binary_bufs_sub .., nullary_bufs_sub .., unary_bufs_sub .., binary_bufs_sub .., binary_bufs_sub .., nullary_bufs_sub .., binary_bufs_sub .., unary_bufs_sub ..⟩
theorem ops32_sub : (ops32 : List (HloOp τ sig (Elt F))).Forall fun op => op.bufs ⊆ tcRefs τ sig :=
  binary_bufs_sub ..

/-- Every operation touches TensorCore references only. -/
theorem ops_sub : (ops : List (HloOp τ sig (Elt F))).Forall fun op => op.bufs ⊆ tcRefs τ sig :=
  forall_append (forall_append ops00_sub (forall_append ops01_sub (forall_append ops02_sub (forall_append ops03_sub (forall_append ops04_sub (forall_append ops05_sub (forall_append ops06_sub (forall_append ops07_sub (ops08_sub)))))))))
    (forall_append (forall_append ops09_sub (forall_append ops10_sub (forall_append ops11_sub (forall_append ops12_sub (forall_append ops13_sub (forall_append ops14_sub (forall_append ops15_sub (forall_append ops16_sub (ops17_sub)))))))))
      (forall_append (forall_append ops18_sub (forall_append ops19_sub (forall_append ops20_sub (forall_append ops21_sub (forall_append ops22_sub (forall_append ops23_sub (forall_append ops24_sub (forall_append ops25_sub (forall_append ops26_sub (ops27_sub))))))))))
        (forall_append ops28_sub (forall_append ops29_sub (forall_append ops30_sub (forall_append ops31_sub (ops32_sub)))))))

theorem ops00_fresh : (ops00 : List (HloOp τ sig (Elt F))).Forall fun op => op.fresh = ∅ := by
  simp only [List.Forall]; repeat' constructor
theorem ops01_fresh : (ops01 : List (HloOp τ sig (Elt F))).Forall fun op => op.fresh = ∅ := by
  simp only [List.Forall]; repeat' constructor
theorem ops02_fresh : (ops02 : List (HloOp τ sig (Elt F))).Forall fun op => op.fresh = ∅ := by
  simp only [List.Forall]; repeat' constructor
theorem ops03_fresh : (ops03 : List (HloOp τ sig (Elt F))).Forall fun op => op.fresh = ∅ := by
  simp only [List.Forall]; repeat' constructor
theorem ops04_fresh : (ops04 : List (HloOp τ sig (Elt F))).Forall fun op => op.fresh = ∅ := by
  simp only [List.Forall]; repeat' constructor
theorem ops05_fresh : (ops05 : List (HloOp τ sig (Elt F))).Forall fun op => op.fresh = ∅ := by
  simp only [List.Forall]; repeat' constructor
theorem ops06_fresh : (ops06 : List (HloOp τ sig (Elt F))).Forall fun op => op.fresh = ∅ := by
  simp only [List.Forall]; repeat' constructor
theorem ops07_fresh : (ops07 : List (HloOp τ sig (Elt F))).Forall fun op => op.fresh = ∅ := by
  simp only [List.Forall]; repeat' constructor
theorem ops08_fresh : (ops08 : List (HloOp τ sig (Elt F))).Forall fun op => op.fresh = ∅ := by
  simp only [List.Forall]; repeat' constructor
theorem ops09_fresh : (ops09 : List (HloOp τ sig (Elt F))).Forall fun op => op.fresh = ∅ := by
  simp only [List.Forall]; repeat' constructor
theorem ops10_fresh : (ops10 : List (HloOp τ sig (Elt F))).Forall fun op => op.fresh = ∅ := by
  simp only [List.Forall]; repeat' constructor
theorem ops11_fresh : (ops11 : List (HloOp τ sig (Elt F))).Forall fun op => op.fresh = ∅ := by
  simp only [List.Forall]; repeat' constructor
theorem ops12_fresh : (ops12 : List (HloOp τ sig (Elt F))).Forall fun op => op.fresh = ∅ := by
  simp only [List.Forall]; repeat' constructor
theorem ops13_fresh : (ops13 : List (HloOp τ sig (Elt F))).Forall fun op => op.fresh = ∅ := by
  simp only [List.Forall]; repeat' constructor
theorem ops14_fresh : (ops14 : List (HloOp τ sig (Elt F))).Forall fun op => op.fresh = ∅ := by
  simp only [List.Forall]; repeat' constructor
theorem ops15_fresh : (ops15 : List (HloOp τ sig (Elt F))).Forall fun op => op.fresh = ∅ := by
  simp only [List.Forall]; repeat' constructor
theorem ops16_fresh : (ops16 : List (HloOp τ sig (Elt F))).Forall fun op => op.fresh = ∅ := by
  simp only [List.Forall]; repeat' constructor
theorem ops17_fresh : (ops17 : List (HloOp τ sig (Elt F))).Forall fun op => op.fresh = ∅ := by
  simp only [List.Forall]; repeat' constructor
theorem ops18_fresh : (ops18 : List (HloOp τ sig (Elt F))).Forall fun op => op.fresh = ∅ := by
  simp only [List.Forall]; repeat' constructor
theorem ops19_fresh : (ops19 : List (HloOp τ sig (Elt F))).Forall fun op => op.fresh = ∅ := by
  simp only [List.Forall]; repeat' constructor
theorem ops20_fresh : (ops20 : List (HloOp τ sig (Elt F))).Forall fun op => op.fresh = ∅ := by
  simp only [List.Forall]; repeat' constructor
theorem ops21_fresh : (ops21 : List (HloOp τ sig (Elt F))).Forall fun op => op.fresh = ∅ := by
  simp only [List.Forall]; repeat' constructor
theorem ops22_fresh : (ops22 : List (HloOp τ sig (Elt F))).Forall fun op => op.fresh = ∅ := by
  simp only [List.Forall]; repeat' constructor
theorem ops23_fresh : (ops23 : List (HloOp τ sig (Elt F))).Forall fun op => op.fresh = ∅ := by
  simp only [List.Forall]; repeat' constructor
theorem ops24_fresh : (ops24 : List (HloOp τ sig (Elt F))).Forall fun op => op.fresh = ∅ := by
  simp only [List.Forall]; repeat' constructor
theorem ops25_fresh : (ops25 : List (HloOp τ sig (Elt F))).Forall fun op => op.fresh = ∅ := by
  simp only [List.Forall]; repeat' constructor
theorem ops26_fresh : (ops26 : List (HloOp τ sig (Elt F))).Forall fun op => op.fresh = ∅ := by
  simp only [List.Forall]; repeat' constructor
theorem ops27_fresh : (ops27 : List (HloOp τ sig (Elt F))).Forall fun op => op.fresh = ∅ := by
  simp only [List.Forall]; repeat' constructor
theorem ops28_fresh : (ops28 : List (HloOp τ sig (Elt F))).Forall fun op => op.fresh = ∅ := by
  simp only [List.Forall]; repeat' constructor
theorem ops29_fresh : (ops29 : List (HloOp τ sig (Elt F))).Forall fun op => op.fresh = ∅ := by
  simp only [List.Forall]; repeat' constructor
theorem ops30_fresh : (ops30 : List (HloOp τ sig (Elt F))).Forall fun op => op.fresh = ∅ := by
  simp only [List.Forall]; repeat' constructor
theorem ops31_fresh : (ops31 : List (HloOp τ sig (Elt F))).Forall fun op => op.fresh = ∅ := by
  simp only [List.Forall]; repeat' constructor
theorem ops32_fresh : (ops32 : List (HloOp τ sig (Elt F))).Forall fun op => op.fresh = ∅ := by
  simp only [List.Forall]; repeat' constructor

/-- No operation allocates a buffer. -/
theorem ops_fresh : (ops : List (HloOp τ sig (Elt F))).Forall fun op => op.fresh = ∅ :=
  forall_append (forall_append ops00_fresh (forall_append ops01_fresh (forall_append ops02_fresh (forall_append ops03_fresh (forall_append ops04_fresh (forall_append ops05_fresh (forall_append ops06_fresh (forall_append ops07_fresh (ops08_fresh)))))))))
    (forall_append (forall_append ops09_fresh (forall_append ops10_fresh (forall_append ops11_fresh (forall_append ops12_fresh (forall_append ops13_fresh (forall_append ops14_fresh (forall_append ops15_fresh (forall_append ops16_fresh (ops17_fresh)))))))))
      (forall_append (forall_append ops18_fresh (forall_append ops19_fresh (forall_append ops20_fresh (forall_append ops21_fresh (forall_append ops22_fresh (forall_append ops23_fresh (forall_append ops24_fresh (forall_append ops25_fresh (forall_append ops26_fresh (ops27_fresh))))))))))
        (forall_append ops28_fresh (forall_append ops29_fresh (forall_append ops30_fresh (forall_append ops31_fresh (ops32_fresh)))))))

end Cert.ReferenceIdeal.Value

end
-- ==== Proof.RefRun.lean ====
/-
  The reference's run, read piece by piece.

  After each piece of @main's operations the buffers still to be read hold the staged values of the reference
  (`Read.val_…`: each operation's result as a function of the two arguments): the arguments themselves, the padded
  input, and the running sum of the stencil's products; after the last piece the result buffer holds the last stage.
  Each piece is read against an arbitrary valuation, so no term grows along the 209 operations.  The straight-line run
  theorem then gives the run of @main: it terminates with the result at the last stage and the arguments unchanged.
-/
import proofs.«112428_j16501264351338_2_alg».proof.Proof.RefOps
import proofs.«112428_j16501264351338_2_alg».proof.Proof.RefRead
import Idealize.ShloMosaic.Lib.StableHlo.Run
import Idealize.ShloMosaic.Lib.Pipeline.Frame

set_option maxRecDepth 8192

noncomputable section

namespace Cert.ReferenceIdeal.Value

open Cert.ReferenceIdeal Cert.ReferenceIdeal.Gen Idealize.ShloMosaic Idealize.ShloMosaic.TcCoe Idealize.SL.Sem Idealize.ShloMosaic.StableHlo

/-- Across operations 1 … 5: main_v0, main_v1 written, the rest kept. -/
theorem step00 (x0 : (⟨S16384x10x100, .f32⟩ : BufTy).Contents (Elt Ideal)) (x1 : (⟨S10x100x5x5, .f32⟩ : BufTy).Contents (Elt Ideal))
    (W : Valuation τ sig (Elt Ideal))
    (h_main_arg0 : W (Proc.devRef .tc main_arg0) = x0)
    (h_main_arg1 : W (Proc.devRef .tc main_arg1) = x1) :
    after (ops00 (F := Ideal)) W (Proc.devRef .tc main_arg0) = x0
      ∧ after (ops00 (F := Ideal)) W (Proc.devRef .tc main_arg1) = x1
      ∧ after (ops00 (F := Ideal)) W (Proc.devRef .tc main_v0) = Read.val_main_v0 (F := Ideal) x0
      ∧ after (ops00 (F := Ideal)) W (Proc.devRef .tc main_v1) = Read.val_main_v1 (F := Ideal) := by
  refine ⟨?_, ?_, ?_, ?_⟩
  · after_results
    exact h_main_arg0
  · after_results
    exact h_main_arg1
  · after_results
    rw [h_main_arg0]
    try rfl
  · after_results
    try rfl

/-- Across operations 6 … 12: main_v8 written, the rest kept. -/
theorem step01 (x0 : (⟨S16384x10x100, .f32⟩ : BufTy).Contents (Elt Ideal)) (x1 : (⟨S10x100x5x5, .f32⟩ : BufTy).Contents (Elt Ideal))
    (W : Valuation τ sig (Elt Ideal))
    (h_main_arg0 : W (Proc.devRef .tc main_arg0) = x0)
    (h_main_arg1 : W (Proc.devRef .tc main_arg1) = x1)
    (h_main_v0 : W (Proc.devRef .tc main_v0) = Read.val_main_v0 (F := Ideal) x0)
    (h_main_v1 : W (Proc.devRef .tc main_v1) = Read.val_main_v1 (F := Ideal)) :
    after (ops01 (F := Ideal)) W (Proc.devRef .tc main_arg0) = x0
      ∧ after (ops01 (F := Ideal)) W (Proc.devRef .tc main_arg1) = x1
      ∧ after (ops01 (F := Ideal)) W (Proc.devRef .tc main_v0) = Read.val_main_v0 (F := Ideal) x0
      ∧ after (ops01 (F := Ideal)) W (Proc.devRef .tc main_v8) = Read.val_main_v8 (F := Ideal) x0 x1 := by
  refine ⟨?_, ?_, ?_, ?_⟩
  · after_results
    exact h_main_arg0
  · after_results
    exact h_main_arg1
  · after_results
    exact h_main_v0
  · after_results
    rw [h_main_v1, h_main_v0, h_main_arg1]
    try rfl

/-- Across operations 13 … 19: main_v15 written, the rest kept. -/
theorem step02 (x0 : (⟨S16384x10x100, .f32⟩ : BufTy).Contents (Elt Ideal)) (x1 : (⟨S10x100x5x5, .f32⟩ : BufTy).Contents (Elt Ideal))
    (W : Valuation τ sig (Elt Ideal))
    (h_main_arg0 : W (Proc.devRef .tc main_arg0) = x0)
    (h_main_arg1 : W (Proc.devRef .tc main_arg1) = x1)
    (h_main_v0 : W (Proc.devRef .tc main_v0) = Read.val_main_v0 (F := Ideal) x0)
    (h_main_v8 : W (Proc.devRef .tc main_v8) = Read.val_main_v8 (F := Ideal) x0 x1) :
    after (ops02 (F := Ideal)) W (Proc.devRef .tc main_arg0) = x0
      ∧ after (ops02 (F := Ideal)) W (Proc.devRef .tc main_arg1) = x1
      ∧ after (ops02 (F := Ideal)) W (Proc.devRef .tc main_v0) = Read.val_main_v0 (F := Ideal) x0
      ∧ after (ops02 (F := Ideal)) W (Proc.devRef .tc main_v15) = Read.val_main_v15 (F := Ideal) x0 x1 := by
  refine ⟨?_, ?_, ?_, ?_⟩
  · after_results
    exact h_main_arg0
  · after_results
    exact h_main_arg1
  · after_results
    exact h_main_v0
  · after_results
    rw [h_main_v8, h_main_v0, h_main_arg1]
    try rfl

/-- Across operations 20 … 26: main_v22 written, the rest kept. -/
theorem step03 (x0 : (⟨S16384x10x100, .f32⟩ : BufTy).Contents (Elt Ideal)) (x1 : (⟨S10x100x5x5, .f32⟩ : BufTy).Contents (Elt Ideal))
    (W : Valuation τ sig (Elt Ideal))
    (h_main_arg0 : W (Proc.devRef .tc main_arg0) = x0)
    (h_main_arg1 : W (Proc.devRef .tc main_arg1) = x1)
    (h_main_v0 : W (Proc.devRef .tc main_v0) = Read.val_main_v0 (F := Ideal) x0)
    (h_main_v15 : W (Proc.devRef .tc main_v15) = Read.val_main_v15 (F := Ideal) x0 x1) :
    after (ops03 (F := Ideal)) W (Proc.devRef .tc main_arg0) = x0
      ∧ after (ops03 (F := Ideal)) W (Proc.devRef .tc main_arg1) = x1
      ∧ after (ops03 (F := Ideal)) W (Proc.devRef .tc main_v0) = Read.val_main_v0 (F := Ideal) x0
      ∧ after (ops03 (F := Ideal)) W (Proc.devRef .tc main_v22) = Read.val_main_v22 (F := Ideal) x0 x1 := by
  refine ⟨?_, ?_, ?_, ?_⟩
  · after_results
    exact h_main_arg0
  · after_results
    exact h_main_arg1
  · after_results
    exact h_main_v0
  · after_results
    rw [h_main_v15, h_main_v0, h_main_arg1]
    try rfl

/-- Across operations 27 … 33: main_v29 written, the rest kept. -/
theorem step04 (x0 : (⟨S16384x10x100, .f32⟩ : BufTy).Contents (Elt Ideal)) (x1 : (⟨S10x100x5x5, .f32⟩ : BufTy).Contents (Elt Ideal))
    (W : Valuation τ sig (Elt Ideal))
    (h_main_arg0 : W (Proc.devRef .tc main_arg0) = x0)
    (h_main_arg1 : W (Proc.devRef .tc main_arg1) = x1)
    (h_main_v0 : W (Proc.devRef .tc main_v0) = Read.val_main_v0 (F := Ideal) x0)
    (h_main_v22 : W (Proc.devRef .tc main_v22) = Read.val_main_v22 (F := Ideal) x0 x1) :
    after (ops04 (F := Ideal)) W (Proc.devRef .tc main_arg0) = x0
      ∧ after (ops04 (F := Ideal)) W (Proc.devRef .tc main_arg1) = x1
      ∧ after (ops04 (F := Ideal)) W (Proc.devRef .tc main_v0) = Read.val_main_v0 (F := Ideal) x0
      ∧ after (ops04 (F := Ideal)) W (Proc.devRef .tc main_v29) = Read.val_main_v29 (F := Ideal) x0 x1 := by
  refine ⟨?_, ?_, ?_, ?_⟩
  · after_results
    exact h_main_arg0
  · after_results
    exact h_main_arg1
  · after_results
    exact h_main_v0
  · after_results
    rw [h_main_v22, h_main_v0, h_main_arg1]
    try rfl

/-- Across operations 34 … 40: main_v36 written, the rest kept. -/
theorem step05 (x0 : (⟨S16384x10x100, .f32⟩ : BufTy).Contents (Elt Ideal)) (x1 : (⟨S10x100x5x5, .f32⟩ : BufTy).Contents (Elt Ideal))
    (W : Valuation τ sig (Elt Ideal))
    (h_main_arg0 : W (Proc.devRef .tc main_arg0) = x0)
    (h_main_arg1 : W (Proc.devRef .tc main_arg1) = x1)
    (h_main_v0 : W (Proc.devRef .tc main_v0) = Read.val_main_v0 (F := Ideal) x0)
    (h_main_v29 : W (Proc.devRef .tc main_v29) = Read.val_main_v29 (F := Ideal) x0 x1) :
    after (ops05 (F := Ideal)) W (Proc.devRef .tc main_arg0) = x0
      ∧ after (ops05 (F := Ideal)) W (Proc.devRef .tc main_arg1) = x1
      ∧ after (ops05 (F := Ideal)) W (Proc.devRef .tc main_v0) = Read.val_main_v0 (F := Ideal) x0
      ∧ after (ops05 (F := Ideal)) W (Proc.devRef .tc main_v36) = Read.val_main_v36 (F := Ideal) x0 x1 := by
  refine ⟨?_, ?_, ?_, ?_⟩
  · after_results
    exact h_main_arg0
  · after_results
    exact h_main_arg1
  · after_results
    exact h_main_v0
  · after_results
    rw [h_main_v29, h_main_v0, h_main_arg1]
    try rfl

/-- Across operations 41 … 47: main_v43 written, the rest kept. -/
theorem step06 (x0 : (⟨S16384x10x100, .f32⟩ : BufTy).Contents (Elt Ideal)) (x1 : (⟨S10x100x5x5, .f32⟩ : BufTy).Contents (Elt Ideal))
    (W : Valuation τ sig (Elt Ideal))
    (h_main_arg0 : W (Proc.devRef .tc main_arg0) = x0)
    (h_main_arg1 : W (Proc.devRef .tc main_arg1) = x1)
    (h_main_v0 : W (Proc.devRef .tc main_v0) = Read.val_main_v0 (F := Ideal) x0)
    (h_main_v36 : W (Proc.devRef .tc main_v36) = Read.val_main_v36 (F := Ideal) x0 x1) :
    after (ops06 (F := Ideal)) W (Proc.devRef .tc main_arg0) = x0
      ∧ after (ops06 (F := Ideal)) W (Proc.devRef .tc main_arg1) = x1
      ∧ after (ops06 (F := Ideal)) W (Proc.devRef .tc main_v0) = Read.val_main_v0 (F := Ideal) x0
      ∧ after (ops06 (F := Ideal)) W (Proc.devRef .tc main_v43) = Read.val_main_v43 (F := Ideal) x0 x1 := by
  refine ⟨?_, ?_, ?_, ?_⟩
  · after_results
    exact h_main_arg0
  · after_results
    exact h_main_arg1
  · after_results
    exact h_main_v0
  · after_results
    rw [h_main_v36, h_main_v0, h_main_arg1]
    try rfl

/-- Across operations 48 … 54: main_v50 written, the rest kept. -/
theorem step07 (x0 : (⟨S16384x10x100, .f32⟩ : BufTy).Contents (Elt Ideal)) (x1 : (⟨S10x100x5x5, .f32⟩ : BufTy).Contents (Elt Ideal))
    (W : Valuation τ sig (Elt Ideal))
    (h_main_arg0 : W (Proc.devRef .tc main_arg0) = x0)
    (h_main_arg1 : W (Proc.devRef .tc main_arg1) = x1)
    (h_main_v0 : W (Proc.devRef .tc main_v0) = Read.val_main_v0 (F := Ideal) x0)
    (h_main_v43 : W (Proc.devRef .tc main_v43) = Read.val_main_v43 (F := Ideal) x0 x1) :
    after (ops07 (F := Ideal)) W (Proc.devRef .tc main_arg0) = x0
      ∧ after (ops07 (F := Ideal)) W (Proc.devRef .tc main_arg1) = x1
      ∧ after (ops07 (F := Ideal)) W (Proc.devRef .tc main_v0) = Read.val_main_v0 (F := Ideal) x0
      ∧ after (ops07 (F := Ideal)) W (Proc.devRef .tc main_v50) = Read.val_main_v50 (F := Ideal) x0 x1 := by
  refine ⟨?_, ?_, ?_, ?_⟩
  · after_results
    exact h_main_arg0
  · after_results
    exact h_main_arg1
  · after_results
    exact h_main_v0
  · after_results
    rw [h_main_v43, h_main_v0, h_main_arg1]
    try rfl

/-- Across operations 55 … 61: main_v57 written, the rest kept. -/
theorem step08 (x0 : (⟨S16384x10x100, .f32⟩ : BufTy).Contents (Elt Ideal)) (x1 : (⟨S10x100x5x5, .f32⟩ : BufTy).Contents (Elt Ideal))
    (W : Valuation τ sig (Elt Ideal))
    (h_main_arg0 : W (Proc.devRef .tc main_arg0) = x0)
    (h_main_arg1 : W (Proc.devRef .tc main_arg1) = x1)
    (h_main_v0 : W (Proc.devRef .tc main_v0) = Read.val_main_v0 (F := Ideal) x0)
    (h_main_v50 : W (Proc.devRef .tc main_v50) = Read.val_main_v50 (F := Ideal) x0 x1) :
    after (ops08 (F := Ideal)) W (Proc.devRef .tc main_arg0) = x0
      ∧ after (ops08 (F := Ideal)) W (Proc.devRef .tc main_arg1) = x1
      ∧ after (ops08 (F := Ideal)) W (Proc.devRef .tc main_v0) = Read.val_main_v0 (F := Ideal) x0
      ∧ after (ops08 (F := Ideal)) W (Proc.devRef .tc main_v57) = Read.val_main_v57 (F := Ideal) x0 x1 := by
  refine ⟨?_, ?_, ?_, ?_⟩
  · after_results
    exact h_main_arg0
  · after_results
    exact h_main_arg1
  · after_results
    exact h_main_v0
  · after_results
    rw [h_main_v50, h_main_v0, h_main_arg1]
    try rfl

/-- Across operations 62 … 68: main_v64 written, the rest kept. -/
theorem step09 (x0 : (⟨S16384x10x100, .f32⟩ : BufTy).Contents (Elt Ideal)) (x1 : (⟨S10x100x5x5, .f32⟩ : BufTy).Contents (Elt Ideal))
    (W : Valuation τ sig (Elt Ideal))
    (h_main_arg0 : W (Proc.devRef .tc main_arg0) = x0)
    (h_main_arg1 : W (Proc.devRef .tc main_arg1) = x1)
    (h_main_v0 : W (Proc.devRef .tc main_v0) = Read.val_main_v0 (F := Ideal) x0)
    (h_main_v57 : W (Proc.devRef .tc main_v57) = Read.val_main_v57 (F := Ideal) x0 x1) :
    after (ops09 (F := Ideal)) W (Proc.devRef .tc main_arg0) = x0
      ∧ after (ops09 (F := Ideal)) W (Proc.devRef .tc main_arg1) = x1
      ∧ after (ops09 (F := Ideal)) W (Proc.devRef .tc main_v0) = Read.val_main_v0 (F := Ideal) x0
      ∧ after (ops09 (F := Ideal)) W (Proc.devRef .tc main_v64) = Read.val_main_v64 (F := Ideal) x0 x1 := by
  refine ⟨?_, ?_, ?_, ?_⟩
  · after_results
    exact h_main_arg0
  · after_results
    exact h_main_arg1
  · after_results
    exact h_main_v0
  · after_results
    rw [h_main_v57, h_main_v0, h_main_arg1]
    try rfl

/-- Across operations 69 … 75: main_v71 written, the rest kept. -/
theorem step10 (x0 : (⟨S16384x10x100, .f32⟩ : BufTy).Contents (Elt Ideal)) (x1 : (⟨S10x100x5x5, .f32⟩ : BufTy).Contents (Elt Ideal))
    (W : Valuation τ sig (Elt Ideal))
    (h_main_arg0 : W (Proc.devRef .tc main_arg0) = x0)
    (h_main_arg1 : W (Proc.devRef .tc main_arg1) = x1)
    (h_main_v0 : W (Proc.devRef .tc main_v0) = Read.val_main_v0 (F := Ideal) x0)
    (h_main_v64 : W (Proc.devRef .tc main_v64) = Read.val_main_v64 (F := Ideal) x0 x1) :
    after (ops10 (F := Ideal)) W (Proc.devRef .tc main_arg0) = x0
      ∧ after (ops10 (F := Ideal)) W (Proc.devRef .tc main_arg1) = x1
      ∧ after (ops10 (F := Ideal)) W (Proc.devRef .tc main_v0) = Read.val_main_v0 (F := Ideal) x0
      ∧ after (ops10 (F := Ideal)) W (Proc.devRef .tc main_v71) = Read.val_main_v71 (F := Ideal) x0 x1 := by
  refine ⟨?_, ?_, ?_, ?_⟩
  · after_results
    exact h_main_arg0
  · after_results
    exact h_main_arg1
  · after_results
    exact h_main_v0
  · after_results
    rw [h_main_v64, h_main_v0, h_main_arg1]
    try rfl

/-- Across operations 76 … 82: main_v78 written, the rest kept. -/
theorem step11 (x0 : (⟨S16384x10x100, .f32⟩ : BufTy).Contents (Elt Ideal)) (x1 : (⟨S10x100x5x5, .f32⟩ : BufTy).Contents (Elt Ideal))
    (W : Valuation τ sig (Elt Ideal))
    (h_main_arg0 : W (Proc.devRef .tc main_arg0) = x0)
    (h_main_arg1 : W (Proc.devRef .tc main_arg1) = x1)
    (h_main_v0 : W (Proc.devRef .tc main_v0) = Read.val_main_v0 (F := Ideal) x0)
    (h_main_v71 : W (Proc.devRef .tc main_v71) = Read.val_main_v71 (F := Ideal) x0 x1) :
    after (ops11 (F := Ideal)) W (Proc.devRef .tc main_arg0) = x0
      ∧ after (ops11 (F := Ideal)) W (Proc.devRef .tc main_arg1) = x1
      ∧ after (ops11 (F := Ideal)) W (Proc.devRef .tc main_v0) = Read.val_main_v0 (F := Ideal) x0
      ∧ after (ops11 (F := Ideal)) W (Proc.devRef .tc main_v78) = Read.val_main_v78 (F := Ideal) x0 x1 := by
  refine ⟨?_, ?_, ?_, ?_⟩
  · after_results
    exact h_main_arg0
  · after_results
    exact h_main_arg1
  · after_results
    exact h_main_v0
  · after_results
    rw [h_main_v71, h_main_v0, h_main_arg1]
    try rfl

/-- Across operations 83 … 89: main_v85 written, the rest kept. -/
theorem step12 (x0 : (⟨S16384x10x100, .f32⟩ : BufTy).Contents (Elt Ideal)) (x1 : (⟨S10x100x5x5, .f32⟩ : BufTy).Contents (Elt Ideal))
    (W : Valuation τ sig (Elt Ideal))
    (h_main_arg0 : W (Proc.devRef .tc main_arg0) = x0)
    (h_main_arg1 : W (Proc.devRef .tc main_arg1) = x1)
    (h_main_v0 : W (Proc.devRef .tc main_v0) = Read.val_main_v0 (F := Ideal) x0)
    (h_main_v78 : W (Proc.devRef .tc main_v78) = Read.val_main_v78 (F := Ideal) x0 x1) :
    after (ops12 (F := Ideal)) W (Proc.devRef .tc main_arg0) = x0
      ∧ after (ops12 (F := Ideal)) W (Proc.devRef .tc main_arg1) = x1
      ∧ after (ops12 (F := Ideal)) W (Proc.devRef .tc main_v0) = Read.val_main_v0 (F := Ideal) x0
      ∧ after (ops12 (F := Ideal)) W (Proc.devRef .tc main_v85) = Read.val_main_v85 (F := Ideal) x0 x1 := by
  refine ⟨?_, ?_, ?_, ?_⟩
  · after_results
    exact h_main_arg0
  · after_results
    exact h_main_arg1
  · after_results
    exact h_main_v0
  · after_results
    rw [h_main_v78, h_main_v0, h_main_arg1]
    try rfl

/-- Across operations 90 … 96: main_v92 written, the rest kept. -/
theorem step13 (x0 : (⟨S16384x10x100, .f32⟩ : BufTy).Contents (Elt Ideal)) (x1 : (⟨S10x100x5x5, .f32⟩ : BufTy).Contents (Elt Ideal))
    (W : Valuation τ sig (Elt Ideal))
    (h_main_arg0 : W (Proc.devRef .tc main_arg0) = x0)
    (h_main_arg1 : W (Proc.devRef .tc main_arg1) = x1)
    (h_main_v0 : W (Proc.devRef .tc main_v0) = Read.val_main_v0 (F := Ideal) x0)
    (h_main_v85 : W (Proc.devRef .tc main_v85) = Read.val_main_v85 (F := Ideal) x0 x1) :
    after (ops13 (F := Ideal)) W (Proc.devRef .tc main_arg0) = x0
      ∧ after (ops13 (F := Ideal)) W (Proc.devRef .tc main_arg1) = x1
      ∧ after (ops13 (F := Ideal)) W (Proc.devRef .tc main_v0) = Read.val_main_v0 (F := Ideal) x0
      ∧ after (ops13 (F := Ideal)) W (Proc.devRef .tc main_v92) = Read.val_main_v92 (F := Ideal) x0 x1 := by
  refine ⟨?_, ?_, ?_, ?_⟩
  · after_results
    exact h_main_arg0
  · after_results
    exact h_main_arg1
  · after_results
    exact h_main_v0
  · after_results
    rw [h_main_v85, h_main_v0, h_main_arg1]
    try rfl

/-- Across operations 97 … 103: main_v99 written, the rest kept. -/
theorem step14 (x0 : (⟨S16384x10x100, .f32⟩ : BufTy).Contents (Elt Ideal)) (x1 : (⟨S10x100x5x5, .f32⟩ : BufTy).Contents (Elt Ideal))
    (W : Valuation τ sig (Elt Ideal))
    (h_main_arg0 : W (Proc.devRef .tc main_arg0) = x0)
    (h_main_arg1 : W (Proc.devRef .tc main_arg1) = x1)
    (h_main_v0 : W (Proc.devRef .tc main_v0) = Read.val_main_v0 (F := Ideal) x0)
    (h_main_v92 : W (Proc.devRef .tc main_v92) = Read.val_main_v92 (F := Ideal) x0 x1) :
    after (ops14 (F := Ideal)) W (Proc.devRef .tc main_arg0) = x0
      ∧ after (ops14 (F := Ideal)) W (Proc.devRef .tc main_arg1) = x1
      ∧ after (ops14 (F := Ideal)) W (Proc.devRef .tc main_v0) = Read.val_main_v0 (F := Ideal) x0
      ∧ after (ops14 (F := Ideal)) W (Proc.devRef .tc main_v99) = Read.val_main_v99 (F := Ideal) x0 x1 := by
  refine ⟨?_, ?_, ?_, ?_⟩
  · after_results
    exact h_main_arg0
  · after_results
    exact h_main_arg1
  · after_results
    exact h_main_v0
  · after_results
    rw [h_main_v92, h_main_v0, h_main_arg1]
    try rfl

/-- Across operations 104 … 110: main_v106 written, the rest kept. -/
theorem step15 (x0 : (⟨S16384x10x100, .f32⟩ : BufTy).Contents (Elt Ideal)) (x1 : (⟨S10x100x5x5, .f32⟩ : BufTy).Contents (Elt Ideal))
    (W : Valuation τ sig (Elt Ideal))
    (h_main_arg0 : W (Proc.devRef .tc main_arg0) = x0)
    (h_main_arg1 : W (Proc.devRef .tc main_arg1) = x1)
    (h_main_v0 : W (Proc.devRef .tc main_v0) = Read.val_main_v0 (F := Ideal) x0)
    (h_main_v99 : W (Proc.devRef .tc main_v99) = Read.val_main_v99 (F := Ideal) x0 x1) :
    after (ops15 (F := Ideal)) W (Proc.devRef .tc main_arg0) = x0
      ∧ after (ops15 (F := Ideal)) W (Proc.devRef .tc main_arg1) = x1
      ∧ after (ops15 (F := Ideal)) W (Proc.devRef .tc main_v0) = Read.val_main_v0 (F := Ideal) x0
      ∧ after (ops15 (F := Ideal)) W (Proc.devRef .tc main_v106) = Read.val_main_v106 (F := Ideal) x0 x1 := by
  refine ⟨?_, ?_, ?_, ?_⟩
  · after_results
    exact h_main_arg0
  · after_results
    exact h_main_arg1
  · after_results
    exact h_main_v0
  · after_results
    rw [h_main_v99, h_main_v0, h_main_arg1]
    try rfl

/-- Across operations 111 … 117: main_v113 written, the rest kept. -/
theorem step16 (x0 : (⟨S16384x10x100, .f32⟩ : BufTy).Contents (Elt Ideal)) (x1 : (⟨S10x100x5x5, .f32⟩ : BufTy).Contents (Elt Ideal))
    (W : Valuation τ sig (Elt Ideal))
    (h_main_arg0 : W (Proc.devRef .tc main_arg0) = x0)
    (h_main_arg1 : W (Proc.devRef .tc main_arg1) = x1)
    (h_main_v0 : W (Proc.devRef .tc main_v0) = Read.val_main_v0 (F := Ideal) x0)
    (h_main_v106 : W (Proc.devRef .tc main_v106) = Read.val_main_v106 (F := Ideal) x0 x1) :
    after (ops16 (F := Ideal)) W (Proc.devRef .tc main_arg0) = x0
      ∧ after (ops16 (F := Ideal)) W (Proc.devRef .tc main_arg1) = x1
      ∧ after (ops16 (F := Ideal)) W (Proc.devRef .tc main_v0) = Read.val_main_v0 (F := Ideal) x0
      ∧ after (ops16 (F := Ideal)) W (Proc.devRef .tc main_v113) = Read.val_main_v113 (F := Ideal) x0 x1 := by
  refine ⟨?_, ?_, ?_, ?_⟩
  · after_results
    exact h_main_arg0
  · after_results
    exact h_main_arg1
  · after_results
    exact h_main_v0
  · after_results
    rw [h_main_v106, h_main_v0, h_main_arg1]
    try rfl

/-- Across operations 118 … 121: main_v114, main_v117 written, the rest kept. -/
theorem step17 (x0 : (⟨S16384x10x100, .f32⟩ : BufTy).Contents (Elt Ideal)) (x1 : (⟨S10x100x5x5, .f32⟩ : BufTy).Contents (Elt Ideal))
    (W : Valuation τ sig (Elt Ideal))
    (h_main_arg0 : W (Proc.devRef .tc main_arg0) = x0)
    (h_main_arg1 : W (Proc.devRef .tc main_arg1) = x1)
    (h_main_v0 : W (Proc.devRef .tc main_v0) = Read.val_main_v0 (F := Ideal) x0)
    (h_main_v113 : W (Proc.devRef .tc main_v113) = Read.val_main_v113 (F := Ideal) x0 x1) :
    after (ops17 (F := Ideal)) W (Proc.devRef .tc main_arg0) = x0
      ∧ after (ops17 (F := Ideal)) W (Proc.devRef .tc main_arg1) = x1
      ∧ after (ops17 (F := Ideal)) W (Proc.devRef .tc main_v0) = Read.val_main_v0 (F := Ideal) x0
      ∧ after (ops17 (F := Ideal)) W (Proc.devRef .tc main_v113) = Read.val_main_v113 (F := Ideal) x0 x1
      ∧ after (ops17 (F := Ideal)) W (Proc.devRef .tc main_v114) = Read.val_main_v114 (F := Ideal) x0
      ∧ after (ops17 (F := Ideal)) W (Proc.devRef .tc main_v117) = Read.val_main_v117 (F := Ideal) x1 := by
  refine ⟨?_, ?_, ?_, ?_, ?_, ?_⟩
  · after_results
    exact h_main_arg0
  · after_results
    exact h_main_arg1
  · after_results
    exact h_main_v0
  · after_results
    exact h_main_v113
  · after_results
    rw [h_main_v0]
    try rfl
  · after_results
    rw [h_main_arg1]
    try rfl

/-- Across operations 122 … 124: main_v120 written, the rest kept. -/
theorem step18 (x0 : (⟨S16384x10x100, .f32⟩ : BufTy).Contents (Elt Ideal)) (x1 : (⟨S10x100x5x5, .f32⟩ : BufTy).Contents (Elt Ideal))
    (W : Valuation τ sig (Elt Ideal))
    (h_main_arg0 : W (Proc.devRef .tc main_arg0) = x0)
    (h_main_arg1 : W (Proc.devRef .tc main_arg1) = x1)
    (h_main_v0 : W (Proc.devRef .tc main_v0) = Read.val_main_v0 (F := Ideal) x0)
    (h_main_v113 : W (Proc.devRef .tc main_v113) = Read.val_main_v113 (F := Ideal) x0 x1)
    (h_main_v114 : W (Proc.devRef .tc main_v114) = Read.val_main_v114 (F := Ideal) x0)
    (h_main_v117 : W (Proc.devRef .tc main_v117) = Read.val_main_v117 (F := Ideal) x1) :
    after (ops18 (F := Ideal)) W (Proc.devRef .tc main_arg0) = x0
      ∧ after (ops18 (F := Ideal)) W (Proc.devRef .tc main_arg1) = x1
      ∧ after (ops18 (F := Ideal)) W (Proc.devRef .tc main_v0) = Read.val_main_v0 (F := Ideal) x0
      ∧ after (ops18 (F := Ideal)) W (Proc.devRef .tc main_v120) = Read.val_main_v120 (F := Ideal) x0 x1 := by
  refine ⟨?_, ?_, ?_, ?_⟩
  · after_results
    exact h_main_arg0
  · after_results
    exact h_main_arg1
  · after_results
    exact h_main_v0
  · after_results
    rw [h_main_v113, h_main_v114, h_main_v117]
    try rfl

/-- Across operations 125 … 131: main_v127 written, the rest kept. -/
theorem step19 (x0 : (⟨S16384x10x100, .f32⟩ : BufTy).Contents (Elt Ideal)) (x1 : (⟨S10x100x5x5, .f32⟩ : BufTy).Contents (Elt Ideal))
    (W : Valuation τ sig (Elt Ideal))
    (h_main_arg0 : W (Proc.devRef .tc main_arg0) = x0)
    (h_main_arg1 : W (Proc.devRef .tc main_arg1) = x1)
    (h_main_v0 : W (Proc.devRef .tc main_v0) = Read.val_main_v0 (F := Ideal) x0)
    (h_main_v120 : W (Proc.devRef .tc main_v120) = Read.val_main_v120 (F := Ideal) x0 x1) :
    after (ops19 (F := Ideal)) W (Proc.devRef .tc main_arg0) = x0
      ∧ after (ops19 (F := Ideal)) W (Proc.devRef .tc main_arg1) = x1
      ∧ after (ops19 (F := Ideal)) W (Proc.devRef .tc main_v0) = Read.val_main_v0 (F := Ideal) x0
      ∧ after (ops19 (F := Ideal)) W (Proc.devRef .tc main_v127) = Read.val_main_v127 (F := Ideal) x0 x1 := by
  refine ⟨?_, ?_, ?_, ?_⟩
  · after_results
    exact h_main_arg0
  · after_results
    exact h_main_arg1
  · after_results
    exact h_main_v0
  · after_results
    rw [h_main_v120, h_main_v0, h_main_arg1]
    try rfl

/-- Across operations 132 … 138: main_v134 written, the rest kept. -/
theorem step20 (x0 : (⟨S16384x10x100, .f32⟩ : BufTy).Contents (Elt Ideal)) (x1 : (⟨S10x100x5x5, .f32⟩ : BufTy).Contents (Elt Ideal))
    (W : Valuation τ sig (Elt Ideal))
    (h_main_arg0 : W (Proc.devRef .tc main_arg0) = x0)
    (h_main_arg1 : W (Proc.devRef .tc main_arg1) = x1)
    (h_main_v0 : W (Proc.devRef .tc main_v0) = Read.val_main_v0 (F := Ideal) x0)
    (h_main_v127 : W (Proc.devRef .tc main_v127) = Read.val_main_v127 (F := Ideal) x0 x1) :
    after (ops20 (F := Ideal)) W (Proc.devRef .tc main_arg0) = x0
      ∧ after (ops20 (F := Ideal)) W (Proc.devRef .tc main_arg1) = x1
      ∧ after (ops20 (F := Ideal)) W (Proc.devRef .tc main_v0) = Read.val_main_v0 (F := Ideal) x0
      ∧ after (ops20 (F := Ideal)) W (Proc.devRef .tc main_v134) = Read.val_main_v134 (F := Ideal) x0 x1 := by
  refine ⟨?_, ?_, ?_, ?_⟩
  · after_results
    exact h_main_arg0
  · after_results
    exact h_main_arg1
  · after_results
    exact h_main_v0
  · after_results
    rw [h_main_v127, h_main_v0, h_main_arg1]
    try rfl

/-- Across operations 139 … 145: main_v141 written, the rest kept. -/
theorem step21 (x0 : (⟨S16384x10x100, .f32⟩ : BufTy).Contents (Elt Ideal)) (x1 : (⟨S10x100x5x5, .f32⟩ : BufTy).Contents (Elt Ideal))
    (W : Valuation τ sig (Elt Ideal))
    (h_main_arg0 : W (Proc.devRef .tc main_arg0) = x0)
    (h_main_arg1 : W (Proc.devRef .tc main_arg1) = x1)
    (h_main_v0 : W (Proc.devRef .tc main_v0) = Read.val_main_v0 (F := Ideal) x0)
    (h_main_v134 : W (Proc.devRef .tc main_v134) = Read.val_main_v134 (F := Ideal) x0 x1) :
    after (ops21 (F := Ideal)) W (Proc.devRef .tc main_arg0) = x0
      ∧ after (ops21 (F := Ideal)) W (Proc.devRef .tc main_arg1) = x1
      ∧ after (ops21 (F := Ideal)) W (Proc.devRef .tc main_v0) = Read.val_main_v0 (F := Ideal) x0
      ∧ after (ops21 (F := Ideal)) W (Proc.devRef .tc main_v141) = Read.val_main_v141 (F := Ideal) x0 x1 := by
  refine ⟨?_, ?_, ?_, ?_⟩
  · after_results
    exact h_main_arg0
  · after_results
    exact h_main_arg1
  · after_results
    exact h_main_v0
  · after_results
    rw [h_main_v134, h_main_v0, h_main_arg1]
    try rfl

/-- Across operations 146 … 152: main_v148 written, the rest kept. -/
theorem step22 (x0 : (⟨S16384x10x100, .f32⟩ : BufTy).Contents (Elt Ideal)) (x1 : (⟨S10x100x5x5, .f32⟩ : BufTy).Contents (Elt Ideal))
    (W : Valuation τ sig (Elt Ideal))
    (h_main_arg0 : W (Proc.devRef .tc main_arg0) = x0)
    (h_main_arg1 : W (Proc.devRef .tc main_arg1) = x1)
    (h_main_v0 : W (Proc.devRef .tc main_v0) = Read.val_main_v0 (F := Ideal) x0)
    (h_main_v141 : W (Proc.devRef .tc main_v141) = Read.val_main_v141 (F := Ideal) x0 x1) :
    after (ops22 (F := Ideal)) W (Proc.devRef .tc main_arg0) = x0
      ∧ after (ops22 (F := Ideal)) W (Proc.devRef .tc main_arg1) = x1
      ∧ after (ops22 (F := Ideal)) W (Proc.devRef .tc main_v0) = Read.val_main_v0 (F := Ideal) x0
      ∧ after (ops22 (F := Ideal)) W (Proc.devRef .tc main_v148) = Read.val_main_v148 (F := Ideal) x0 x1 := by
  refine ⟨?_, ?_, ?_, ?_⟩
  · after_results
    exact h_main_arg0
  · after_results
    exact h_main_arg1
  · after_results
    exact h_main_v0
  · after_results
    rw [h_main_v141, h_main_v0, h_main_arg1]
    try rfl

/-- Across operations 153 … 159: main_v155 written, the rest kept. -/
theorem step23 (x0 : (⟨S16384x10x100, .f32⟩ : BufTy).Contents (Elt Ideal)) (x1 : (⟨S10x100x5x5, .f32⟩ : BufTy).Contents (Elt Ideal))
    (W : Valuation τ sig (Elt Ideal))
    (h_main_arg0 : W (Proc.devRef .tc main_arg0) = x0)
    (h_main_arg1 : W (Proc.devRef .tc main_arg1) = x1)
    (h_main_v0 : W (Proc.devRef .tc main_v0) = Read.val_main_v0 (F := Ideal) x0)
    (h_main_v148 : W (Proc.devRef .tc main_v148) = Read.val_main_v148 (F := Ideal) x0 x1) :
    after (ops23 (F := Ideal)) W (Proc.devRef .tc main_arg0) = x0
      ∧ after (ops23 (F := Ideal)) W (Proc.devRef .tc main_arg1) = x1
      ∧ after (ops23 (F := Ideal)) W (Proc.devRef .tc main_v0) = Read.val_main_v0 (F := Ideal) x0
      ∧ after (ops23 (F := Ideal)) W (Proc.devRef .tc main_v155) = Read.val_main_v155 (F := Ideal) x0 x1 := by
  refine ⟨?_, ?_, ?_, ?_⟩
  · after_results
    exact h_main_arg0
  · after_results
    exact h_main_arg1
  · after_results
    exact h_main_v0
  · after_results
    rw [h_main_v148, h_main_v0, h_main_arg1]
    try rfl

/-- Across operations 160 … 166: main_v162 written, the rest kept. -/
theorem step24 (x0 : (⟨S16384x10x100, .f32⟩ : BufTy).Contents (Elt Ideal)) (x1 : (⟨S10x100x5x5, .f32⟩ : BufTy).Contents (Elt Ideal))
    (W : Valuation τ sig (Elt Ideal))
    (h_main_arg0 : W (Proc.devRef .tc main_arg0) = x0)
    (h_main_arg1 : W (Proc.devRef .tc main_arg1) = x1)
    (h_main_v0 : W (Proc.devRef .tc main_v0) = Read.val_main_v0 (F := Ideal) x0)
    (h_main_v155 : W (Proc.devRef .tc main_v155) = Read.val_main_v155 (F := Ideal) x0 x1) :
    after (ops24 (F := Ideal)) W (Proc.devRef .tc main_arg0) = x0
      ∧ after (ops24 (F := Ideal)) W (Proc.devRef .tc main_arg1) = x1
      ∧ after (ops24 (F := Ideal)) W (Proc.devRef .tc main_v0) = Read.val_main_v0 (F := Ideal) x0
      ∧ after (ops24 (F := Ideal)) W (Proc.devRef .tc main_v162) = Read.val_main_v162 (F := Ideal) x0 x1 := by
  refine ⟨?_, ?_, ?_, ?_⟩
  · after_results
    exact h_main_arg0
  · after_results
    exact h_main_arg1
  · after_results
    exact h_main_v0
  · after_results
    rw [h_main_v155, h_main_v0, h_main_arg1]
    try rfl

/-- Across operations 167 … 173: main_v169 written, the rest kept. -/
theorem step25 (x0 : (⟨S16384x10x100, .f32⟩ : BufTy).Contents (Elt Ideal)) (x1 : (⟨S10x100x5x5, .f32⟩ : BufTy).Contents (Elt Ideal))
    (W : Valuation τ sig (Elt Ideal))
    (h_main_arg0 : W (Proc.devRef .tc main_arg0) = x0)
    (h_main_arg1 : W (Proc.devRef .tc main_arg1) = x1)
    (h_main_v0 : W (Proc.devRef .tc main_v0) = Read.val_main_v0 (F := Ideal) x0)
    (h_main_v162 : W (Proc.devRef .tc main_v162) = Read.val_main_v162 (F := Ideal) x0 x1) :
    after (ops25 (F := Ideal)) W (Proc.devRef .tc main_arg0) = x0
      ∧ after (ops25 (F := Ideal)) W (Proc.devRef .tc main_arg1) = x1
      ∧ after (ops25 (F := Ideal)) W (Proc.devRef .tc main_v0) = Read.val_main_v0 (F := Ideal) x0
      ∧ after (ops25 (F := Ideal)) W (Proc.devRef .tc main_v169) = Read.val_main_v169 (F := Ideal) x0 x1 := by
  refine ⟨?_, ?_, ?_, ?_⟩
  · after_results
    exact h_main_arg0
  · after_results
    exact h_main_arg1
  · after_results
    exact h_main_v0
  · after_results
    rw [h_main_v162, h_main_v0, h_main_arg1]
    try rfl

/-- Across operations 174 … 180: main_v176 written, the rest kept. -/
theorem step26 (x0 : (⟨S16384x10x100, .f32⟩ : BufTy).Contents (Elt Ideal)) (x1 : (⟨S10x100x5x5, .f32⟩ : BufTy).Contents (Elt Ideal))
    (W : Valuation τ sig (Elt Ideal))
    (h_main_arg0 : W (Proc.devRef .tc main_arg0) = x0)
    (h_main_arg1 : W (Proc.devRef .tc main_arg1) = x1)
    (h_main_v0 : W (Proc.devRef .tc main_v0) = Read.val_main_v0 (F := Ideal) x0)
    (h_main_v169 : W (Proc.devRef .tc main_v169) = Read.val_main_v169 (F := Ideal) x0 x1) :
    after (ops26 (F := Ideal)) W (Proc.devRef .tc main_arg0) = x0
      ∧ after (ops26 (F := Ideal)) W (Proc.devRef .tc main_arg1) = x1
      ∧ after (ops26 (F := Ideal)) W (Proc.devRef .tc main_v176) = Read.val_main_v176 (F := Ideal) x0 x1 := by
  refine ⟨?_, ?_, ?_⟩
  · after_results
    exact h_main_arg0
  · after_results
    exact h_main_arg1
  · after_results
    rw [h_main_v169, h_main_v0, h_main_arg1]
    try rfl

/-- Across operations 181 … 181: main_v177 written, the rest kept. -/
theorem step27 (x0 : (⟨S16384x10x100, .f32⟩ : BufTy).Contents (Elt Ideal)) (x1 : (⟨S10x100x5x5, .f32⟩ : BufTy).Contents (Elt Ideal))
    (W : Valuation τ sig (Elt Ideal))
    (h_main_arg0 : W (Proc.devRef .tc main_arg0) = x0)
    (h_main_arg1 : W (Proc.devRef .tc main_arg1) = x1)
    (h_main_v176 : W (Proc.devRef .tc main_v176) = Read.val_main_v176 (F := Ideal) x0 x1) :
    after (ops27 (F := Ideal)) W (Proc.devRef .tc main_arg0) = x0
      ∧ after (ops27 (F := Ideal)) W (Proc.devRef .tc main_arg1) = x1
      ∧ after (ops27 (F := Ideal)) W (Proc.devRef .tc main_v177) = Read.val_main_v177 (F := Ideal) x0 x1 := by
  refine ⟨?_, ?_, ?_⟩
  · after_results
    exact h_main_arg0
  · after_results
    exact h_main_arg1
  · after_results
    rw [h_main_v176]
    try rfl

/-- Across operations 182 … 188: main_v182 written, the rest kept. -/
theorem step28 (x0 : (⟨S16384x10x100, .f32⟩ : BufTy).Contents (Elt Ideal)) (x1 : (⟨S10x100x5x5, .f32⟩ : BufTy).Contents (Elt Ideal))
    (W : Valuation τ sig (Elt Ideal))
    (h_main_arg0 : W (Proc.devRef .tc main_arg0) = x0)
    (h_main_arg1 : W (Proc.devRef .tc main_arg1) = x1)
    (h_main_v177 : W (Proc.devRef .tc main_v177) = Read.val_main_v177 (F := Ideal) x0 x1) :
    after (ops28 (F := Ideal)) W (Proc.devRef .tc main_arg0) = x0
      ∧ after (ops28 (F := Ideal)) W (Proc.devRef .tc main_arg1) = x1
      ∧ after (ops28 (F := Ideal)) W (Proc.devRef .tc main_v182) = Read.val_main_v182 (F := Ideal) x0 x1 := by
  refine ⟨?_, ?_, ?_⟩
  · after_results
    exact h_main_arg0
  · after_results
    exact h_main_arg1
  · after_results
    rw [h_main_v177]
    try rfl

/-- Across operations 189 … 192: main_v185 written, the rest kept. -/
theorem step29 (x0 : (⟨S16384x10x100, .f32⟩ : BufTy).Contents (Elt Ideal)) (x1 : (⟨S10x100x5x5, .f32⟩ : BufTy).Contents (Elt Ideal))
    (W : Valuation τ sig (Elt Ideal))
    (h_main_arg0 : W (Proc.devRef .tc main_arg0) = x0)
    (h_main_arg1 : W (Proc.devRef .tc main_arg1) = x1)
    (h_main_v182 : W (Proc.devRef .tc main_v182) = Read.val_main_v182 (F := Ideal) x0 x1) :
    after (ops29 (F := Ideal)) W (Proc.devRef .tc main_arg0) = x0
      ∧ after (ops29 (F := Ideal)) W (Proc.devRef .tc main_arg1) = x1
      ∧ after (ops29 (F := Ideal)) W (Proc.devRef .tc main_v182) = Read.val_main_v182 (F := Ideal) x0 x1
      ∧ after (ops29 (F := Ideal)) W (Proc.devRef .tc main_v185) = Read.val_main_v185 (F := Ideal) x0 x1 := by
  refine ⟨?_, ?_, ?_, ?_⟩
  · after_results
    exact h_main_arg0
  · after_results
    exact h_main_arg1
  · after_results
    exact h_main_v182
  · after_results
    rw [h_main_arg0, h_main_v182]
    try rfl

/-- Across operations 193 … 200: main_v191 written, the rest kept. -/
theorem step30 (x0 : (⟨S16384x10x100, .f32⟩ : BufTy).Contents (Elt Ideal)) (x1 : (⟨S10x100x5x5, .f32⟩ : BufTy).Contents (Elt Ideal))
    (W : Valuation τ sig (Elt Ideal))
    (h_main_arg0 : W (Proc.devRef .tc main_arg0) = x0)
    (h_main_arg1 : W (Proc.devRef .tc main_arg1) = x1)
    (h_main_v182 : W (Proc.devRef .tc main_v182) = Read.val_main_v182 (F := Ideal) x0 x1)
    (h_main_v185 : W (Proc.devRef .tc main_v185) = Read.val_main_v185 (F := Ideal) x0 x1) :
    after (ops30 (F := Ideal)) W (Proc.devRef .tc main_arg0) = x0
      ∧ after (ops30 (F := Ideal)) W (Proc.devRef .tc main_arg1) = x1
      ∧ after (ops30 (F := Ideal)) W (Proc.devRef .tc main_v182) = Read.val_main_v182 (F := Ideal) x0 x1
      ∧ after (ops30 (F := Ideal)) W (Proc.devRef .tc main_v185) = Read.val_main_v185 (F := Ideal) x0 x1
      ∧ after (ops30 (F := Ideal)) W (Proc.devRef .tc main_v191) = Read.val_main_v191 (F := Ideal) x0 x1 := by
  refine ⟨?_, ?_, ?_, ?_, ?_⟩
  · after_results
    exact h_main_arg0
  · after_results
    exact h_main_arg1
  · after_results
    exact h_main_v182
  · after_results
    exact h_main_v185
  · after_results
    rw [h_main_v182]
    try rfl

/-- Across operations 201 … 208: main_v197 written, the rest kept. -/
theorem step31 (x0 : (⟨S16384x10x100, .f32⟩ : BufTy).Contents (Elt Ideal)) (x1 : (⟨S10x100x5x5, .f32⟩ : BufTy).Contents (Elt Ideal))
    (W : Valuation τ sig (Elt Ideal))
    (h_main_arg0 : W (Proc.devRef .tc main_arg0) = x0)
    (h_main_arg1 : W (Proc.devRef .tc main_arg1) = x1)
    (h_main_v182 : W (Proc.devRef .tc main_v182) = Read.val_main_v182 (F := Ideal) x0 x1)
    (h_main_v185 : W (Proc.devRef .tc main_v185) = Read.val_main_v185 (F := Ideal) x0 x1)
    (h_main_v191 : W (Proc.devRef .tc main_v191) = Read.val_main_v191 (F := Ideal) x0 x1) :
    after (ops31 (F := Ideal)) W (Proc.devRef .tc main_arg0) = x0
      ∧ after (ops31 (F := Ideal)) W (Proc.devRef .tc main_arg1) = x1
      ∧ after (ops31 (F := Ideal)) W (Proc.devRef .tc main_v185) = Read.val_main_v185 (F := Ideal) x0 x1
      ∧ after (ops31 (F := Ideal)) W (Proc.devRef .tc main_v197) = Read.val_main_v197 (F := Ideal) x0 x1 := by
  refine ⟨?_, ?_, ?_, ?_⟩
  · after_results
    exact h_main_arg0
  · after_results
    exact h_main_arg1
  · after_results
    exact h_main_v185
  · after_results
    rw [h_main_v191, h_main_v182]
    try rfl

/-- Across operations 209 … 209: main_v198 written, the rest kept. -/
theorem step32 (x0 : (⟨S16384x10x100, .f32⟩ : BufTy).Contents (Elt Ideal)) (x1 : (⟨S10x100x5x5, .f32⟩ : BufTy).Contents (Elt Ideal))
    (W : Valuation τ sig (Elt Ideal))
    (h_main_arg0 : W (Proc.devRef .tc main_arg0) = x0)
    (h_main_arg1 : W (Proc.devRef .tc main_arg1) = x1)
    (h_main_v185 : W (Proc.devRef .tc main_v185) = Read.val_main_v185 (F := Ideal) x0 x1)
    (h_main_v197 : W (Proc.devRef .tc main_v197) = Read.val_main_v197 (F := Ideal) x0 x1) :
    after (ops32 (F := Ideal)) W (Proc.devRef .tc main_arg0) = x0
      ∧ after (ops32 (F := Ideal)) W (Proc.devRef .tc main_arg1) = x1
      ∧ after (ops32 (F := Ideal)) W (Proc.devRef .tc main_v198) = Read.val_main_v198 (F := Ideal) x0 x1 := by
  refine ⟨?_, ?_, ?_⟩
  · after_results
    exact h_main_arg0
  · after_results
    exact h_main_arg1
  · after_results
    rw [h_main_v185, h_main_v197]
    try rfl

/-- After all of @main's operations: the result buffer holds the last stage of the two arguments, which are unchanged. -/
theorem after_ops (V : Valuation τ sig (Elt Ideal)) :
    after (ops (F := Ideal)) V (Proc.devRef .tc main_v198)
        = Read.val_main_v198 (F := Ideal) (V (Proc.devRef .tc main_arg0)) (V (Proc.devRef .tc main_arg1))
      ∧ after (ops (F := Ideal)) V (Proc.devRef .tc main_arg0) = V (Proc.devRef .tc main_arg0)
      ∧ after (ops (F := Ideal)) V (Proc.devRef .tc main_arg1) = V (Proc.devRef .tc main_arg1) := by
  have e : after (ops (F := Ideal)) V = (after (ops32 (F := Ideal)) (after (ops31 (F := Ideal)) (after (ops30 (F := Ideal)) (after (ops29 (F := Ideal)) (after (ops28 (F := Ideal)) (after (ops27 (F := Ideal)) (after (ops26 (F := Ideal)) (after (ops25 (F := Ideal)) (after (ops24 (F := Ideal)) (after (ops23 (F := Ideal)) (after (ops22 (F := Ideal)) (after (ops21 (F := Ideal)) (after (ops20 (F := Ideal)) (after (ops19 (F := Ideal)) (after (ops18 (F := Ideal)) (after (ops17 (F := Ideal)) (after (ops16 (F := Ideal)) (after (ops15 (F := Ideal)) (after (ops14 (F := Ideal)) (after (ops13 (F := Ideal)) (after (ops12 (F := Ideal)) (after (ops11 (F := Ideal)) (after (ops10 (F := Ideal)) (after (ops09 (F := Ideal)) (after (ops08 (F := Ideal)) (after (ops07 (F := Ideal)) (after (ops06 (F := Ideal)) (after (ops05 (F := Ideal)) (after (ops04 (F := Ideal)) (after (ops03 (F := Ideal)) (after (ops02 (F := Ideal)) (after (ops01 (F := Ideal)) (after (ops00 (F := Ideal)) V))))))))))))))))))))))))))))))))) := by
    simp only [ops, partA, partB, partC, partD, StableHlo.after_append]
  rw [e]
  obtain ⟨h0_main_arg0, h0_main_arg1, h0_main_v0, h0_main_v1⟩ := step00 _ _ _ rfl rfl
  obtain ⟨h1_main_arg0, h1_main_arg1, h1_main_v0, h1_main_v8⟩ := step01 _ _ _ h0_main_arg0 h0_main_arg1 h0_main_v0 h0_main_v1
  obtain ⟨h2_main_arg0, h2_main_arg1, h2_main_v0, h2_main_v15⟩ := step02 _ _ _ h1_main_arg0 h1_main_arg1 h1_main_v0 h1_main_v8
  obtain ⟨h3_main_arg0, h3_main_arg1, h3_main_v0, h3_main_v22⟩ := step03 _ _ _ h2_main_arg0 h2_main_arg1 h2_main_v0 h2_main_v15
  obtain ⟨h4_main_arg0, h4_main_arg1, h4_main_v0, h4_main_v29⟩ := step04 _ _ _ h3_main_arg0 h3_main_arg1 h3_main_v0 h3_main_v22
  obtain ⟨h5_main_arg0, h5_main_arg1, h5_main_v0, h5_main_v36⟩ := step05 _ _ _ h4_main_arg0 h4_main_arg1 h4_main_v0 h4_main_v29
  obtain ⟨h6_main_arg0, h6_main_arg1, h6_main_v0, h6_main_v43⟩ := step06 _ _ _ h5_main_arg0 h5_main_arg1 h5_main_v0 h5_main_v36
  obtain ⟨h7_main_arg0, h7_main_arg1, h7_main_v0, h7_main_v50⟩ := step07 _ _ _ h6_main_arg0 h6_main_arg1 h6_main_v0 h6_main_v43
  obtain ⟨h8_main_arg0, h8_main_arg1, h8_main_v0, h8_main_v57⟩ := step08 _ _ _ h7_main_arg0 h7_main_arg1 h7_main_v0 h7_main_v50
  obtain ⟨h9_main_arg0, h9_main_arg1, h9_main_v0, h9_main_v64⟩ := step09 _ _ _ h8_main_arg0 h8_main_arg1 h8_main_v0 h8_main_v57
  obtain ⟨h10_main_arg0, h10_main_arg1, h10_main_v0, h10_main_v71⟩ := step10 _ _ _ h9_main_arg0 h9_main_arg1 h9_main_v0 h9_main_v64
  obtain ⟨h11_main_arg0, h11_main_arg1, h11_main_v0, h11_main_v78⟩ := step11 _ _ _ h10_main_arg0 h10_main_arg1 h10_main_v0 h10_main_v71
  obtain ⟨h12_main_arg0, h12_main_arg1, h12_main_v0, h12_main_v85⟩ := step12 _ _ _ h11_main_arg0 h11_main_arg1 h11_main_v0 h11_main_v78
  obtain ⟨h13_main_arg0, h13_main_arg1, h13_main_v0, h13_main_v92⟩ := step13 _ _ _ h12_main_arg0 h12_main_arg1 h12_main_v0 h12_main_v85
  obtain ⟨h14_main_arg0, h14_main_arg1, h14_main_v0, h14_main_v99⟩ := step14 _ _ _ h13_main_arg0 h13_main_arg1 h13_main_v0 h13_main_v92
  obtain ⟨h15_main_arg0, h15_main_arg1, h15_main_v0, h15_main_v106⟩ := step15 _ _ _ h14_main_arg0 h14_main_arg1 h14_main_v0 h14_main_v99
  obtain ⟨h16_main_arg0, h16_main_arg1, h16_main_v0, h16_main_v113⟩ := step16 _ _ _ h15_main_arg0 h15_main_arg1 h15_main_v0 h15_main_v106
  obtain ⟨h17_main_arg0, h17_main_arg1, h17_main_v0, h17_main_v113, h17_main_v114, h17_main_v117⟩ := step17 _ _ _ h16_main_arg0 h16_main_arg1 h16_main_v0 h16_main_v113
  obtain ⟨h18_main_arg0, h18_main_arg1, h18_main_v0, h18_main_v120⟩ := step18 _ _ _ h17_main_arg0 h17_main_arg1 h17_main_v0 h17_main_v113 h17_main_v114 h17_main_v117
  obtain ⟨h19_main_arg0, h19_main_arg1, h19_main_v0, h19_main_v127⟩ := step19 _ _ _ h18_main_arg0 h18_main_arg1 h18_main_v0 h18_main_v120
  obtain ⟨h20_main_arg0, h20_main_arg1, h20_main_v0, h20_main_v134⟩ := step20 _ _ _ h19_main_arg0 h19_main_arg1 h19_main_v0 h19_main_v127
  obtain ⟨h21_main_arg0, h21_main_arg1, h21_main_v0, h21_main_v141⟩ := step21 _ _ _ h20_main_arg0 h20_main_arg1 h20_main_v0 h20_main_v134
  obtain ⟨h22_main_arg0, h22_main_arg1, h22_main_v0, h22_main_v148⟩ := step22 _ _ _ h21_main_arg0 h21_main_arg1 h21_main_v0 h21_main_v141
  obtain ⟨h23_main_arg0, h23_main_arg1, h23_main_v0, h23_main_v155⟩ := step23 _ _ _ h22_main_arg0 h22_main_arg1 h22_main_v0 h22_main_v148
  obtain ⟨h24_main_arg0, h24_main_arg1, h24_main_v0, h24_main_v162⟩ := step24 _ _ _ h23_main_arg0 h23_main_arg1 h23_main_v0 h23_main_v155
  obtain ⟨h25_main_arg0, h25_main_arg1, h25_main_v0, h25_main_v169⟩ := step25 _ _ _ h24_main_arg0 h24_main_arg1 h24_main_v0 h24_main_v162
  obtain ⟨h26_main_arg0, h26_main_arg1, h26_main_v176⟩ := step26 _ _ _ h25_main_arg0 h25_main_arg1 h25_main_v0 h25_main_v169
  obtain ⟨h27_main_arg0, h27_main_arg1, h27_main_v177⟩ := step27 _ _ _ h26_main_arg0 h26_main_arg1 h26_main_v176
  obtain ⟨h28_main_arg0, h28_main_arg1, h28_main_v182⟩ := step28 _ _ _ h27_main_arg0 h27_main_arg1 h27_main_v177
  obtain ⟨h29_main_arg0, h29_main_arg1, h29_main_v182, h29_main_v185⟩ := step29 _ _ _ h28_main_arg0 h28_main_arg1 h28_main_v182
  obtain ⟨h30_main_arg0, h30_main_arg1, h30_main_v182, h30_main_v185, h30_main_v191⟩ := step30 _ _ _ h29_main_arg0 h29_main_arg1 h29_main_v182 h29_main_v185
  obtain ⟨h31_main_arg0, h31_main_arg1, h31_main_v185, h31_main_v197⟩ := step31 _ _ _ h30_main_arg0 h30_main_arg1 h30_main_v182 h30_main_v185 h30_main_v191
  obtain ⟨h32_main_arg0, h32_main_arg1, h32_main_v198⟩ := step32 _ _ _ h31_main_arg0 h31_main_arg1 h31_main_v185 h31_main_v197
  exact ⟨h32_main_v198, h32_main_arg0, h32_main_arg1⟩

/-- On every device, from any memory with zero counters: every weakly fair execution of the reference's @main terminates
    with the result at the last stage of the arguments' launch contents and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v198)
          = Read.val_main_v198 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v198).trans (after_ops _).1, (h c main_arg0).trans (after_ops _).2.1,
      (h c main_arg1).trans (after_ops _).2.2⟩)
    (run_seq scopedRefs_eq scopedSems_eq defs main (fun _ => ops) main_eq (fun _ => ops_sub) m ρ
      (fun _ => List.forall_iff_forall_mem.mp ops_fresh))

end Cert.ReferenceIdeal.Value

end
-- ==== Proof.Spec.lean ====
/-
  The function both programs compute, for one batch entry at a time.

  A batch entry is a 10 × 100 array X (look-back rows × ages).  It is padded with two zero rows above and below and two
  zero columns left and right (14 × 104).  A locally connected 5 × 5 filter with UNSHARED weights W h j di dj gives the
  pre-activation  pre h j = 0 + Σ_{di,dj} padded X (h+di) (j+dj) · W h j di dj,  the 25 products added in row-major order
  of (di, dj); the attention coefficient is its logistic.  The result has two rows per entry: the forecast
  Σ_h X h j · att h j  and the ridge penalty  Σ_h η · att h j².
-/
import Idealize.ShloMosaic.PureOps.Ideal
import Idealize.ShloMosaic.PureOps.Ideal.Laws
import Idealize.ShloMosaic.Lib.ValueIdx

noncomputable section

open scoped BigOperators

namespace Cert.LocalAttention

open Idealize.ShloMosaic Idealize.ShloMosaic.ValueIdx

/-- One batch entry: look-back rows × ages. -/
abbrev Row := Fin 10 → Fin 100 → EReal
/-- A batch entry with its border of zeros. -/
abbrev Padded := Fin 14 → Fin 104 → EReal
/-- The unshared filter: one 5 × 5 stencil per output position. -/
abbrev Weights := Fin 10 → Fin 100 → Fin 5 → Fin 5 → EReal

/-- Two zero rows and columns on every side. -/
def padded (X : Row) : Padded := fun r c =>
  if h : (2 ≤ r.val ∧ r.val < 12) ∧ (2 ≤ c.val ∧ c.val < 102) then X ⟨r.val - 2, by omega⟩ ⟨c.val - 2, by omega⟩ else 0

/-- One product of the stencil at output position (h, j). -/
def tap (P : Padded) (W : Weights) (h : Fin 10) (j : Fin 100) (di dj : ℕ) (hdi : di < 5) (hdj : dj < 5) : EReal :=
  P ⟨h.val + di, by have := h.isLt; omega⟩ ⟨j.val + dj, by have := j.isLt; omega⟩ * W h j ⟨di, hdi⟩ ⟨dj, hdj⟩

set_option hygiene false in
local notation "T" di:max dj:max => tap P W h j di dj (by decide) (by decide)

/-- The pre-activation: the 25 products added to zero, one after the other, in row-major order of the stencil. -/
def pre (P : Padded) (W : Weights) (h : Fin 10) (j : Fin 100) : EReal :=
  0 + T 0 0 + T 0 1 + T 0 2 + T 0 3 + T 0 4 + T 1 0 + T 1 1 + T 1 2 + T 1 3 + T 1 4 + T 2 0 + T 2 1 + T 2 2 + T 2 3 + T 2 4 + T 3 0 + T 3 1 + T 3 2 + T 3 3 + T 3 4 + T 4 0 + T 4 1 + T 4 2 + T 4 3 + T 4 4

/-- The attention coefficient. -/
def att (P : Padded) (W : Weights) (h : Fin 10) (j : Fin 100) : EReal := Ideal.logistic (pre P W h j)

/-- The forecast: the entry weighted by its attention coefficients, summed over the look-back rows. -/
def forecast (X : Row) (W : Weights) (j : Fin 100) : EReal := ∑ h : Fin 10, X h j * att (padded X) W h j

/-- The ridge weight η (the f32 nearest 0.01, the same word in both programs). -/
def eta : EReal := Ideal.ofBits .f32 0x3C23D70A#32

/-- The ridge penalty: η times the squared attention coefficients, summed over the look-back rows. -/
def penalty (X : Row) (W : Weights) (j : Fin 100) : EReal := ∑ h : Fin 10, eta * (att (padded X) W h j * att (padded X) W h j)

/-- Batch entry `b` of the input array. -/
abbrev rowOf (x : (⟨3, ![16384, 10, 100]⟩ : Shape).Idx → EReal) (b : Fin 16384) : Row := fun h j => x (ix3 b h j)
/-- The weight array, indexed (h, j, di, dj). -/
abbrev weightsOf (w : (⟨4, ![10, 100, 5, 5]⟩ : Shape).Idx → EReal) : Weights := fun h j di dj => w (ix4 h j di dj)

/-- The whole result, index by index: row 0 of entry `b` is its forecast, row 1 its penalty. -/
def G (x : (⟨3, ![16384, 10, 100]⟩ : Shape).Idx → EReal) (w : (⟨4, ![10, 100, 5, 5]⟩ : Shape).Idx → EReal) :
    (⟨3, ![16384, 2, 100]⟩ : Shape).Idx → EReal := fun i =>
  if (i 1).val = 0 then forecast (rowOf x (i 0)) (weightsOf w) (i 2) else penalty (rowOf x (i 0)) (weightsOf w) (i 2)

/-- The same result laid out as entry × 200 columns: the forecast in columns 0–99, the penalty in columns 100–199. -/
def flat (x : (⟨3, ![16384, 10, 100]⟩ : Shape).Idx → EReal) (w : (⟨4, ![10, 100, 5, 5]⟩ : Shape).Idx → EReal) :
    (⟨2, ![16384, 200]⟩ : Shape).Idx → EReal := fun i =>
  if hc : (i 1).val < 100 then forecast (rowOf x (i 0)) (weightsOf w) ⟨(i 1).val, hc⟩
  else penalty (rowOf x (i 0)) (weightsOf w) ⟨(i 1).val - 100, by have h : (i 1).val < 200 := (i 1).isLt; omega⟩

/-- Column s · 100 + j of the flat layout is row s, age j of `G`. -/
theorem flat_reshape (x : (⟨3, ![16384, 10, 100]⟩ : Shape).Idx → EReal) (w : (⟨4, ![10, 100, 5, 5]⟩ : Shape).Idx → EReal)
    (b : Fin 16384) (s : Fin 2) (j : Fin 100) :
    flat x w (ix2 b (⟨s.val * 100 + j.val, by have := s.isLt; have := j.isLt; omega⟩ : Fin 200)) = G x w (ix3 b s j) := by
  have hs : s.val < 2 := s.isLt
  have hj : j.val < 100 := j.isLt
  unfold flat G
  by_cases h : s.val = 0
  · have hc : s.val * 100 + j.val < 100 := by omega
    rw [dif_pos (show ((ix2 b (⟨s.val * 100 + j.val, by omega⟩ : Fin 200)) 1).val < 100 from hc), if_pos (show ((ix3 b s j) 1).val = 0 from h)]
    show forecast (rowOf x b) (weightsOf w) _ = forecast (rowOf x b) (weightsOf w) _
    exact congrArg (forecast (rowOf x b) (weightsOf w)) (Fin.ext (by show s.val * 100 + j.val = j.val; omega))
  · have hc : ¬ s.val * 100 + j.val < 100 := by omega
    rw [dif_neg (show ¬ ((ix2 b (⟨s.val * 100 + j.val, by omega⟩ : Fin 200)) 1).val < 100 from hc), if_neg (show ¬ ((ix3 b s j) 1).val = 0 from h)]
    show penalty (rowOf x b) (weightsOf w) _ = penalty (rowOf x b) (weightsOf w) _
    exact congrArg (penalty (rowOf x b) (weightsOf w)) (Fin.ext (by show s.val * 100 + j.val - 100 = j.val; omega))

/-- The f32 word of 1.0 is the real 1. -/
theorem ofBits_one_f32 : Ideal.ofBits .f32 0x3F800000#32 = 1 := by
  simp [Ideal.ofBits, Ideal.ieee, -EReal.coe_mul]; norm_num

end Cert.LocalAttention

end
-- ==== Proof.RefTaps.lean ====
/-
  The reference, read one batch entry at a time, up to the attention coefficients.

  The host's padding with the converted integer 0 is the zero border of `padded`; each of the 25 products is a slice of the padded
  array at offset (di, dj) times the weights' (·, ·, di, dj) plane broadcast over the batch; the products are added to
  a zero array in row-major order of (di, dj): the pre-activation `pre`.  The expansion 1 / (1 + exp (−z)) of the
  logistic is the logistic of the extended reals.
-/
import proofs.«112428_j16501264351338_2_alg».proof.Proof.RefRead
import proofs.«112428_j16501264351338_2_alg».proof.Proof.Spec
import Idealize.ShloMosaic.Lib.KernelVsHost
import Idealize.ShloMosaic.Lib.ValueIdx
import Idealize.ShloMosaic.Lib.Pipeline.Value

set_option maxRecDepth 8192

noncomputable section

open scoped BigOperators

namespace Cert.LocalAttention.Ref

open Cert.ReferenceIdeal Cert.ReferenceIdeal.Gen Idealize.ShloMosaic Idealize.ShloMosaic.ValueIdx Cert.LocalAttention
open Cert.ReferenceIdeal.Read (val_main_v0)

/-- The padding value: the integer 0 converted to a float is the real 0. -/
theorem padValue (u : S_.Idx) : Read.val_main_call0_v0 (F := Ideal) u = 0 := by
  rw [Read.val_main_call0_v0_apply, Read.val_main_c_apply]
  show (((0#32 : BitVec 32).toInt : ℝ) : EReal) = 0
  simp

/-- The reference's padded array, entry by entry: the zero-bordered batch entry. -/
theorem pad_eq (x0 : S16384x10x100.Idx → EReal) (k : S16384x14x104.Idx) :
    Read.val_main_v0 (F := Ideal) x0 k = padded (rowOf x0 (k 0)) (k 1) (k 2) := by
  unfold Read.val_main_v0 padded
  by_cases h : (2 ≤ (k 1).val ∧ (k 1).val < 12) ∧ (2 ≤ (k 2).val ∧ (k 2).val < 102)
  · rw [dif_pos h]
    exact pad_apply_of_inside _ _ _ x0 _ _ _ k (ix3 (k 0) ⟨(k 1).val - 2, by omega⟩ ⟨(k 2).val - 2, by omega⟩) (fun a => match a with
      | ⟨0, _⟩ => by show (k 0).val = 0 + (k 0).val * (0 + 1); omega
      | ⟨1, _⟩ => by show (k 1).val = 2 + ((k 1).val - 2) * (0 + 1); omega
      | ⟨2, _⟩ => by show (k 2).val = 2 + ((k 2).val - 2) * (0 + 1); omega)
  · rw [dif_neg h]
    by_cases h1 : 2 ≤ (k 1).val ∧ (k 1).val < 12
    · have h2 : ¬(2 ≤ (k 2).val ∧ (k 2).val < 102) := fun h2 => h ⟨h1, h2⟩
      rw [pad_apply_of_not_inside _ _ _ x0 _ _ _ k (2 : Fin 3) (by
        show ¬(2 ≤ (k 2).val ∧ ((k 2).val - 2) % (0 + 1) = 0 ∧ ((k 2).val - 2) / (0 + 1) < 100)
        omega)]
      exact padValue _
    · rw [pad_apply_of_not_inside _ _ _ x0 _ _ _ k (1 : Fin 3) (by
        show ¬(2 ≤ (k 1).val ∧ ((k 1).val - 2) % (0 + 1) = 0 ∧ ((k 1).val - 2) / (0 + 1) < 10)
        omega)]
      exact padValue _

/-- One product of the reference: the padded array sliced at offset (di, dj), times the weights' (·, ·, di, dj) plane laid
    over the batch, is the stencil's product at the entry's position. -/
theorem tap_eq (di dj : ℕ) (hdi : di < 5) (hdj : dj < 5) (x0 : S16384x10x100.Idx → EReal) (x1 : S10x100x5x5.Idx → EReal)
    (hs1 : S16384x14x104.Slices ![0, di, dj] S16384x10x100) (hs2 : S10x100x5x5.Slices ![0, 0, di, dj] S10x100x1x1)
    (i : S16384x10x100.Idx) :
    mulf (F := Ideal) (φ := .f32) (extractStridedSlice S16384x10x100 ![0, di, dj] (Read.val_main_v0 (F := Ideal) x0) hs1)
      (broadcastInDim S16384x10x100 ![0, 1, 2] bcast_S1x10x100_S16384x10x100_0_1_2
        (broadcastInDim S1x10x100 ![1, 2] bcast_S10x100_S1x10x100_1_2
          (shapeCast S10x100 (extractStridedSlice S10x100x1x1 ![0, 0, di, dj] x1 hs2) shapeCasts_S10x100x1x1_S10x100))) i
    = tap (padded (rowOf x0 (i 0))) (weightsOf x1) (i 1) (i 2) di dj hdi hdj := by
  have hi1 : (i 1).val < 10 := (i 1).isLt
  have hi2 : (i 2).val < 100 := (i 2).isLt
  have e1 : extractStridedSlice S16384x10x100 ![0, di, dj] (Read.val_main_v0 (F := Ideal) x0) hs1 i
      = Read.val_main_v0 (F := Ideal) x0 (ix3 (i 0) (⟨(i 1).val + di, by omega⟩ : Fin 14) (⟨(i 2).val + dj, by omega⟩ : Fin 104)) :=
    extractStridedSlice_apply _ _ hs1 i _ (fun a => match a with
      | ⟨0, _⟩ => by show (i 0).val = 0 + (i 0).val; omega
      | ⟨1, _⟩ => by show (i 1).val + di = di + (i 1).val; omega
      | ⟨2, _⟩ => by show (i 2).val + dj = dj + (i 2).val; omega)
  have e2 : broadcastInDim S16384x10x100 ![0, 1, 2] bcast_S1x10x100_S16384x10x100_0_1_2
        (broadcastInDim S1x10x100 ![1, 2] bcast_S10x100_S1x10x100_1_2
          (shapeCast S10x100 (extractStridedSlice S10x100x1x1 ![0, 0, di, dj] x1 hs2) shapeCasts_S10x100x1x1_S10x100)) i
      = x1 (ix4 (i 1) (i 2) (⟨di, hdi⟩ : Fin 5) (⟨dj, hdj⟩ : Fin 5)) := by
    refine (broadcastInDim_apply _ bcast_S1x10x100_S16384x10x100_0_1_2 _ i (ix3 (⟨0, Nat.one_pos⟩ : Fin 1) (i 1) (i 2)) (fun a => match a with
      | ⟨0, _⟩ => by show 0 = if (1 : Nat) = 1 then 0 else (i 0).val; rw [if_pos rfl]
      | ⟨1, _⟩ => by show (i 1).val = if (10 : Nat) = 1 then 0 else (i 1).val; rw [if_neg (by decide)]
      | ⟨2, _⟩ => by show (i 2).val = if (100 : Nat) = 1 then 0 else (i 2).val; rw [if_neg (by decide)])).trans ?_
    refine (broadcastInDim_apply _ bcast_S10x100_S1x10x100_1_2 _ _ (ix2 (i 1) (i 2)) (fun a => match a with
      | ⟨0, _⟩ => by show (i 1).val = if (10 : Nat) = 1 then 0 else (i 1).val; rw [if_neg (by decide)]
      | ⟨1, _⟩ => by show (i 2).val = if (100 : Nat) = 1 then 0 else (i 2).val; rw [if_neg (by decide)])).trans ?_
    refine (shapeCast_apply _ shapeCasts_S10x100x1x1_S10x100 _ (ix4 (i 1) (i 2) (⟨0, Nat.one_pos⟩ : Fin 1) (⟨0, Nat.one_pos⟩ : Fin 1))
      (by rewrite [Shape.rowMajor_val_four, Shape.rowMajor_val_two]
          show (((i 1).val * 100 + (i 2).val) * 1 + 0) * 1 + 0 = (i 1).val * 100 + (i 2).val; omega)).trans ?_
    exact extractStridedSlice_apply _ _ hs2 _ _ (fun a => match a with
      | ⟨0, _⟩ => by show (i 1).val = 0 + (i 1).val; omega
      | ⟨1, _⟩ => by show (i 2).val = 0 + (i 2).val; omega
      | ⟨2, _⟩ => by show di = di + 0; omega
      | ⟨3, _⟩ => by show dj = dj + 0; omega)
  show (extractStridedSlice S16384x10x100 ![0, di, dj] (Read.val_main_v0 (F := Ideal) x0) hs1 i) * _ = _
  rw [e1, e2, pad_eq]
  rfl

/-- The array the products are added to is zero. -/
theorem zeros_eq (i : S16384x10x100.Idx) : Read.val_main_v1 (F := Ideal) i = 0 := by
  rw [Read.val_main_v1_apply, Read.val_main_cst_apply]
  exact Ideal.ofBits_zero_f32

/-- The reference's pre-activation array, entry by entry. -/
theorem pre_eq (x0 : S16384x10x100.Idx → EReal) (x1 : S10x100x5x5.Idx → EReal) (i : S16384x10x100.Idx) :
    Read.val_main_v176 (F := Ideal) x0 x1 i = pre (padded (rowOf x0 (i 0))) (weightsOf x1) (i 1) (i 2) := by
  have t0 : Read.val_main_v7 (F := Ideal) x0 x1 i = tap (padded (rowOf x0 (i 0))) (weightsOf x1) (i 1) (i 2) 0 0 (by decide) (by decide) :=
    tap_eq 0 0 _ _ x0 x1 _ _ i
  have t1 : Read.val_main_v14 (F := Ideal) x0 x1 i = tap (padded (rowOf x0 (i 0))) (weightsOf x1) (i 1) (i 2) 0 1 (by decide) (by decide) :=
    tap_eq 0 1 _ _ x0 x1 _ _ i
  have t2 : Read.val_main_v21 (F := Ideal) x0 x1 i = tap (padded (rowOf x0 (i 0))) (weightsOf x1) (i 1) (i 2) 0 2 (by decide) (by decide) :=
    tap_eq 0 2 _ _ x0 x1 _ _ i
  have t3 : Read.val_main_v28 (F := Ideal) x0 x1 i = tap (padded (rowOf x0 (i 0))) (weightsOf x1) (i 1) (i 2) 0 3 (by decide) (by decide) :=
    tap_eq 0 3 _ _ x0 x1 _ _ i
  have t4 : Read.val_main_v35 (F := Ideal) x0 x1 i = tap (padded (rowOf x0 (i 0))) (weightsOf x1) (i 1) (i 2) 0 4 (by decide) (by decide) :=
    tap_eq 0 4 _ _ x0 x1 _ _ i
  have t5 : Read.val_main_v42 (F := Ideal) x0 x1 i = tap (padded (rowOf x0 (i 0))) (weightsOf x1) (i 1) (i 2) 1 0 (by decide) (by decide) :=
    tap_eq 1 0 _ _ x0 x1 _ _ i
  have t6 : Read.val_main_v49 (F := Ideal) x0 x1 i = tap (padded (rowOf x0 (i 0))) (weightsOf x1) (i 1) (i 2) 1 1 (by decide) (by decide) :=
    tap_eq 1 1 _ _ x0 x1 _ _ i
  have t7 : Read.val_main_v56 (F := Ideal) x0 x1 i = tap (padded (rowOf x0 (i 0))) (weightsOf x1) (i 1) (i 2) 1 2 (by decide) (by decide) :=
    tap_eq 1 2 _ _ x0 x1 _ _ i
  have t8 : Read.val_main_v63 (F := Ideal) x0 x1 i = tap (padded (rowOf x0 (i 0))) (weightsOf x1) (i 1) (i 2) 1 3 (by decide) (by decide) :=
    tap_eq 1 3 _ _ x0 x1 _ _ i
  have t9 : Read.val_main_v70 (F := Ideal) x0 x1 i = tap (padded (rowOf x0 (i 0))) (weightsOf x1) (i 1) (i 2) 1 4 (by decide) (by decide) :=
    tap_eq 1 4 _ _ x0 x1 _ _ i
  have t10 : Read.val_main_v77 (F := Ideal) x0 x1 i = tap (padded (rowOf x0 (i 0))) (weightsOf x1) (i 1) (i 2) 2 0 (by decide) (by decide) :=
    tap_eq 2 0 _ _ x0 x1 _ _ i
  have t11 : Read.val_main_v84 (F := Ideal) x0 x1 i = tap (padded (rowOf x0 (i 0))) (weightsOf x1) (i 1) (i 2) 2 1 (by decide) (by decide) :=
    tap_eq 2 1 _ _ x0 x1 _ _ i
  have t12 : Read.val_main_v91 (F := Ideal) x0 x1 i = tap (padded (rowOf x0 (i 0))) (weightsOf x1) (i 1) (i 2) 2 2 (by decide) (by decide) :=
    tap_eq 2 2 _ _ x0 x1 _ _ i
  have t13 : Read.val_main_v98 (F := Ideal) x0 x1 i = tap (padded (rowOf x0 (i 0))) (weightsOf x1) (i 1) (i 2) 2 3 (by decide) (by decide) :=
    tap_eq 2 3 _ _ x0 x1 _ _ i
  have t14 : Read.val_main_v105 (F := Ideal) x0 x1 i = tap (padded (rowOf x0 (i 0))) (weightsOf x1) (i 1) (i 2) 2 4 (by decide) (by decide) :=
    tap_eq 2 4 _ _ x0 x1 _ _ i
  have t15 : Read.val_main_v112 (F := Ideal) x0 x1 i = tap (padded (rowOf x0 (i 0))) (weightsOf x1) (i 1) (i 2) 3 0 (by decide) (by decide) :=
    tap_eq 3 0 _ _ x0 x1 _ _ i
  have t16 : Read.val_main_v119 (F := Ideal) x0 x1 i = tap (padded (rowOf x0 (i 0))) (weightsOf x1) (i 1) (i 2) 3 1 (by decide) (by decide) :=
    tap_eq 3 1 _ _ x0 x1 _ _ i
  have t17 : Read.val_main_v126 (F := Ideal) x0 x1 i = tap (padded (rowOf x0 (i 0))) (weightsOf x1) (i 1) (i 2) 3 2 (by decide) (by decide) :=
    tap_eq 3 2 _ _ x0 x1 _ _ i
  have t18 : Read.val_main_v133 (F := Ideal) x0 x1 i = tap (padded (rowOf x0 (i 0))) (weightsOf x1) (i 1) (i 2) 3 3 (by decide) (by decide) :=
    tap_eq 3 3 _ _ x0 x1 _ _ i
  have t19 : Read.val_main_v140 (F := Ideal) x0 x1 i = tap (padded (rowOf x0 (i 0))) (weightsOf x1) (i 1) (i 2) 3 4 (by decide) (by decide) :=
    tap_eq 3 4 _ _ x0 x1 _ _ i
  have t20 : Read.val_main_v147 (F := Ideal) x0 x1 i = tap (padded (rowOf x0 (i 0))) (weightsOf x1) (i 1) (i 2) 4 0 (by decide) (by decide) :=
    tap_eq 4 0 _ _ x0 x1 _ _ i
  have t21 : Read.val_main_v154 (F := Ideal) x0 x1 i = tap (padded (rowOf x0 (i 0))) (weightsOf x1) (i 1) (i 2) 4 1 (by decide) (by decide) :=
    tap_eq 4 1 _ _ x0 x1 _ _ i
  have t22 : Read.val_main_v161 (F := Ideal) x0 x1 i = tap (padded (rowOf x0 (i 0))) (weightsOf x1) (i 1) (i 2) 4 2 (by decide) (by decide) :=
    tap_eq 4 2 _ _ x0 x1 _ _ i
  have t23 : Read.val_main_v168 (F := Ideal) x0 x1 i = tap (padded (rowOf x0 (i 0))) (weightsOf x1) (i 1) (i 2) 4 3 (by decide) (by decide) :=
    tap_eq 4 3 _ _ x0 x1 _ _ i
  have t24 : Read.val_main_v175 (F := Ideal) x0 x1 i = tap (padded (rowOf x0 (i 0))) (weightsOf x1) (i 1) (i 2) 4 4 (by decide) (by decide) :=
    tap_eq 4 4 _ _ x0 x1 _ _ i
  simp only [Read.val_main_v8_apply, Read.val_main_v15_apply, Read.val_main_v22_apply, Read.val_main_v29_apply, Read.val_main_v36_apply, Read.val_main_v43_apply, Read.val_main_v50_apply, Read.val_main_v57_apply, Read.val_main_v64_apply, Read.val_main_v71_apply, Read.val_main_v78_apply, Read.val_main_v85_apply, Read.val_main_v92_apply, Read.val_main_v99_apply, Read.val_main_v106_apply, Read.val_main_v113_apply, Read.val_main_v120_apply, Read.val_main_v127_apply, Read.val_main_v134_apply, Read.val_main_v141_apply, Read.val_main_v148_apply, Read.val_main_v155_apply, Read.val_main_v162_apply, Read.val_main_v169_apply, Read.val_main_v176_apply, Ideal.addf_def]
  rw [zeros_eq, t0, t1, t2, t3, t4, t5, t6, t7, t8, t9, t10, t11, t12, t13, t14, t15, t16, t17, t18, t19, t20, t21, t22, t23, t24]
  rfl

/-- The reference's attention coefficients: 1 / (1 + exp (−pre)) is the logistic of the pre-activation. -/
theorem att_eq (x0 : S16384x10x100.Idx → EReal) (x1 : S10x100x5x5.Idx → EReal) (i : S16384x10x100.Idx) :
    Read.val_main_v182 (F := Ideal) x0 x1 i = att (padded (rowOf x0 (i 0))) (weightsOf x1) (i 1) (i 2) := by
  rw [Read.val_main_v182_apply, Read.val_main_v181_apply, Read.val_main_cst_1_apply, Read.val_main_v180_apply,
    Read.val_main_v179_apply, Read.val_main_cst_0_apply, Read.val_main_v178_apply, Read.val_main_v177_apply, pre_eq]
  simp only [Ideal.hostDivf_def, Ideal.addf_def, Ideal.hostUnary_exp_def, Ideal.hostNegf_def, Ideal.negf_def, Ideal.ofBits_def,
    ofBits_one_f32]
  rfl

end Cert.LocalAttention.Ref

end
-- ==== Proof.RefValue.lean ====
/-
  The reference's result, index by index: the function `G`.

  With the attention coefficients read (the pre-activation's logistic), row 0 of the result is the host's sum over the
  look-back rows of input × coefficient, from the initial value 0; row 1 is the sum of
  0 · sqrt (coefficient² + ε) + η · coefficient², whose first term is 0 on the extended reals whatever the square root
  is; the two rows are joined along the middle axis.
-/
import proofs.«112428_j16501264351338_2_alg».proof.Proof.RefTaps

set_option maxRecDepth 8192

noncomputable section

open scoped BigOperators

namespace Cert.LocalAttention.Ref

open Cert.ReferenceIdeal Cert.ReferenceIdeal.Gen Idealize.ShloMosaic Idealize.ShloMosaic.ValueIdx Cert.LocalAttention

/-- The reference's forecast row. -/
theorem forecast_eq (x0 : S16384x10x100.Idx → EReal) (x1 : S10x100x5x5.Idx → EReal) (b : Fin 16384) (j : Fin 100) :
    Read.val_main_v184 (F := Ideal) x0 x1 (ix2 b j) = forecast (rowOf x0 b) (weightsOf x1) j := by
  rw [Read.val_main_v184_apply, Read.val_main_cst_2_apply, Ideal.ofBits_def, Ideal.ofBits_zero_f32, zero_add]
  unfold forecast
  refine Finset.sum_congr rfl fun h _ => ?_
  have hk : Read.idx_main_v184 (ix2 b j) h = ix3 b h j := funext fun a => match a with
    | ⟨0, _⟩ => rfl
    | ⟨1, _⟩ => rfl
    | ⟨2, _⟩ => rfl
  rw [hk, Read.val_main_v183_apply, Ideal.mulf_def, att_eq]
  try rfl

/-- The reference's penalty row: the square-root term is multiplied by zero. -/
theorem penalty_eq (x0 : S16384x10x100.Idx → EReal) (x1 : S10x100x5x5.Idx → EReal) (b : Fin 16384) (j : Fin 100) :
    Read.val_main_v196 (F := Ideal) x0 x1 (ix2 b j) = penalty (rowOf x0 b) (weightsOf x1) j := by
  rw [Read.val_main_v196_apply, Read.val_main_cst_6_apply, Ideal.ofBits_def, Ideal.ofBits_zero_f32, zero_add]
  unfold penalty
  refine Finset.sum_congr rfl fun h _ => ?_
  have hk : Read.idx_main_v196 (ix2 b j) h = ix3 b h j := funext fun a => match a with
    | ⟨0, _⟩ => rfl
    | ⟨1, _⟩ => rfl
    | ⟨2, _⟩ => rfl
  rw [hk, Read.val_main_v195_apply, Read.val_main_v191_apply, Read.val_main_v190_apply, Read.val_main_cst_4_apply,
    Read.val_main_v194_apply, Read.val_main_v193_apply, Read.val_main_cst_5_apply, Read.val_main_v192_apply, att_eq]
  simp only [Ideal.mulf_def, Ideal.addf_def, Ideal.ofBits_def, Ideal.ofBits_zero_f32, zero_mul, zero_add]
  try rfl

/-- The reference's result is `G` of its arguments. -/
theorem result_eq (x0 : S16384x10x100.Idx → EReal) (x1 : S10x100x5x5.Idx → EReal) :
    Read.val_main_v198 (F := Ideal) x0 x1 = G x0 x1 := by
  funext i
  obtain ⟨b, s, j, rfl⟩ : ∃ (b : Fin 16384) (s : Fin 2) (j : Fin 100), i = ix3 b s j := ⟨i 0, i 1, i 2, eq_ix3 i⟩
  have hs : s.val < 2 := s.isLt
  unfold Read.val_main_v198 G
  by_cases h : s.val = 0
  · rw [if_pos (show ((ix3 b s j) 1).val = 0 from h)]
    refine (concatenate_pair_apply_left (t := S16384x2x100) (1 : Fin 3) _ _ concatenates_S16384x1x100_S16384x1x100_S16384x2x100_d1
      (ix3 b s j) rfl (ix3 b (⟨0, Nat.one_pos⟩ : Fin 1) j) (fun a => match a with
        | ⟨0, _⟩ => rfl
        | ⟨1, _⟩ => h.symm
        | ⟨2, _⟩ => rfl)).trans ?_
    rw [Read.val_main_v185_apply]
    have hk : Read.idx_main_v185 (ix3 b (⟨0, Nat.one_pos⟩ : Fin 1) j) = ix2 b j := funext fun a => match a with
      | ⟨0, _⟩ => rfl
      | ⟨1, _⟩ => rfl
    rw [hk]
    exact forecast_eq x0 x1 b j
  · rw [if_neg (show ¬((ix3 b s j) 1).val = 0 from h)]
    refine (concatenate_pair_apply_right (t := S16384x2x100) (1 : Fin 3) _ _ concatenates_S16384x1x100_S16384x1x100_S16384x2x100_d1
      (ix3 b s j) rfl rfl (ix3 b (⟨0, Nat.one_pos⟩ : Fin 1) j) (fun a ha => match a with
        | ⟨0, _⟩ => rfl
        | ⟨1, _⟩ => (ha (Fin.ext rfl)).elim
        | ⟨2, _⟩ => rfl)
      (by show 0 + 1 = s.val; omega)).trans ?_
    rw [Read.val_main_v197_apply]
    have hk : Read.idx_main_v197 (ix3 b (⟨0, Nat.one_pos⟩ : Fin 1) j) = ix2 b j := funext fun a => match a with
      | ⟨0, _⟩ => rfl
      | ⟨1, _⟩ => rfl
    rw [hk]
    exact penalty_eq x0 x1 b j

end Cert.LocalAttention.Ref

end
-- ==== Proof.KernelBlock.lean ====
/-
  The kernel's body, read at one element of the block it stores.

  A grid point holds 1024 batch entries (x0, indexed entry × row × age) and the whole weight array transposed to
  (di, dj, h, j) (x1).  The body transposes the block to row × entry × age, borders it with zeros by two concatenations
  (the padded block), and adds the 25 products of a slice of the padded block at offset (di, ·, dj) with the weights'
  (di, dj) plane laid over the entries: at (h, b, j) that is the pre-activation of entry b.  Its logistic gives the
  attention coefficients; the stored block has the forecast in columns 0–99 and the ridge penalty in columns 100–199.
-/
import proofs.«112428_j16501264351338_2_alg».proof.Proof.Gen.KernelIdeal.Skeleton
import proofs.«112428_j16501264351338_2_alg».proof.Proof.Spec
import Idealize.ShloMosaic.Lib.ValueIdx
import Idealize.ShloMosaic.Lib.Pipeline.Value
import Idealize.ShloMosaic.PureOps.Ideal.Laws

set_option maxRecDepth 16384

noncomputable section

open scoped BigOperators

namespace Cert.LocalAttention.Ker

open Cert.KernelIdeal Cert.KernelIdeal.Gen Idealize.ShloMosaic Idealize.ShloMosaic.ValueIdx Cert.LocalAttention

/-- Entry `b` of a block of 1024 batch entries. -/
abbrev rowOfBlock (x0 : FVec Ideal S1024x10x100 .f32) (b : Fin 1024) : Row := fun h j => x0 (ix3 b h j)
/-- The transposed weight array, indexed (di, dj, h, j), as the stencil. -/
abbrev weightsOfT (x1 : FVec Ideal S5x5x10x100 .f32) : Weights := fun h j di dj => x1 (ix4 di dj h j)

/-- The zero the body borders the block with. -/
theorem zero_eq : (Scalar.ofBits (F := Ideal) .f32 0x00000000#32 : EReal) = 0 := Ideal.ofBits_zero_f32

/-- The transposed block: row × entry × age. -/
theorem transposed_eq (x0 : FVec Ideal S1024x10x100 .f32) (h : Fin 10) (b : Fin 1024) (j : Fin 100) :
    k0_pay3 (F := Ideal) x0 (ix3 h b j) = x0 (ix3 b h j) := by
  unfold k0_pay3
  exact transpose_apply _ x0 transposes_S1024x10x100_p1_0_2_S10x1024x100 (ix3 h b j) (ix3 b h j) (fun a => match a with
    | ⟨0, _⟩ => rfl
    | ⟨1, _⟩ => rfl
    | ⟨2, _⟩ => rfl)

/-- The rows of the padded block: two zero rows above and below the transposed block. -/
theorem rows_eq (x0 : FVec Ideal S1024x10x100 .f32) (r : Fin 14) (b : Fin 1024) (j : Fin 100) :
    concatenate S14x1024x100 0 [⟨S2x1024x100, broadcast S2x1024x100 (Scalar.ofBits (F := Ideal) .f32 0x00000000#32)⟩,
        ⟨S10x1024x100, k0_pay3 (F := Ideal) x0⟩, ⟨S2x1024x100, broadcast S2x1024x100 (Scalar.ofBits (F := Ideal) .f32 0x00000000#32)⟩]
      concatenates_S2x1024x100_S10x1024x100_S2x1024x100_S14x1024x100_d0 (ix3 r b j)
    = if h : 2 ≤ r.val ∧ r.val < 12 then x0 (ix3 b (⟨r.val - 2, by omega⟩ : Fin 10) j) else 0 := by
  have hr : r.val < 14 := r.isLt
  by_cases h : 2 ≤ r.val ∧ r.val < 12
  · rw [dif_pos h]
    refine (concatenate_apply_piece (t := S14x1024x100) (0 : Fin 3) [⟨S2x1024x100, broadcast S2x1024x100 (Scalar.ofBits (F := Ideal) .f32 0x00000000#32)⟩, ⟨S10x1024x100, k0_pay3 (F := Ideal) x0⟩, ⟨S2x1024x100, broadcast S2x1024x100 (Scalar.ofBits (F := Ideal) .f32 0x00000000#32)⟩] concatenates_S2x1024x100_S10x1024x100_S2x1024x100_S14x1024x100_d0 (ix3 r b j)
      1 (by show _ < 3; decide) S10x1024x100 (k0_pay3 (F := Ideal) x0) rfl rfl 2 rfl (ix3 (⟨r.val - 2, by omega⟩ : Fin 10) b j)
      (fun a ha => match a with
        | ⟨0, _⟩ => (ha (Fin.ext rfl)).elim
        | ⟨1, _⟩ => rfl
        | ⟨2, _⟩ => rfl)
      (by show 2 + (r.val - 2) = r.val; omega)).trans ?_
    exact transposed_eq x0 _ b j
  · rw [dif_neg h]
    by_cases h2 : r.val < 2
    · refine (concatenate_apply_piece (t := S14x1024x100) (0 : Fin 3) [⟨S2x1024x100, broadcast S2x1024x100 (Scalar.ofBits (F := Ideal) .f32 0x00000000#32)⟩, ⟨S10x1024x100, k0_pay3 (F := Ideal) x0⟩, ⟨S2x1024x100, broadcast S2x1024x100 (Scalar.ofBits (F := Ideal) .f32 0x00000000#32)⟩] concatenates_S2x1024x100_S10x1024x100_S2x1024x100_S14x1024x100_d0 (ix3 r b j)
        0 (by show _ < 3; decide) S2x1024x100 _ rfl rfl 0 rfl (ix3 (⟨r.val, h2⟩ : Fin 2) b j)
        (fun a ha => match a with
          | ⟨0, _⟩ => (ha (Fin.ext rfl)).elim
          | ⟨1, _⟩ => rfl
          | ⟨2, _⟩ => rfl)
        (by show 0 + r.val = r.val; omega)).trans ?_
      exact zero_eq
    · refine (concatenate_apply_piece (t := S14x1024x100) (0 : Fin 3) [⟨S2x1024x100, broadcast S2x1024x100 (Scalar.ofBits (F := Ideal) .f32 0x00000000#32)⟩, ⟨S10x1024x100, k0_pay3 (F := Ideal) x0⟩, ⟨S2x1024x100, broadcast S2x1024x100 (Scalar.ofBits (F := Ideal) .f32 0x00000000#32)⟩] concatenates_S2x1024x100_S10x1024x100_S2x1024x100_S14x1024x100_d0 (ix3 r b j)
        2 (by show _ < 3; decide) S2x1024x100 _ rfl rfl 12 rfl (ix3 (⟨r.val - 12, by omega⟩ : Fin 2) b j)
        (fun a ha => match a with
          | ⟨0, _⟩ => (ha (Fin.ext rfl)).elim
          | ⟨1, _⟩ => rfl
          | ⟨2, _⟩ => rfl)
        (by show 12 + (r.val - 12) = r.val; omega)).trans ?_
      exact zero_eq

/-- The padded block at (r, b, c) is the zero-bordered entry b at (r, c). -/
theorem padded_eq (x0 : FVec Ideal S1024x10x100 .f32) (r : Fin 14) (b : Fin 1024) (c : Fin 104) :
    k0_pay4 (F := Ideal) x0 (ix3 r b c) = padded (rowOfBlock x0 b) r c := by
  have hc : c.val < 104 := c.isLt
  unfold k0_pay4 padded
  by_cases h : 2 ≤ c.val ∧ c.val < 102
  · refine (concatenate_apply_piece (t := S14x1024x104) (2 : Fin 3) [⟨S14x1024x2, broadcast S14x1024x2 (Scalar.ofBits (F := Ideal) .f32 0x00000000#32)⟩, ⟨S14x1024x100, concatenate S14x1024x100 0 [⟨S2x1024x100, broadcast S2x1024x100 (Scalar.ofBits (F := Ideal) .f32 0x00000000#32)⟩, ⟨S10x1024x100, k0_pay3 (F := Ideal) x0⟩, ⟨S2x1024x100, broadcast S2x1024x100 (Scalar.ofBits (F := Ideal) .f32 0x00000000#32)⟩] concatenates_S2x1024x100_S10x1024x100_S2x1024x100_S14x1024x100_d0⟩, ⟨S14x1024x2, broadcast S14x1024x2 (Scalar.ofBits (F := Ideal) .f32 0x00000000#32)⟩] concatenates_S14x1024x2_S14x1024x100_S14x1024x2_S14x1024x104_d2 (ix3 r b c)
      1 (by show _ < 3; decide) S14x1024x100 _ rfl rfl 2 rfl (ix3 r b (⟨c.val - 2, by omega⟩ : Fin 100))
      (fun a ha => match a with
        | ⟨0, _⟩ => rfl
        | ⟨1, _⟩ => rfl
        | ⟨2, _⟩ => (ha (Fin.ext rfl)).elim)
      (by show 2 + (c.val - 2) = c.val; omega)).trans ?_
    rw [rows_eq]
    by_cases hr : 2 ≤ r.val ∧ r.val < 12
    · rw [dif_pos hr, dif_pos ⟨hr, h⟩]
    · rw [dif_neg hr, dif_neg (fun hh => hr hh.1)]
  · rw [dif_neg (fun hh => h hh.2)]
    by_cases h2 : c.val < 2
    · refine (concatenate_apply_piece (t := S14x1024x104) (2 : Fin 3) [⟨S14x1024x2, broadcast S14x1024x2 (Scalar.ofBits (F := Ideal) .f32 0x00000000#32)⟩, ⟨S14x1024x100, concatenate S14x1024x100 0 [⟨S2x1024x100, broadcast S2x1024x100 (Scalar.ofBits (F := Ideal) .f32 0x00000000#32)⟩, ⟨S10x1024x100, k0_pay3 (F := Ideal) x0⟩, ⟨S2x1024x100, broadcast S2x1024x100 (Scalar.ofBits (F := Ideal) .f32 0x00000000#32)⟩] concatenates_S2x1024x100_S10x1024x100_S2x1024x100_S14x1024x100_d0⟩, ⟨S14x1024x2, broadcast S14x1024x2 (Scalar.ofBits (F := Ideal) .f32 0x00000000#32)⟩] concatenates_S14x1024x2_S14x1024x100_S14x1024x2_S14x1024x104_d2 (ix3 r b c)
        0 (by show _ < 3; decide) S14x1024x2 _ rfl rfl 0 rfl (ix3 r b (⟨c.val, h2⟩ : Fin 2))
        (fun a ha => match a with
          | ⟨0, _⟩ => rfl
          | ⟨1, _⟩ => rfl
          | ⟨2, _⟩ => (ha (Fin.ext rfl)).elim)
        (by show 0 + c.val = c.val; omega)).trans ?_
      exact zero_eq
    · refine (concatenate_apply_piece (t := S14x1024x104) (2 : Fin 3) [⟨S14x1024x2, broadcast S14x1024x2 (Scalar.ofBits (F := Ideal) .f32 0x00000000#32)⟩, ⟨S14x1024x100, concatenate S14x1024x100 0 [⟨S2x1024x100, broadcast S2x1024x100 (Scalar.ofBits (F := Ideal) .f32 0x00000000#32)⟩, ⟨S10x1024x100, k0_pay3 (F := Ideal) x0⟩, ⟨S2x1024x100, broadcast S2x1024x100 (Scalar.ofBits (F := Ideal) .f32 0x00000000#32)⟩] concatenates_S2x1024x100_S10x1024x100_S2x1024x100_S14x1024x100_d0⟩, ⟨S14x1024x2, broadcast S14x1024x2 (Scalar.ofBits (F := Ideal) .f32 0x00000000#32)⟩] concatenates_S14x1024x2_S14x1024x100_S14x1024x2_S14x1024x104_d2 (ix3 r b c)
        2 (by show _ < 3; decide) S14x1024x2 _ rfl rfl 102 rfl (ix3 r b (⟨c.val - 102, by omega⟩ : Fin 2))
        (fun a ha => match a with
          | ⟨0, _⟩ => rfl
          | ⟨1, _⟩ => rfl
          | ⟨2, _⟩ => (ha (Fin.ext rfl)).elim)
        (by show 102 + (c.val - 102) = c.val; omega)).trans ?_
      exact zero_eq

/-- A slice of the padded block at offset (di, ·, dj), read at (h, b, j). -/
theorem slice_eq (di dj : ℕ) (v7 : FVec Ideal S14x1024x104 .f32) (hs : S14x1024x104.Slices ![di, 0, dj] S10x1024x100)
    (h : Fin 10) (b : Fin 1024) (j : Fin 100) :
    extractStridedSlice S10x1024x100 ![di, 0, dj] v7 hs (ix3 h b j)
      = v7 (ix3 (⟨h.val + di, by have h0 : di + 10 ≤ 14 := hs.2 (0 : Fin 3); have := h.isLt; omega⟩ : Fin 14) b
          (⟨j.val + dj, by have h2 : dj + 100 ≤ 104 := hs.2 (2 : Fin 3); have := j.isLt; omega⟩ : Fin 104)) :=
  extractStridedSlice_apply _ v7 hs (ix3 h b j) _ (fun a => match a with
    | ⟨0, _⟩ => by show h.val + di = di + h.val; omega
    | ⟨1, _⟩ => by show b.val = 0 + b.val; omega
    | ⟨2, _⟩ => by show j.val + dj = dj + j.val; omega)

/-- The weights' (di, dj) plane, laid over the entries, read at (h, b, j). -/
theorem plane_eq (di dj : ℕ) (v2 : FVec Ideal S5x5x10x100 .f32) (hs : S5x5x10x100.Slices ![di, dj, 0, 0] S1x1x10x100)
    (h : Fin 10) (b : Fin 1024) (j : Fin 100) :
    broadcastTo S10x1024x100 (shapeCast S10x1x100 (shapeCast S10x100 (extractStridedSlice S1x1x10x100 ![di, dj, 0, 0] v2 hs)
        shapeCasts_S1x1x10x100_S10x100) shapeCasts_S10x100_S10x1x100) broadcasts_S10x1x100_S10x1024x100 (ix3 h b j)
      = v2 (ix4 (⟨di, by have h0 : di + 1 ≤ 5 := hs.2 (0 : Fin 4); omega⟩ : Fin 5)
          (⟨dj, by have h1 : dj + 1 ≤ 5 := hs.2 (1 : Fin 4); omega⟩ : Fin 5) h j) := by
  have hh : h.val < 10 := h.isLt
  have hj : j.val < 100 := j.isLt
  refine (broadcastTo_apply _ broadcasts_S10x1x100_S10x1024x100 (ix3 h b j) (ix3 h (⟨0, Nat.one_pos⟩ : Fin 1) j) (fun a => match a with
    | ⟨0, _⟩ => by show h.val = if (10 : Nat) = 1 then 0 else h.val; rw [if_neg (by decide)]
    | ⟨1, _⟩ => by show 0 = if (1 : Nat) = 1 then 0 else b.val; rw [if_pos rfl]
    | ⟨2, _⟩ => by show j.val = if (100 : Nat) = 1 then 0 else j.val; rw [if_neg (by decide)])).trans ?_
  refine (shapeCast_apply _ shapeCasts_S10x100_S10x1x100 _ (ix2 h j)
    (by rewrite [Shape.rowMajor_val_two, Shape.rowMajor_val_three]
        show h.val * 100 + j.val = (h.val * 1 + 0) * 100 + j.val; omega)).trans ?_
  refine (shapeCast_apply _ shapeCasts_S1x1x10x100_S10x100 _ (ix4 (⟨0, Nat.one_pos⟩ : Fin 1) (⟨0, Nat.one_pos⟩ : Fin 1) h j)
    (by rewrite [Shape.rowMajor_val_four, Shape.rowMajor_val_two]
        show ((0 * 1 + 0) * 10 + h.val) * 100 + j.val = h.val * 100 + j.val; omega)).trans ?_
  exact extractStridedSlice_apply _ v2 hs _ _ (fun a => match a with
    | ⟨0, _⟩ => by show di = di + 0; omega
    | ⟨1, _⟩ => by show dj = dj + 0; omega
    | ⟨2, _⟩ => by show h.val = 0 + h.val; omega
    | ⟨3, _⟩ => by show j.val = 0 + j.val; omega)

/-! ## The pre-activation, the attention coefficients and the stored block -/

/-- The body's pre-activation array: the last of its 25 running sums (the running sums up to the product at (4, 2) are
    the body's earlier values; the products at (4, 3) and (4, 4) are added last). -/
def preK (x0 : FVec Ideal S1024x10x100 .f32) (x1 : FVec Ideal S5x5x10x100 .f32) : FVec Ideal S10x1024x100 .f32 :=
  addf (addf (addf (k0_pay11 (k0_pay2 (F := Ideal) x1) (k0_pay4 (F := Ideal) x0) (k0_pay8 (k0_pay2 (F := Ideal) x1) (k0_pay4 (F := Ideal) x0) (k0_pay5 (F := Ideal) x0 x1) (k0_pay6 (F := Ideal) x0) (k0_pay7 (F := Ideal) x1)) (k0_pay9 (k0_pay4 (F := Ideal) x0)) (k0_pay10 (k0_pay2 (F := Ideal) x1))) (k0_pay12 (k0_pay2 (F := Ideal) x1) (k0_pay4 (F := Ideal) x0)))
    (mulf (extractStridedSlice S10x1024x100 ![4, 0, 3] (k0_pay4 (F := Ideal) x0) slices_S14x1024x104_o4_0_3_S10x1024x100) (broadcastTo S10x1024x100 (shapeCast S10x1x100 (shapeCast S10x100 (extractStridedSlice S1x1x10x100 ![4, 3, 0, 0] (k0_pay2 (F := Ideal) x1) slices_S5x5x10x100_o4_3_0_0_S1x1x10x100) shapeCasts_S1x1x10x100_S10x100) shapeCasts_S10x100_S10x1x100) broadcasts_S10x1x100_S10x1024x100)))
    (mulf (extractStridedSlice S10x1024x100 ![4, 0, 4] (k0_pay4 (F := Ideal) x0) slices_S14x1024x104_o4_0_4_S10x1024x100) (broadcastTo S10x1024x100 (shapeCast S10x1x100 (shapeCast S10x100 (extractStridedSlice S1x1x10x100 ![4, 4, 0, 0] (k0_pay2 (F := Ideal) x1) slices_S5x5x10x100_o4_4_0_0_S1x1x10x100) shapeCasts_S1x1x10x100_S10x100) shapeCasts_S10x100_S10x1x100) broadcasts_S10x1x100_S10x1024x100))

/-- The body's pre-activation at (h, b, j) is the pre-activation of entry b at (h, j). -/
theorem preK_apply (x0 : FVec Ideal S1024x10x100 .f32) (x1 : FVec Ideal S5x5x10x100 .f32) (h : Fin 10) (b : Fin 1024) (j : Fin 100) :
    preK x0 x1 (ix3 h b j) = pre (padded (rowOfBlock x0 b)) (weightsOfT x1) h j := by
  unfold preK k0_pay11 k0_pay12 k0_pay8 k0_pay5 k0_pay6 k0_pay7 k0_pay9 k0_pay10 k0_pay2
  simp only [addf_apply, mulf_apply, broadcast_apply, slice_eq, plane_eq, padded_eq, shapeCast_self, zero_eq]
  rfl

/-- What the body stores: forecast and penalty side by side. -/
theorem stored_eq (x0 : FVec Ideal S1024x10x100 .f32) (x1 : FVec Ideal S5x5x10x100 .f32) :
    k0_pay1 (k0_pay2 (F := Ideal) x1) (k0_pay3 (F := Ideal) x0) (k0_pay4 (F := Ideal) x0) (k0_pay11 (k0_pay2 (F := Ideal) x1) (k0_pay4 (F := Ideal) x0) (k0_pay8 (k0_pay2 (F := Ideal) x1) (k0_pay4 (F := Ideal) x0) (k0_pay5 (F := Ideal) x0 x1) (k0_pay6 (F := Ideal) x0) (k0_pay7 (F := Ideal) x1)) (k0_pay9 (k0_pay4 (F := Ideal) x0)) (k0_pay10 (k0_pay2 (F := Ideal) x1))) (k0_pay12 (k0_pay2 (F := Ideal) x1) (k0_pay4 (F := Ideal) x0))
    = concatenate S1024x200 1
        [⟨S1024x100, multiReduction .add [0] S1024x100 (mulf (k0_pay3 (F := Ideal) x0) (logistic (preK x0 x1))) 0x00000000#32
            reduces_S10x1024x100_S1024x100 (.inl rfl) rfl⟩,
         ⟨S1024x100, multiReduction .add [0] S1024x100
            (mulf (broadcast S10x1024x100 (Scalar.ofBits (F := Ideal) .f32 0x3C23D70A#32)) (mulf (logistic (preK x0 x1)) (logistic (preK x0 x1))))
            0x00000000#32 reduces_S10x1024x100_S1024x100 (.inl rfl) rfl⟩]
        concatenates_S1024x100_S1024x100_S1024x200_d1 := rfl

/-- The coordinate inserted by the sum over the rows. -/
theorem lift_eq (b : Fin 1024) (j : Fin 100) (h : Fin 10) :
    reduces_S10x1024x100_S1024x100.lift (ix2 b j) h = ix3 h b j :=
  funext fun a => Fin.ext (match a with
    | ⟨0, _⟩ => rfl
    | ⟨1, _⟩ => rfl
    | ⟨2, _⟩ => rfl)

/-- The forecast half of the stored block. -/
theorem forecastK_apply (x0 : FVec Ideal S1024x10x100 .f32) (x1 : FVec Ideal S5x5x10x100 .f32) (b : Fin 1024) (j : Fin 100) :
    multiReduction .add [0] S1024x100 (mulf (k0_pay3 (F := Ideal) x0) (logistic (preK x0 x1))) 0x00000000#32
        reduces_S10x1024x100_S1024x100 (.inl rfl) rfl (ix2 b j)
      = forecast (rowOfBlock x0 b) (weightsOfT x1) j := by
  refine (Ideal.multiReduction_add_single _ 0x00000000#32 reduces_S10x1024x100_S1024x100 (.inl rfl) rfl (ix2 b j)).trans ?_
  unfold forecast
  show (∑ h : Fin 10, mulf (k0_pay3 (F := Ideal) x0) (logistic (preK x0 x1)) (reduces_S10x1024x100_S1024x100.lift (ix2 b j) h)) = _
  refine Finset.sum_congr rfl fun h _ => ?_
  rw [lift_eq]
  show k0_pay3 (F := Ideal) x0 (ix3 h b j) * Ideal.logistic (preK x0 x1 (ix3 h b j)) = _
  rw [transposed_eq, preK_apply]
  rfl

/-- The penalty half of the stored block. -/
theorem penaltyK_apply (x0 : FVec Ideal S1024x10x100 .f32) (x1 : FVec Ideal S5x5x10x100 .f32) (b : Fin 1024) (j : Fin 100) :
    multiReduction .add [0] S1024x100
        (mulf (broadcast S10x1024x100 (Scalar.ofBits (F := Ideal) .f32 0x3C23D70A#32)) (mulf (logistic (preK x0 x1)) (logistic (preK x0 x1))))
        0x00000000#32 reduces_S10x1024x100_S1024x100 (.inl rfl) rfl (ix2 b j)
      = penalty (rowOfBlock x0 b) (weightsOfT x1) j := by
  refine (Ideal.multiReduction_add_single _ 0x00000000#32 reduces_S10x1024x100_S1024x100 (.inl rfl) rfl (ix2 b j)).trans ?_
  unfold penalty
  show (∑ h : Fin 10, mulf (broadcast S10x1024x100 (Scalar.ofBits (F := Ideal) .f32 0x3C23D70A#32)) (mulf (logistic (preK x0 x1)) (logistic (preK x0 x1)))
    (reduces_S10x1024x100_S1024x100.lift (ix2 b j) h)) = _
  refine Finset.sum_congr rfl fun h _ => ?_
  rw [lift_eq]
  show eta * (Ideal.logistic (preK x0 x1 (ix3 h b j)) * Ideal.logistic (preK x0 x1 (ix3 h b j))) = _
  rw [preK_apply]
  rfl

/-- The stored block, element by element: entry b's forecast in columns 0–99, its penalty in columns 100–199. -/
theorem stored_apply (x0 : FVec Ideal S1024x10x100 .f32) (x1 : FVec Ideal S5x5x10x100 .f32) (b : Fin 1024) (c : Fin 200) :
    k0_pay1 (k0_pay2 (F := Ideal) x1) (k0_pay3 (F := Ideal) x0) (k0_pay4 (F := Ideal) x0) (k0_pay11 (k0_pay2 (F := Ideal) x1) (k0_pay4 (F := Ideal) x0) (k0_pay8 (k0_pay2 (F := Ideal) x1) (k0_pay4 (F := Ideal) x0) (k0_pay5 (F := Ideal) x0 x1) (k0_pay6 (F := Ideal) x0) (k0_pay7 (F := Ideal) x1)) (k0_pay9 (k0_pay4 (F := Ideal) x0)) (k0_pay10 (k0_pay2 (F := Ideal) x1))) (k0_pay12 (k0_pay2 (F := Ideal) x1) (k0_pay4 (F := Ideal) x0)) (ix2 b c)
    = if hc : c.val < 100 then forecast (rowOfBlock x0 b) (weightsOfT x1) ⟨c.val, hc⟩
      else penalty (rowOfBlock x0 b) (weightsOfT x1) ⟨c.val - 100, by have := c.isLt; omega⟩ := by
  have hc200 : c.val < 200 := c.isLt
  rw [stored_eq]
  by_cases hc : c.val < 100
  · rw [dif_pos hc]
    refine (concatenate_pair_apply_left (t := S1024x200) (1 : Fin 2) _ _ concatenates_S1024x100_S1024x100_S1024x200_d1 (ix2 b c) rfl
      (ix2 b (⟨c.val, hc⟩ : Fin 100)) (fun a => match a with
        | ⟨0, _⟩ => rfl
        | ⟨1, _⟩ => rfl)).trans ?_
    exact forecastK_apply x0 x1 b _
  · rw [dif_neg hc]
    refine (concatenate_pair_apply_right (t := S1024x200) (1 : Fin 2) _ _ concatenates_S1024x100_S1024x100_S1024x200_d1 (ix2 b c) rfl rfl
      (ix2 b (⟨c.val - 100, by omega⟩ : Fin 100)) (fun a ha => match a with
        | ⟨0, _⟩ => rfl
        | ⟨1, _⟩ => (ha (Fin.ext rfl)).elim)
      (by show (c.val - 100) + 100 = c.val; omega)).trans ?_
    exact penaltyK_apply x0 x1 b _

end Cert.LocalAttention.Ker

end
-- ==== Proof.KernelArray.lean ====
/-
  From the blocks to the array, and through the host's reshape.

  Grid point t stages batch entries 1024·t … 1024·t + 1023 and the whole transposed weight array, and writes back rows
  1024·t … of the entry × 200 result; the 16 blocks tile it.  So the array the region leaves is the flat layout of the
  result, and the host's reshape to entry × 2 × 100 turns column s·100 + j into row s, age j: the function `G`.
-/
import proofs.«112428_j16501264351338_2_alg».proof.Proof.Gen.KernelIdeal.Frame
import proofs.«112428_j16501264351338_2_alg».proof.Proof.KernelBlock
import Idealize.ShloMosaic.Lib.Pipeline.Value
import Idealize.ShloMosaic.Lib.StableHlo.Run

set_option maxRecDepth 16384

noncomputable section

namespace Cert.LocalAttention.Ker

open Cert.KernelIdeal Cert.KernelIdeal.Gen Idealize.ShloMosaic Idealize.ShloMosaic.TcCoe Idealize.SL.Sem
open Idealize.ShloMosaic.ValueIdx Cert.LocalAttention
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The index maps, decided over the 16 grid points: the input block and the output block of point t are block t along the
    batch axis; the weights' block is the whole array. -/
theorem idx_facts : ∀ t : Fin cfg0.N, win0_0.index t (0 : Fin 3) = t.val ∧ win0_0.index t (1 : Fin 3) = 0 ∧ win0_0.index t (2 : Fin 3) = 0
    ∧ win0_1.index t (0 : Fin 4) = 0 ∧ win0_1.index t (1 : Fin 4) = 0 ∧ win0_1.index t (2 : Fin 4) = 0 ∧ win0_1.index t (3 : Fin 4) = 0
    ∧ win0_2.index t (0 : Fin 2) = t.val ∧ win0_2.index t (1 : Fin 2) = 0 :=
  (by decide +kernel : ∀ t : Fin grid0.N, _)

/-- Every block row of the result is some point's. -/
theorem idx_onto : ∀ q : Fin 16, ∃ t : Fin cfg0.N, win0_2.index t = ![q.val, 0] :=
  (by decide +kernel : ∀ q : Fin 16, ∃ t : Fin grid0.N, win0_2.index t = ![q.val, 0])

/-- The weights as the region finds them: the host's transposition of the weight argument to (di, dj, h, j). -/
theorem V_weights (c : Dev nD) :
    (V m c main_v0 : S5x5x10x100.Idx → EReal)
      = transpose S5x5x10x100 [2, 3, 0, 1] (m ((c : Thread nD τ).loc main_arg1)) transposes_S10x100x5x5_S5x5x10x100_2_3_0_1 := by
  show StableHlo.after hostOps0 (fun b => m (c, b)) (Proc.devRef .tc main_v0) = _
  after_results

/-- Entry b of point t's input block is entry 1024·t + b of the input array. -/
theorem inputBlock_eq (c : Dev nD) (t : Fin cfg0.N) (b : Fin 1024) :
    rowOfBlock (iblk m c 0 t) b
      = rowOf (m ((c : Thread nD τ).loc main_arg0)) (⟨t.val * 1024 + b.val, by have h : t.val < 16 := N_0 ▸ t.isLt; have := b.isLt; omega⟩ : Fin 16384) := by
  obtain ⟨e0, e1, e2, -⟩ := idx_facts t
  funext h j
  rw [← V_main_arg0 m c]
  show V m c main_arg0 (((cfg0.win 0).blk t).view.emb (ix3 b h j)) = V m c main_arg0 _
  refine congrArg (V m c main_arg0) (funext fun a => Fin.ext ?_)
  match a with
  | ⟨0, _⟩ => show win0_0.index t (0 : Fin 3) * 1024 + 1 * b.val = t.val * 1024 + b.val; omega
  | ⟨1, _⟩ => show win0_0.index t (1 : Fin 3) * 10 + 1 * h.val = h.val; omega
  | ⟨2, _⟩ => show win0_0.index t (2 : Fin 3) * 100 + 1 * j.val = j.val; omega

/-- Every point's weight block is the weight argument, read (di, dj, h, j) for (h, j, di, dj). -/
theorem weightBlock_eq (c : Dev nD) (t : Fin cfg0.N) :
    weightsOfT (iblk m c 1 t) = weightsOf (m ((c : Thread nD τ).loc main_arg1)) := by
  obtain ⟨-, -, -, e0, e1, e2, e3, -⟩ := idx_facts t
  funext h j di dj
  show V m c main_v0 (((cfg0.win 1).blk t).view.emb (ix4 di dj h j)) = _
  have he : ((cfg0.win 1).blk t).view.emb (ix4 di dj h j) = ix4 di dj h j := funext fun a => Fin.ext (by
    match a with
    | ⟨0, _⟩ => show win0_1.index t (0 : Fin 4) * 5 + 1 * di.val = di.val; omega
    | ⟨1, _⟩ => show win0_1.index t (1 : Fin 4) * 5 + 1 * dj.val = dj.val; omega
    | ⟨2, _⟩ => show win0_1.index t (2 : Fin 4) * 10 + 1 * h.val = h.val; omega
    | ⟨3, _⟩ => show win0_1.index t (3 : Fin 4) * 100 + 1 * j.val = j.val; omega)
  rw [he]
  have hv := congrFun (V_weights m c) (ix4 di dj h j)
  refine hv.trans ?_
  exact transpose_apply _ _ transposes_S10x100x5x5_S5x5x10x100_2_3_0_1 (ix4 di dj h j) (ix4 h j di dj) (fun a => match a with
    | ⟨0, _⟩ => rfl
    | ⟨1, _⟩ => rfl
    | ⟨2, _⟩ => rfl
    | ⟨3, _⟩ => rfl)

/-- WHAT POINT t WRITES BACK is block t of the flat result. -/
theorem flushed_eq (c : Dev nD) (t : Fin cfg0.N) :
    (dats m 0 c).flushed 2 t
      = ((cfg0.win 2).blk t).view.read (Elt Ideal) (flat (m ((c : Thread nD τ).loc main_arg0)) (m ((c : Thread nD τ).loc main_arg1))) := by
  show (cfg0.win 2).cut (grid0.coords t) ((dats m 0 c).after 2 t) = _
  rw [after0_2]
  unfold out0_2
  rw [View.canon_unit_zero hz2]
  simp only [View.ld_unit_zero (S := S1024x10x100) hz3, View.ld_unit_zero (S := S5x5x10x100) hz4]
  obtain ⟨-, -, -, -, -, -, -, e0, e1⟩ := idx_facts t
  have ht : t.val < 16 := N_0 ▸ t.isLt
  funext y
  obtain ⟨b, cc, rfl⟩ : ∃ (b : Fin 1024) (cc : Fin 200), y = ix2 b cc := ⟨y 0, y 1, eq_ix2 y⟩
  have hb : b.val < 1024 := b.isLt
  have hcc : cc.val < 200 := cc.isLt
  refine (stored_apply (iblk m c 0 t) (iblk m c 1 t) b cc).trans ?_
  rw [inputBlock_eq m c t b, weightBlock_eq m c t]
  show _ = flat (m ((c : Thread nD τ).loc main_arg0)) (m ((c : Thread nD τ).loc main_arg1)) (((cfg0.win 2).blk t).view.emb (ix2 b cc))
  have he : ((cfg0.win 2).blk t).view.emb (ix2 b cc) = ix2 (⟨t.val * 1024 + b.val, by omega⟩ : Fin 16384) cc := funext fun a => Fin.ext (by
    match a with
    | ⟨0, _⟩ => show win0_2.index t (0 : Fin 2) * 1024 + 1 * b.val = t.val * 1024 + b.val; omega
    | ⟨1, _⟩ => show win0_2.index t (1 : Fin 2) * 200 + 1 * cc.val = cc.val; omega)
  rw [he]
  rfl

/-- An index of the result is in point t's block iff each coordinate is in the block's range. -/
theorem mem_blk (t : Fin cfg0.N) (i : S16384x200.Idx) :
    i ∈ ((cfg0.win 2).blk t).view.set ↔ ∀ a : Fin 2, win0_2.index t a * S1024x200.size a ≤ (i a).val
      ∧ (i a).val < win0_2.index t a * S1024x200.size a + S1024x200.size a := by
  show i ∈ ((View.whole main_v1).slice (win0_2.rect t)).set ↔ _
  rw [View.set_slice_whole, Rect.mem_set_unit]
  exact Iff.rfl

/-- The 16 blocks cover the result: row r is in block r / 1024. -/
theorem cover (i : S16384x200.Idx) : ∃ t : Fin cfg0.N, (cfg0.win 2).flush t = true ∧ i ∈ ((cfg0.win 2).blk t).view.set := by
  have hi0 : (i 0).val < 16384 := (i 0).isLt
  have hi1 : (i 1).val < 200 := (i 1).isLt
  obtain ⟨t, ht⟩ := idx_onto ⟨(i 0).val / 1024, by omega⟩
  have q0 : win0_2.index t (0 : Fin 2) = (i 0).val / 1024 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 200 ≤ (i 1).val ∧ (i 1).val < win0_2.index t (1 : Fin 2) * 200 + 200; omega

/-- THE ARRAY the region leaves: the flat result. -/
theorem final (c : Dev nD) :
    (dats m 0 c).arrAt 2 cfg0.N = flat (m ((c : Thread nD τ).loc main_arg0)) (m ((c : Thread nD τ).loc main_arg1)) :=
  (dats m 0 c).arrAt_eq_of_cover 2 _ (fun t _ => flushed_eq m c t) cover

/-- The flat result reshaped to entry × 2 × 100 is `G`. -/
theorem reshaped_eq (x : S16384x10x100.Idx → EReal) (w : S10x100x5x5.Idx → EReal) :
    shapeCast S16384x2x100 (flat x w) shapeCasts_S16384x200_S16384x2x100 = G x w := by
  funext i
  obtain ⟨b, s, j, rfl⟩ : ∃ (b : Fin 16384) (s : Fin 2) (j : Fin 100), i = ix3 b s j := ⟨i 0, i 1, i 2, eq_ix3 i⟩
  have hb : b.val < 16384 := b.isLt
  have hs : s.val < 2 := s.isLt
  have hj : j.val < 100 := j.isLt
  refine (shapeCast_apply _ shapeCasts_S16384x200_S16384x2x100 (ix3 b s j) (ix2 b (⟨s.val * 100 + j.val, by omega⟩ : Fin 200))
    (by rewrite [Shape.rowMajor_val_two, Shape.rowMajor_val_three]
        show b.val * 200 + (s.val * 100 + j.val) = (b.val * 2 + s.val) * 100 + j.val; omega)).trans ?_
  exact flat_reshape x w b s j

/-- The result buffer after the host's reshape. -/
theorem tail_eq (c : Dev nD) :
    Pipeline.afterTail₀ cfgs (dats m) 0 (V0 m) [hostOps1] c main_v2
      = G (m ((c : Thread nD τ).loc main_arg0)) (m ((c : Thread nD τ).loc main_arg1)) := by
  unfold Pipeline.afterTail₀
  show StableHlo.after hostOps1 _ (Proc.devRef .tc main_v2) = _
  after_results
  rw [Pipeline.withArrays_arr spec0 launch0.win.arr_inj c _ _ 2, final m c]
  exact reshaped_eq _ _

/-- The idealized kernel's run, read: the result is `G` of the arguments, and the arguments are unchanged. -/
theorem run : θ_run defs (onTc (τ := τ) (main (F := Ideal))) ⟨m, fun _ => 0, ρ⟩ fun r => ∀ c : Dev nD,
      r.2.mem ((c.tc : Thread nD τ).loc main_v2) = G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v2 (Pipeline.mem_restRefs_of main_v2 (by decide) (by decide))).trans (tail_eq m c),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c)⟩)
    (run_main m ρ)

end Cert.LocalAttention.Ker

end
-- ==== Proof.lean ====
/-
  The certificate: a locally connected attention layer, computed tile by tile, against its plain array form.

  Both programs compute, for every batch entry X (10 look-back rows × 100 ages) and the unshared 5 × 5 filter W,
      pre h j = 0 + Σ_{di,dj} padded X (h+di) (j+dj) · W h j di dj      (the 25 products in row-major order of (di, dj)),
      att h j = logistic (pre h j),
      forecast j = Σ_h X h j · att h j,        penalty j = Σ_h η · att h j²,
  and return the two rows per entry (Proof/Spec.lean, the function `G`).
  The kernel handles 1024 entries per grid point on arrays transposed to row × entry × age, pads by concatenating zero
  slabs, and writes forecast and penalty side by side (entry × 200), which the host reshapes to entry × 2 × 100
  (Proof/KernelBlock.lean: one element of a stored block; Proof/KernelArray.lean: the blocks tile the array, and the reshape).
  The reference pads on the host, adds the same 25 products in the same order, spells the logistic 1 / (1 + exp (−z)),
  carries a term 0 · sqrt (att² + ε) that vanishes on the extended reals, and sums over the rows from the initial value 0
  (Proof/RefTaps.lean, Proof/RefValue.lean).  Sums of ten terms are compared term by term, so no law of the extended
  reals beyond 0 · z = 0 and 0 + z = z is used, and the inputs' finiteness is not needed.
  The reference's run is read piece by piece along its 209 host operations (Proof/RefOps.lean, Proof/RefRun.lean), each
  buffer at the stage of Proof/RefRead.lean.  The kernels' frames are the generated ones, the reference's is its run with
  the result dropped; the ideal pass rewrote nothing, so the idealization conjunct is `True`.
-/
import proofs.«112428_j16501264351338_2_alg».proof.Defs
import proofs.«112428_j16501264351338_2_alg».proof.Proof.Gen.Kernel
import proofs.«112428_j16501264351338_2_alg».proof.Proof.Gen.Kernel.Skeleton
import proofs.«112428_j16501264351338_2_alg».proof.Proof.Gen.Kernel.Launch
import proofs.«112428_j16501264351338_2_alg».proof.Proof.Gen.Kernel.Points
import proofs.«112428_j16501264351338_2_alg».proof.Proof.Gen.Kernel.Frame
import proofs.«112428_j16501264351338_2_alg».proof.Proof.Gen.KernelIdeal
import proofs.«112428_j16501264351338_2_alg».proof.Proof.Gen.KernelIdeal.Skeleton
import proofs.«112428_j16501264351338_2_alg».proof.Proof.Gen.KernelIdeal.Launch
import proofs.«112428_j16501264351338_2_alg».proof.Proof.Gen.KernelIdeal.Points
import proofs.«112428_j16501264351338_2_alg».proof.Proof.Gen.KernelIdeal.Frame
import proofs.«112428_j16501264351338_2_alg».proof.Proof.Gen.ReferenceIdeal
import proofs.«112428_j16501264351338_2_alg».proof.Proof.Gen.Pre_finite_inputs
import proofs.«112428_j16501264351338_2_alg».proof.Proof.RefRun
import proofs.«112428_j16501264351338_2_alg».proof.Proof.RefValue
import proofs.«112428_j16501264351338_2_alg».proof.Proof.KernelArray
import Idealize.ShloMosaic.Adequacy
import Idealize.ShloMosaic.Init

noncomputable section

namespace Cert.Proof

open Idealize.ShloMosaic Idealize.SL.Sem Cert.LocalAttention

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run with the result dropped. -/
theorem frame_referenceIdeal : Cert.frame_ReferenceIdeal := fun m ρ _ =>
  (θ_run Cert.ReferenceIdeal.defs _ _).mono (fun _ h c => (h c).2) (Cert.ReferenceIdeal.Value.run m ρ)

/-- Both idealized programs end with the function `G` of their (agreeing) arguments. -/
theorem algebraic : Cert.algebraic_KernelIdeal_ReferenceIdeal := by
  intro m ρ m' ρ' _ hagree
  refine ⟨fun c => G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), Ker.run m ρ, ?_⟩
  refine (θ_run Cert.ReferenceIdeal.defs _ _).mono (fun _ h c => ⟨?_, (h c).2⟩)
    (Cert.ReferenceIdeal.Value.run m' ρ')
  rw [(h c).1, Ref.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
